-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S2x200000 : Shape := ⟨2, ![2, 200000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg7 : FVec F S128 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg8
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S2x200000 32) (main_arg3 : IVec S2x200000 32) (main_arg4 : FVec F S128x128 .f32) (main_arg5 : FVec F S128 .f32) (main_arg6 : FVec F S128x128 .f32) (main_arg7 : FVec F S128 .f32) (main_arg8 : FVec F S128x64 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_v13 main_v16
-- ==== Kernel.lean ====
abbrev S50000x128 : Shape := ⟨2, ![50000, 128]⟩
abbrev S2x800000 : Shape := ⟨2, ![2, 800000]⟩
abbrev S2x200000 : Shape := ⟨2, ![2, 200000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S5000x1 : Shape := ⟨2, ![5000, 1]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩
abbrev S1x200000 : Shape := ⟨2, ![1, 200000]⟩
abbrev S200000 : Shape := ⟨1, ![200000]⟩
abbrev S400000 : Shape := ⟨1, ![400000]⟩
abbrev S400000x1 : Shape := ⟨2, ![400000, 1]⟩
abbrev S400000x64 : Shape := ⟨2, ![400000, 64]⟩

abbrev nBuf : Space → Nat
  | .hbm => 127
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S2x200000, .i32⟩
  | .hbm, ⟨3, _⟩ => ⟨S2x200000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000x128, .f32⟩
  | .hbm, ⟨45, _⟩ => ⟨S_, .f32⟩
  | .hbm, ⟨46, _⟩ => ⟨S50000x128, .f32⟩
  | .hbm, ⟨47, _⟩ => ⟨S850000x1, .i32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S_, .f32⟩
  | .hbm, ⟨61, _⟩ => ⟨S50000x128, .f32⟩
  | .hbm, ⟨62, _⟩ => ⟨S850000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x128, .f32⟩
  | .hbm, ⟨75, _⟩ => ⟨S_, .f32⟩
  | .hbm, ⟨76, _⟩ => ⟨S50000x128, .f32⟩
  | .hbm, ⟨77, _⟩ => ⟨S850000x1, .i32⟩
  | .hbm, ⟨78, _⟩ => ⟨S50000x128, .f32⟩
  | .hbm, ⟨79, _⟩ => ⟨S1x128, .f32⟩
  | .hbm, ⟨80, _⟩ => ⟨S50000x64, .f32⟩
  | .hbm, ⟨81, _⟩ => ⟨S_, .i32⟩
  | .hbm, ⟨82, _⟩ => ⟨S850000, .i32⟩
  | .hbm, ⟨83, _⟩ => ⟨S850000, .i1⟩
  | .hbm, ⟨84, _⟩ => ⟨S_, .i32⟩
  | .hbm, ⟨85, _⟩ => ⟨S850000, .i32⟩
  | .hbm, ⟨86, _⟩ => ⟨S850000, .i32⟩
  | .hbm, ⟨87, _⟩ => ⟨S850000, .i32⟩
  | .hbm, ⟨88, _⟩ => ⟨S850000x1, .i32⟩
  | .hbm, ⟨89, _⟩ => ⟨S850000x64, .f32⟩
  | .hbm, ⟨90, _⟩ => ⟨S_, .f32⟩
  | .hbm, ⟨91, _⟩ => ⟨S50000x64, .f32⟩
  | .hbm, ⟨92, _⟩ => ⟨S850000x1, .i32⟩
  | .hbm, ⟨93, _⟩ => ⟨S50000x64, .f32⟩
  | .hbm, ⟨94, _⟩ => ⟨S1x64, .f32⟩
  | .hbm, ⟨95, _⟩ => ⟨S50000x64, .f32⟩
  | .hbm, ⟨96, _⟩ => ⟨S1x200000, .i32⟩
  | .hbm, ⟨97, _⟩ => ⟨S200000, .i32⟩
  | .hbm, ⟨98, _⟩ => ⟨S1x200000, .i32⟩
  | .hbm, ⟨99, _⟩ => ⟨S200000, .i32⟩
  | .hbm, ⟨100, _⟩ => ⟨S400000, .i32⟩
  | .hbm, ⟨101, _⟩ => ⟨S1x200000, .i32⟩
  | .hbm, ⟨102, _⟩ => ⟨S200000, .i32⟩
  | .hbm, ⟨103, _⟩ => ⟨S1x200000, .i32⟩
  | .hbm, ⟨104, _⟩ => ⟨S200000, .i32⟩
  | .hbm, ⟨105, _⟩ => ⟨S400000, .i32⟩
  | .hbm, ⟨106, _⟩ => ⟨S_, .i32⟩
  | .hbm, ⟨107, _⟩ => ⟨S400000, .i32⟩
  | .hbm, ⟨108, _⟩ => ⟨S400000, .i1⟩
  | .hbm, ⟨109, _⟩ => ⟨S_, .i32⟩
  | .hbm, ⟨110, _⟩ => ⟨S400000, .i32⟩
  | .hbm, ⟨111, _⟩ => ⟨S400000, .i32⟩
  | .hbm, ⟨112, _⟩ => ⟨S400000, .i32⟩
  | .hbm, ⟨113, _⟩ => ⟨S400000x1, .i32⟩
  | .hbm, ⟨114, _⟩ => ⟨S400000x64, .f32⟩
  | .hbm, ⟨115, _⟩ => ⟨S_, .i32⟩
  | .hbm, ⟨116, _⟩ => ⟨S400000, .i32⟩
  | .hbm, ⟨117, _⟩ => ⟨S400000, .i1⟩
  | .hbm, ⟨118, _⟩ => ⟨S_, .i32⟩
  | .hbm, ⟨119, _⟩ => ⟨S400000, .i32⟩
  | .hbm, ⟨120, _⟩ => ⟨S400000, .i32⟩
  | .hbm, ⟨121, _⟩ => ⟨S400000, .i32⟩
  | .hbm, ⟨122, _⟩ => ⟨S400000x1, .i32⟩
  | .hbm, ⟨123, _⟩ => ⟨S400000x64, .f32⟩
  | .hbm, ⟨124, _⟩ => ⟨S400000x64, .f32⟩
  | .hbm, ⟨125, _⟩ => ⟨S_, .f32⟩
  | .hbm, ⟨126, _⟩ => ⟨S400000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S1x128, .f32⟩
  | .local _ .vmem, ⟨28, _⟩ => ⟨S128x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x1, .f32⟩
  | .local _ .vmem, ⟨34, _⟩ => ⟨S5000x1, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_9 : Ref sig .tc := ⟨.hbm, 66, rfl⟩
abbrev main_v43 : Ref sig .tc := ⟨.hbm, 67, rfl⟩
abbrev main_v44 : Ref sig .tc := ⟨.hbm, 68, rfl⟩
abbrev main_c_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_12 : Ref sig .tc := ⟨.hbm, 81, rfl⟩
abbrev main_v55 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_15 : Ref sig .tc := ⟨.hbm, 106, rfl⟩
abbrev main_v77 : Ref sig .tc := ⟨.hbm, 107, rfl⟩
abbrev main_v78 : Ref sig .tc := ⟨.hbm, 108, rfl⟩
abbrev main_c_16 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_c_17 : Ref sig .tc := ⟨.hbm, 115, rfl⟩
abbrev main_v84 : Ref sig .tc := ⟨.hbm, 116, rfl⟩
abbrev main_v85 : Ref sig .tc := ⟨.hbm, 117, rfl⟩
abbrev main_c_18 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_19 : Ref sig .tc := ⟨.hbm, 125, rfl⟩
abbrev main_v92 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg4_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem4_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem3_0 : DmaSem sig := 36
abbrev cc4_sem3_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S2x200000_S1x200000_0_0 : S2x200000.Slices ![0, 0] S1x200000
  shapeCasts_S1x200000_S200000 : S1x200000.ShapeCasts S200000
  concatenates_S200000_S200000_S400000_d0 : Shape.Concatenates [S200000, S200000] S400000 0
  slices_S2x200000_S1x200000_1_0 : S2x200000.Slices ![1, 0] S1x200000
  bcast_S_S400000 : S_.BroadcastsInDim S400000 (![] : Fin 0 → Fin S400000.rank)
  bcast_S400000_S400000x1_0 : S400000.BroadcastsInDim S400000x1 (![0] : Fin 1 → Fin S400000x1.rank)
  reducesTo_S400000x64_S400000_d1 : S400000x64.ReducesTo [1] S400000
  h_S_ : 0 < S_.numel
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  gather_S50000x64_S400000x1_S400000x64_1_0_n_n_0_1_164_wf : GatherDims.WF S50000x64 S400000x1 S400000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v52) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v53) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v64) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v17) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v65) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v66) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S2x200000 : Shape := ⟨2, ![2, 200000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S2x400000 : Shape := ⟨2, ![2, 400000]⟩
abbrev S1x400000 : Shape := ⟨2, ![1, 400000]⟩
abbrev S400000 : Shape := ⟨1, ![400000]⟩
abbrev S400000x1 : Shape := ⟨2, ![400000, 1]⟩
abbrev S400000x64 : Shape := ⟨2, ![400000, 64]⟩

abbrev nBuf : Space → Nat
  | .hbm => 183
  | .vmem => 0
  | .smem => 0
  | _ => 0

abbrev hbmTy0_0 (i : Nat) : BufTy := match i % 128 with
  | 0 => ⟨S50000x128, .f32⟩
  | 1 => ⟨S2x800000, .i32⟩
  | 2 => ⟨S2x200000, .i32⟩
  | 3 => ⟨S2x200000, .i32⟩
  | 4 => ⟨S128x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x128, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x128, .f32⟩
  | 63 => ⟨S850000x1, .f32⟩
  | 64 => ⟨S850000x128, .f32⟩
  | 65 => ⟨S850000x128, .f32⟩
  | 66 => ⟨S_, .f32⟩
  | 67 => ⟨S50000x128, .f32⟩
  | 68 => ⟨S850000x1, .i32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S_, .f32⟩
  | 75 => ⟨S50000x128, .f32⟩
  | 76 => ⟨S50000x128, .i1⟩
  | 77 => ⟨S_, .f32⟩
  | 78 => ⟨S50000x128, .f32⟩
  | 79 => ⟨S50000x128, .f32⟩
  | 80 => ⟨S50000x128, .f32⟩
  | 81 => ⟨S50000x128, .f32⟩
  | 82 => ⟨S_, .i32⟩
  | 83 => ⟨S850000, .i32⟩
  | 84 => ⟨S850000, .i1⟩
  | 85 => ⟨S_, .i32⟩
  | 86 => ⟨S850000, .i32⟩
  | 87 => ⟨S850000, .i32⟩
  | 88 => ⟨S850000, .i32⟩
  | 89 => ⟨S850000x1, .i32⟩
  | 90 => ⟨S850000x128, .f32⟩
  | 91 => ⟨S850000x1, .f32⟩
  | 92 => ⟨S850000x128, .f32⟩
  | 93 => ⟨S850000x128, .f32⟩
  | 94 => ⟨S_, .f32⟩
  | 95 => ⟨S50000x128, .f32⟩
  | 96 => ⟨S850000x1, .i32⟩
  | 97 => ⟨S50000x128, .f32⟩
  | 98 => ⟨S1x128, .f32⟩
  | 99 => ⟨S50000x128, .f32⟩
  | 100 => ⟨S50000x128, .f32⟩
  | 101 => ⟨S_, .f32⟩
  | 102 => ⟨S_, .f32⟩
  | 103 => ⟨S50000x128, .f32⟩
  | 104 => ⟨S50000x128, .i1⟩
  | 105 => ⟨S_, .f32⟩
  | 106 => ⟨S50000x128, .f32⟩
  | 107 => ⟨S50000x128, .f32⟩
  | 108 => ⟨S50000x128, .f32⟩
  | 109 => ⟨S50000x128, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x128, .f32⟩
  | 119 => ⟨S850000x1, .f32⟩
  | 120 => ⟨S850000x128, .f32⟩
  | 121 => ⟨S850000x128, .f32⟩
  | 122 => ⟨S_, .f32⟩
  | 123 => ⟨S50000x128, .f32⟩
  | 124 => ⟨S850000x1, .i32⟩
  | 125 => ⟨S50000x128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S_, .f32⟩
  | 2 => ⟨S_, .f32⟩
  | 3 => ⟨S50000x128, .f32⟩
  | 4 => ⟨S50000x128, .i1⟩
  | 5 => ⟨S_, .f32⟩
  | 6 => ⟨S50000x128, .f32⟩
  | 7 => ⟨S50000x128, .f32⟩
  | 8 => ⟨S50000x128, .f32⟩
  | 9 => ⟨S50000x64, .f32⟩
  | 10 => ⟨S_, .i32⟩
  | 11 => ⟨S850000, .i32⟩
  | 12 => ⟨S850000, .i1⟩
  | 13 => ⟨S_, .i32⟩
  | 14 => ⟨S850000, .i32⟩
  | 15 => ⟨S850000, .i32⟩
  | 16 => ⟨S850000, .i32⟩
  | 17 => ⟨S850000x1, .i32⟩
  | 18 => ⟨S850000x64, .f32⟩
  | 19 => ⟨S850000x1, .f32⟩
  | 20 => ⟨S850000x64, .f32⟩
  | 21 => ⟨S850000x64, .f32⟩
  | 22 => ⟨S_, .f32⟩
  | 23 => ⟨S50000x64, .f32⟩
  | 24 => ⟨S850000x1, .i32⟩
  | 25 => ⟨S50000x64, .f32⟩
  | 26 => ⟨S1x64, .f32⟩
  | 27 => ⟨S50000x64, .f32⟩
  | 28 => ⟨S50000x64, .f32⟩
  | 29 => ⟨S2x400000, .i32⟩
  | 30 => ⟨S1x400000, .i32⟩
  | 31 => ⟨S400000, .i32⟩
  | 32 => ⟨S_, .i32⟩
  | 33 => ⟨S400000, .i32⟩
  | 34 => ⟨S400000, .i1⟩
  | 35 => ⟨S_, .i32⟩
  | 36 => ⟨S400000, .i32⟩
  | 37 => ⟨S400000, .i32⟩
  | 38 => ⟨S400000, .i32⟩
  | 39 => ⟨S400000x1, .i32⟩
  | 40 => ⟨S400000x64, .f32⟩
  | 41 => ⟨S1x400000, .i32⟩
  | 42 => ⟨S400000, .i32⟩
  | 43 => ⟨S_, .i32⟩
  | 44 => ⟨S400000, .i32⟩
  | 45 => ⟨S400000, .i1⟩
  | 46 => ⟨S_, .i32⟩
  | 47 => ⟨S400000, .i32⟩
  | 48 => ⟨S400000, .i32⟩
  | 49 => ⟨S400000, .i32⟩
  | 50 => ⟨S400000x1, .i32⟩
  | 51 => ⟨S400000x64, .f32⟩
  | 52 => ⟨S400000x64, .f32⟩
  | 53 => ⟨S_, .f32⟩
  | 54 => ⟨S400000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_call1_cst : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_v49 : Ref sig .tc := ⟨.hbm, 80, rfl⟩
abbrev main_v50 : Ref sig .tc := ⟨.hbm, 81, rfl⟩
abbrev main_c_11 : Ref sig .tc := ⟨.hbm, 82, rfl⟩
abbrev main_v51 : Ref sig .tc := ⟨.hbm, 83, rfl⟩
abbrev main_v52 : Ref sig .tc := ⟨.hbm, 84, rfl⟩
abbrev main_c_12 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_13 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_14 : Ref sig .tc := ⟨.hbm, 101, rfl⟩
abbrev main_call2_cst : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_v67 : Ref sig .tc := ⟨.hbm, 108, rfl⟩
abbrev main_v68 : Ref sig .tc := ⟨.hbm, 109, rfl⟩
abbrev main_c_15 : Ref sig .tc := ⟨.hbm, 110, rfl⟩
abbrev main_v69 : Ref sig .tc := ⟨.hbm, 111, rfl⟩
abbrev main_v70 : Ref sig .tc := ⟨.hbm, 112, rfl⟩
abbrev main_c_16 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_cst_17 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_18 : Ref sig .tc := ⟨.hbm, 129, rfl⟩
abbrev main_call3_cst : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_v85 : Ref sig .tc := ⟨.hbm, 136, rfl⟩
abbrev main_v86 : Ref sig .tc := ⟨.hbm, 137, rfl⟩
abbrev main_c_19 : Ref sig .tc := ⟨.hbm, 138, rfl⟩
abbrev main_v87 : Ref sig .tc := ⟨.hbm, 139, rfl⟩
abbrev main_v88 : Ref sig .tc := ⟨.hbm, 140, rfl⟩
abbrev main_c_20 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_cst_21 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_c_22 : Ref sig .tc := ⟨.hbm, 160, rfl⟩
abbrev main_v106 : Ref sig .tc := ⟨.hbm, 161, rfl⟩
abbrev main_v107 : Ref sig .tc := ⟨.hbm, 162, rfl⟩
abbrev main_c_23 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_c_24 : Ref sig .tc := ⟨.hbm, 171, rfl⟩
abbrev main_v115 : Ref sig .tc := ⟨.hbm, 172, rfl⟩
abbrev main_v116 : Ref sig .tc := ⟨.hbm, 173, rfl⟩
abbrev main_c_25 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_cst_26 : Ref sig .tc := ⟨.hbm, 181, rfl⟩
abbrev main_v123 : Ref sig .tc := ⟨.hbm, 182, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S2x200000_S2x200000_S2x400000_d1 : Shape.Concatenates [S2x200000, S2x200000] S2x400000 1
  slices_S2x400000_S1x400000_0_0 : S2x400000.Slices ![0, 0] S1x400000
  shapeCasts_S1x400000_S400000 : S1x400000.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  slices_S2x400000_S1x400000_1_0 : S2x400000.Slices ![1, 0] S1x400000
  reducesTo_S400000x64_S400000_d1 : S400000x64.ReducesTo [1] S400000
  h_S_ : 0 < S_.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  gather_S50000x64_S400000x1_S400000x64_1_0_n_n_0_1_164_wf : GatherDims.WF S50000x64 S400000x1 S400000x64 [1] [0] [] [0] [] 1 ![1, 64]

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf

class Facts : Prop extends Facts₀ where

variable [Facts]
-- ==== Proof.RefOps.lean ====
/-
  The idealized reference's @main as ONE list of its host operations — the three printed windows in order, each
  outlined function's operations written at its call over that call's buffers — and its run read back: every weakly
  fair execution terminates with every TensorCore buffer at the operations' fold over the launch contents.
-/
import proofs.«137646_j56495999811606_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 173 operations, in order. -/
abbrev ops : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x2B8CBCCC#32),
    StableHlo.unary main_cst_2 main_v13 (broadcastInDim S50000 ![] bcast_S_S50000 : (⟨S_, .f32⟩ : BufTy).Contents (Elt F) → (⟨S50000, .f32⟩ : BufTy).Contents (Elt F)),
    StableHlo.binary main_v10 main_v13 main_v14 (maximumf : (⟨S50000, .f32⟩ : BufTy).Contents (Elt F) → (⟨S50000, .f32⟩ : BufTy).Contents (Elt F) → (⟨S50000, .f32⟩ : BufTy).Contents (Elt F)),
    StableHlo.unary main_v14 main_v15 (Host.rsqrt : (⟨S50000, .f32⟩ : BufTy).Contents (Elt F) → (⟨S50000, .f32⟩ : BufTy).Contents (Elt F)),
    StableHlo.nullary main_cst_3 (constant S_ .f32 0x00000000#32),
    StableHlo.TRef.unary (.of main_cst_3) main_call0.v0 id,
    StableHlo.TRef.unary main_call0.v0 main_call0.v1 (broadcastInDim S50000 ![] bcast_S_S50000),
    StableHlo.TRef.ternary (.of main_v12) (.of main_v15) main_call0.v1 main_call0.v2 select,
    StableHlo.nullary main_c (constantI S_ 32 0#32),
    StableHlo.unary main_c main_v17 (broadcastInDim S850000 ![] bcast_S_S850000 : (⟨S_, .i32⟩ : BufTy).Contents (Elt F) → (⟨S850000, .i32⟩ : BufTy).Contents (Elt F)),
    StableHlo.binary main_v3 main_v17 main_v18 (cmpi .slt : (⟨S850000, .i32⟩ : BufTy).Contents (Elt F) → (⟨S850000, .i32⟩ : BufTy).Contents (Elt F) → (⟨S850000, .i1⟩ : BufTy).Contents (Elt F)),
    StableHlo.nullary main_c_4 (constantI S_ 32 50000#32),
    StableHlo.unary main_c_4 main_v19 (broadcastInDim S850000 ![] bcast_S_S850000 : (⟨S_, .i32⟩ : BufTy).Contents (Elt F) → (⟨S850000, .i32⟩ : BufTy).Contents (Elt F)),
    StableHlo.binary main_v3 main_v19 main_v20 (addi : (⟨S850000, .i32⟩ : BufTy).Contents (Elt F) → (⟨S850000, .i32⟩ : BufTy).Contents (Elt F) → (⟨S850000, .i32⟩ : BufTy).Contents (Elt F)),
    StableHlo.ternary main_v18 main_v20 main_v3 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v21 main_v22 (broadcastInDim S850000x1 ![0] bcast_S850000_S850000x1_0 : (⟨S850000, .i32⟩ : BufTy).Contents (Elt F) → (⟨S850000x1, .i32⟩ : BufTy).Contents (Elt F)),
    StableHlo.binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_5 (constantI S_ 32 0#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (cmpi .slt : (⟨S850000, .i32⟩ : BufTy).Contents (Elt F) → (⟨S850000, .i32⟩ : BufTy).Contents (Elt F) → (⟨S850000, .i1⟩ : BufTy).Contents (Elt F)),
    StableHlo.nullary main_c_6 (constantI S_ 32 50000#32),
    StableHlo.unary main_c_6 main_v26 (broadcastInDim S850000 ![] bcast_S_S850000 : (⟨S_, .i32⟩ : BufTy).Contents (Elt F) → (⟨S850000, .i32⟩ : BufTy).Contents (Elt F)),
    StableHlo.binary main_v6 main_v26 main_v27 (addi : (⟨S850000, .i32⟩ : BufTy).Contents (Elt F) → (⟨S850000, .i32⟩ : BufTy).Contents (Elt F) → (⟨S850000, .i32⟩ : BufTy).Contents (Elt F)),
    StableHlo.ternary main_v25 main_v27 main_v6 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v28 main_v29 (broadcastInDim S850000x1 ![0] bcast_S850000_S850000x1_0 : (⟨S850000, .i32⟩ : BufTy).Contents (Elt F) → (⟨S850000x1, .i32⟩ : BufTy).Contents (Elt F)),
    StableHlo.binary main_v16 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v23 main_v30 main_v31 (mulf : (⟨S850000, .f32⟩ : BufTy).Contents (Elt F) → (⟨S850000, .f32⟩ : BufTy).Contents (Elt F) → (⟨S850000, .f32⟩ : BufTy).Contents (Elt F)),
    StableHlo.binary main_arg0 main_arg4 main_v32 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_7 (constantI S_ 32 0#32),
    StableHlo.unary main_c_7 main_v33 (broadcastInDim S850000 ![] bcast_S_S850000 : (⟨S_, .i32⟩ : BufTy).Contents (Elt F) → (⟨S850000, .i32⟩ : BufTy).Contents (Elt F)),
    StableHlo.binary main_v3 main_v33 main_v34 (cmpi .slt : (⟨S850000, .i32⟩ : BufTy).Contents (Elt F) → (⟨S850000, .i32⟩ : BufTy).Contents (Elt F) → (⟨S850000, .i1⟩ : BufTy).Contents (Elt F)),
    StableHlo.nullary main_c_8 (constantI S_ 32 50000#32),
    StableHlo.unary main_c_8 main_v35 (broadcastInDim S850000 ![] bcast_S_S850000 : (⟨S_, .i32⟩ : BufTy).Contents (Elt F) → (⟨S850000, .i32⟩ : BufTy).Contents (Elt F)),
    StableHlo.binary main_v3 main_v35 main_v36 (addi : (⟨S850000, .i32⟩ : BufTy).Contents (Elt F) → (⟨S850000, .i32⟩ : BufTy).Contents (Elt F) → (⟨S850000, .i32⟩ : BufTy).Contents (Elt F)),
    StableHlo.ternary main_v34 main_v36 main_v3 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v37 main_v38 (broadcastInDim S850000x1 ![0] bcast_S850000_S850000x1_0 : (⟨S850000, .i32⟩ : BufTy).Contents (Elt F) → (⟨S850000x1, .i32⟩ : BufTy).Contents (Elt F)),
    StableHlo.binary main_v32 main_v38 main_v39 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v31 main_v40 (broadcastInDim S850000x1 ![0] bcast_S850000_S850000x1_0 : (⟨S850000, .f32⟩ : BufTy).Contents (Elt F) → (⟨S850000x1, .f32⟩ : BufTy).Contents (Elt F)),
    StableHlo.unary main_v40 main_v41 (broadcastInDim S850000x128 ![0, 1] bcast_S850000x1_S850000x128_0_1 : (⟨S850000x1, .f32⟩ : BufTy).Contents (Elt F) → (⟨S850000x128, .f32⟩ : BufTy).Contents (Elt F)),
    StableHlo.binary main_v39 main_v41 main_v42 (mulf : (⟨S850000x128, .f32⟩ : BufTy).Contents (Elt F) → (⟨S850000x128, .f32⟩ : BufTy).Contents (Elt F) → (⟨S850000x128, .f32⟩ : BufTy).Contents (Elt F)),
    StableHlo.nullary main_cst_9 (constant S_ .f32 0x00000000#32),
    StableHlo.unary main_cst_9 main_v43 (broadcastInDim S50000x128 ![] bcast_S_S50000x128 : (⟨S_, .f32⟩ : BufTy).Contents (Elt F) → (⟨S50000x128, .f32⟩ : BufTy).Contents (Elt F)),
    StableHlo.unary main_v6 main_v44 (broadcastInDim S850000x1 ![0] bcast_S850000_S850000x1_0 : (⟨S850000, .i32⟩ : BufTy).Contents (Elt F) → (⟨S850000x1, .i32⟩ : BufTy).Contents (Elt F)),
    StableHlo.ternary main_v43 main_v44 main_v42 main_v45 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg5 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),
    StableHlo.binary main_v45 main_v47 main_v48 (addf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0x3E4CCCCD#32),
    StableHlo.TRef.nullary main_call1.cst (constant S_ .f32 0x00000000#32),
    StableHlo.TRef.unary main_call1.cst main_call1.v0 (broadcastInDim S50000x128 ![] bcast_S_S50000x128),
    StableHlo.TRef.binary (.of main_v48) main_call1.v0 main_call1.v1 (cmpf .oge),
    StableHlo.TRef.unary (.of main_cst_10) main_call1.v2 id,
    StableHlo.TRef.unary main_call1.v2 main_call1.v3 (broadcastInDim S50000x128 ![] bcast_S_S50000x128),
    StableHlo.TRef.binary main_call1.v3 (.of main_v48) main_call1.v4 mulf,
    StableHlo.TRef.ternary main_call1.v1 (.of main_v48) main_call1.v4 main_call1.call0.v0 select,
    StableHlo.binary main_v49 main_arg6 main_v50 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_11 (constantI S_ 32 0#32),
    StableHlo.unary main_c_11 main_v51 (broadcastInDim S850000 ![] bcast_S_S850000 : (⟨S_, .i32⟩ : BufTy).Contents (Elt F) → (⟨S850000, .i32⟩ : BufTy).Contents (Elt F)),
    StableHlo.binary main_v3 main_v51 main_v52 (cmpi .slt : (⟨S850000, .i32⟩ : BufTy).Contents (Elt F) → (⟨S850000, .i32⟩ : BufTy).Contents (Elt F) → (⟨S850000, .i1⟩ : BufTy).Contents (Elt F)),
    StableHlo.nullary main_c_12 (constantI S_ 32 50000#32),
    StableHlo.unary main_c_12 main_v53 (broadcastInDim S850000 ![] bcast_S_S850000 : (⟨S_, .i32⟩ : BufTy).Contents (Elt F) → (⟨S850000, .i32⟩ : BufTy).Contents (Elt F)),
    StableHlo.binary main_v3 main_v53 main_v54 (addi : (⟨S850000, .i32⟩ : BufTy).Contents (Elt F) → (⟨S850000, .i32⟩ : BufTy).Contents (Elt F) → (⟨S850000, .i32⟩ : BufTy).Contents (Elt F)),
    StableHlo.ternary main_v52 main_v54 main_v3 main_v55 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v55 main_v56 (broadcastInDim S850000x1 ![0] bcast_S850000_S850000x1_0 : (⟨S850000, .i32⟩ : BufTy).Contents (Elt F) → (⟨S850000x1, .i32⟩ : BufTy).Contents (Elt F)),
    StableHlo.binary main_v50 main_v56 main_v57 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v31 main_v58 (broadcastInDim S850000x1 ![0] bcast_S850000_S850000x1_0 : (⟨S850000, .f32⟩ : BufTy).Contents (Elt F) → (⟨S850000x1, .f32⟩ : BufTy).Contents (Elt F)),
    StableHlo.unary main_v58 main_v59 (broadcastInDim S850000x128 ![0, 1] bcast_S850000x1_S850000x128_0_1 : (⟨S850000x1, .f32⟩ : BufTy).Contents (Elt F) → (⟨S850000x128, .f32⟩ : BufTy).Contents (Elt F)),
    StableHlo.binary main_v57 main_v59 main_v60 (mulf : (⟨S850000x128, .f32⟩ : BufTy).Contents (Elt F) → (⟨S850000x128, .f32⟩ : BufTy).Contents (Elt F) → (⟨S850000x128, .f32⟩ : BufTy).Contents (Elt F)),
    StableHlo.nullary main_cst_13 (constant S_ .f32 0x00000000#32),
    StableHlo.unary main_cst_13 main_v61 (broadcastInDim S50000x128 ![] bcast_S_S50000x128 : (⟨S_, .f32⟩ : BufTy).Contents (Elt F) → (⟨S50000x128, .f32⟩ : BufTy).Contents (Elt F)),
    StableHlo.unary main_v6 main_v62 (broadcastInDim S850000x1 ![0] bcast_S850000_S850000x1_0 : (⟨S850000, .i32⟩ : BufTy).Contents (Elt F) → (⟨S850000x1, .i32⟩ : BufTy).Contents (Elt F)),
    StableHlo.ternary main_v61 main_v62 main_v60 main_v63 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg7 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S50000x128 ![0, 1] bcast_S1x128_S50000x128_0_1 : (⟨S1x128, .f32⟩ : BufTy).Contents (Elt F) → (⟨S50000x128, .f32⟩ : BufTy).Contents (Elt F)),
    StableHlo.binary main_v63 main_v65 main_v66 (addf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x3E4CCCCD#32),
    StableHlo.TRef.nullary main_call2.cst (constant S_ .f32 0x00000000#32),
    StableHlo.TRef.unary main_call2.cst main_call2.v0 (broadcastInDim S50000x128 ![] bcast_S_S50000x128),
    StableHlo.TRef.binary (.of main_v66) main_call2.v0 main_call2.v1 (cmpf .oge),
    StableHlo.TRef.unary (.of main_cst_14) main_call2.v2 id,
    StableHlo.TRef.unary main_call2.v2 main_call2.v3 (broadcastInDim S50000x128 ![] bcast_S_S50000x128),
    StableHlo.TRef.binary main_call2.v3 (.of main_v66) main_call2.v4 mulf,
    StableHlo.TRef.ternary main_call2.v1 (.of main_v66) main_call2.v4 main_call2.call0.v0 select,
    StableHlo.binary main_v67 main_arg6 main_v68 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_15 (constantI S_ 32 0#32),
    StableHlo.unary main_c_15 main_v69 (broadcastInDim S850000 ![] bcast_S_S850000 : (⟨S_, .i32⟩ : BufTy).Contents (Elt F) → (⟨S850000, .i32⟩ : BufTy).Contents (Elt F)),
    StableHlo.binary main_v3 main_v69 main_v70 (cmpi .slt : (⟨S850000, .i32⟩ : BufTy).Contents (Elt F) → (⟨S850000, .i32⟩ : BufTy).Contents (Elt F) → (⟨S850000, .i1⟩ : BufTy).Contents (Elt F)),
    StableHlo.nullary main_c_16 (constantI S_ 32 50000#32),
    StableHlo.unary main_c_16 main_v71 (broadcastInDim S850000 ![] bcast_S_S850000 : (⟨S_, .i32⟩ : BufTy).Contents (Elt F) → (⟨S850000, .i32⟩ : BufTy).Contents (Elt F)),
    StableHlo.binary main_v3 main_v71 main_v72 (addi : (⟨S850000, .i32⟩ : BufTy).Contents (Elt F) → (⟨S850000, .i32⟩ : BufTy).Contents (Elt F) → (⟨S850000, .i32⟩ : BufTy).Contents (Elt F)),
    StableHlo.ternary main_v70 main_v72 main_v3 main_v73 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v73 main_v74 (broadcastInDim S850000x1 ![0] bcast_S850000_S850000x1_0 : (⟨S850000, .i32⟩ : BufTy).Contents (Elt F) → (⟨S850000x1, .i32⟩ : BufTy).Contents (Elt F)),
    StableHlo.binary main_v68 main_v74 main_v75 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v31 main_v76 (broadcastInDim S850000x1 ![0] bcast_S850000_S850000x1_0 : (⟨S850000, .f32⟩ : BufTy).Contents (Elt F) → (⟨S850000x1, .f32⟩ : BufTy).Contents (Elt F)),
    StableHlo.unary main_v76 main_v77 (broadcastInDim S850000x128 ![0, 1] bcast_S850000x1_S850000x128_0_1 : (⟨S850000x1, .f32⟩ : BufTy).Contents (Elt F) → (⟨S850000x128, .f32⟩ : BufTy).Contents (Elt F)),
    StableHlo.binary main_v75 main_v77 main_v78 (mulf : (⟨S850000x128, .f32⟩ : BufTy).Contents (Elt F) → (⟨S850000x128, .f32⟩ : BufTy).Contents (Elt F) → (⟨S850000x128, .f32⟩ : BufTy).Contents (Elt F)),
    StableHlo.nullary main_cst_17 (constant S_ .f32 0x00000000#32),
    StableHlo.unary main_cst_17 main_v79 (broadcastInDim S50000x128 ![] bcast_S_S50000x128 : (⟨S_, .f32⟩ : BufTy).Contents (Elt F) → (⟨S50000x128, .f32⟩ : BufTy).Contents (Elt F)),
    StableHlo.unary main_v6 main_v80 (broadcastInDim S850000x1 ![0] bcast_S850000_S850000x1_0 : (⟨S850000, .i32⟩ : BufTy).Contents (Elt F) → (⟨S850000x1, .i32⟩ : BufTy).Contents (Elt F)),
    StableHlo.ternary main_v79 main_v80 main_v78 main_v81 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg7 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S50000x128 ![0, 1] bcast_S1x128_S50000x128_0_1 : (⟨S1x128, .f32⟩ : BufTy).Contents (Elt F) → (⟨S50000x128, .f32⟩ : BufTy).Contents (Elt F)),
    StableHlo.binary main_v81 main_v83 main_v84 (addf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x3E4CCCCD#32),
    StableHlo.TRef.nullary main_call3.cst (constant S_ .f32 0x00000000#32),
    StableHlo.TRef.unary main_call3.cst main_call3.v0 (broadcastInDim S50000x128 ![] bcast_S_S50000x128),
    StableHlo.TRef.binary (.of main_v84) main_call3.v0 main_call3.v1 (cmpf .oge),
    StableHlo.TRef.unary (.of main_cst_18) main_call3.v2 id,
    StableHlo.TRef.unary main_call3.v2 main_call3.v3 (broadcastInDim S50000x128 ![] bcast_S_S50000x128),
    StableHlo.TRef.binary main_call3.v3 (.of main_v84) main_call3.v4 mulf,
    StableHlo.TRef.ternary main_call3.v1 (.of main_v84) main_call3.v4 main_call3.call0.v0 select,
    StableHlo.binary main_v85 main_arg8 main_v86 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.nullary main_c_19 (constantI S_ 32 0#32),
    StableHlo.unary main_c_19 main_v87 (broadcastInDim S850000 ![] bcast_S_S850000 : (⟨S_, .i32⟩ : BufTy).Contents (Elt F) → (⟨S850000, .i32⟩ : BufTy).Contents (Elt F)),
    StableHlo.binary main_v3 main_v87 main_v88 (cmpi .slt : (⟨S850000, .i32⟩ : BufTy).Contents (Elt F) → (⟨S850000, .i32⟩ : BufTy).Contents (Elt F) → (⟨S850000, .i1⟩ : BufTy).Contents (Elt F)),
    StableHlo.nullary main_c_20 (constantI S_ 32 50000#32),
    StableHlo.unary main_c_20 main_v89 (broadcastInDim S850000 ![] bcast_S_S850000 : (⟨S_, .i32⟩ : BufTy).Contents (Elt F) → (⟨S850000, .i32⟩ : BufTy).Contents (Elt F)),
    StableHlo.binary main_v3 main_v89 main_v90 (addi : (⟨S850000, .i32⟩ : BufTy).Contents (Elt F) → (⟨S850000, .i32⟩ : BufTy).Contents (Elt F) → (⟨S850000, .i32⟩ : BufTy).Contents (Elt F)),
    StableHlo.ternary main_v88 main_v90 main_v3 main_v91 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v91 main_v92 (broadcastInDim S850000x1 ![0] bcast_S850000_S850000x1_0 : (⟨S850000, .i32⟩ : BufTy).Contents (Elt F) → (⟨S850000x1, .i32⟩ : BufTy).Contents (Elt F)),
    StableHlo.binary main_v86 main_v92 main_v93 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v31 main_v94 (broadcastInDim S850000x1 ![0] bcast_S850000_S850000x1_0 : (⟨S850000, .f32⟩ : BufTy).Contents (Elt F) → (⟨S850000x1, .f32⟩ : BufTy).Contents (Elt F)),
    StableHlo.unary main_v94 main_v95 (broadcastInDim S850000x64 ![0, 1] bcast_S850000x1_S850000x64_0_1 : (⟨S850000x1, .f32⟩ : BufTy).Contents (Elt F) → (⟨S850000x64, .f32⟩ : BufTy).Contents (Elt F)),
    StableHlo.binary main_v93 main_v95 main_v96 (mulf : (⟨S850000x64, .f32⟩ : BufTy).Contents (Elt F) → (⟨S850000x64, .f32⟩ : BufTy).Contents (Elt F) → (⟨S850000x64, .f32⟩ : BufTy).Contents (Elt F)),
    StableHlo.nullary main_cst_21 (constant S_ .f32 0x00000000#32),
    StableHlo.unary main_cst_21 main_v97 (broadcastInDim S50000x64 ![] bcast_S_S50000x64 : (⟨S_, .f32⟩ : BufTy).Contents (Elt F) → (⟨S50000x64, .f32⟩ : BufTy).Contents (Elt F)),
    StableHlo.unary main_v6 main_v98 (broadcastInDim S850000x1 ![0] bcast_S850000_S850000x1_0 : (⟨S850000, .i32⟩ : BufTy).Contents (Elt F) → (⟨S850000x1, .i32⟩ : BufTy).Contents (Elt F)),
    StableHlo.ternary main_v97 main_v98 main_v96 main_v99 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg9 main_v100 (broadcastInDim S1x64 ![1] bcast_S64_S1x64_1 : (⟨S64, .f32⟩ : BufTy).Contents (Elt F) → (⟨S1x64, .f32⟩ : BufTy).Contents (Elt F)),
    StableHlo.unary main_v100 main_v101 (broadcastInDim S50000x64 ![0, 1] bcast_S1x64_S50000x64_0_1 : (⟨S1x64, .f32⟩ : BufTy).Contents (Elt F) → (⟨S50000x64, .f32⟩ : BufTy).Contents (Elt F)),
    StableHlo.binary main_v99 main_v101 main_v102 (addf : (⟨S50000x64, .f32⟩ : BufTy).Contents (Elt F) → (⟨S50000x64, .f32⟩ : BufTy).Contents (Elt F) → (⟨S50000x64, .f32⟩ : BufTy).Contents (Elt F)),
    StableHlo.binary main_arg2 main_arg3 main_v103 ((fun a b => concatenate S2x400000 1 [⟨S2x200000, a⟩, ⟨S2x200000, b⟩] concatenates_S2x200000_S2x200000_S2x400000_d1) : (⟨S2x200000, .i32⟩ : BufTy).Contents (Elt F) → (⟨S2x200000, .i32⟩ : BufTy).Contents (Elt F) → (⟨S2x400000, .i32⟩ : BufTy).Contents (Elt F)),
    StableHlo.unary main_v103 main_v104 ((extractStridedSlice S1x400000 ![0, 0] · slices_S2x400000_S1x400000_0_0) : (⟨S2x400000, .i32⟩ : BufTy).Contents (Elt F) → (⟨S1x400000, .i32⟩ : BufTy).Contents (Elt F)),
    StableHlo.reshape main_v104 main_v105 rfl shapeCasts_S1x400000_S400000,
    StableHlo.nullary main_c_22 (constantI S_ 32 0#32),
    StableHlo.unary main_c_22 main_v106 (broadcastInDim S400000 ![] bcast_S_S400000 : (⟨S_, .i32⟩ : BufTy).Contents (Elt F) → (⟨S400000, .i32⟩ : BufTy).Contents (Elt F)),
    StableHlo.binary main_v105 main_v106 main_v107 (cmpi .slt : (⟨S400000, .i32⟩ : BufTy).Contents (Elt F) → (⟨S400000, .i32⟩ : BufTy).Contents (Elt F) → (⟨S400000, .i1⟩ : BufTy).Contents (Elt F)),
    StableHlo.nullary main_c_23 (constantI S_ 32 50000#32),
    StableHlo.unary main_c_23 main_v108 (broadcastInDim S400000 ![] bcast_S_S400000 : (⟨S_, .i32⟩ : BufTy).Contents (Elt F) → (⟨S400000, .i32⟩ : BufTy).Contents (Elt F)),
    StableHlo.binary main_v105 main_v108 main_v109 (addi : (⟨S400000, .i32⟩ : BufTy).Contents (Elt F) → (⟨S400000, .i32⟩ : BufTy).Contents (Elt F) → (⟨S400000, .i32⟩ : BufTy).Contents (Elt F)),
    StableHlo.ternary main_v107 main_v109 main_v105 main_v110 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v110 main_v111 (broadcastInDim S400000x1 ![0] bcast_S400000_S400000x1_0 : (⟨S400000, .i32⟩ : BufTy).Contents (Elt F) → (⟨S400000x1, .i32⟩ : BufTy).Contents (Elt F)),
    StableHlo.binary main_v102 main_v111 main_v112 ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)),
    StableHlo.unary main_v103 main_v113 ((extractStridedSlice S1x400000 ![1, 0] · slices_S2x400000_S1x400000_1_0) : (⟨S2x400000, .i32⟩ : BufTy).Contents (Elt F) → (⟨S1x400000, .i32⟩ : BufTy).Contents (Elt F)),
    StableHlo.reshape main_v113 main_v114 rfl shapeCasts_S1x400000_S400000,
    StableHlo.nullary main_c_24 (constantI S_ 32 0#32),
    StableHlo.unary main_c_24 main_v115 (broadcastInDim S400000 ![] bcast_S_S400000 : (⟨S_, .i32⟩ : BufTy).Contents (Elt F) → (⟨S400000, .i32⟩ : BufTy).Contents (Elt F)),
    StableHlo.binary main_v114 main_v115 main_v116 (cmpi .slt : (⟨S400000, .i32⟩ : BufTy).Contents (Elt F) → (⟨S400000, .i32⟩ : BufTy).Contents (Elt F) → (⟨S400000, .i1⟩ : BufTy).Contents (Elt F)),
    StableHlo.nullary main_c_25 (constantI S_ 32 50000#32),
    StableHlo.unary main_c_25 main_v117 (broadcastInDim S400000 ![] bcast_S_S400000 : (⟨S_, .i32⟩ : BufTy).Contents (Elt F) → (⟨S400000, .i32⟩ : BufTy).Contents (Elt F)),
    StableHlo.binary main_v114 main_v117 main_v118 (addi : (⟨S400000, .i32⟩ : BufTy).Contents (Elt F) → (⟨S400000, .i32⟩ : BufTy).Contents (Elt F) → (⟨S400000, .i32⟩ : BufTy).Contents (Elt F)),
    StableHlo.ternary main_v116 main_v118 main_v114 main_v119 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v119 main_v120 (broadcastInDim S400000x1 ![0] bcast_S400000_S400000x1_0 : (⟨S400000, .i32⟩ : BufTy).Contents (Elt F) → (⟨S400000x1, .i32⟩ : BufTy).Contents (Elt F)),
    StableHlo.binary main_v102 main_v120 main_v121 ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)),
    StableHlo.binary main_v112 main_v121 main_v122 (mulf : (⟨S400000x64, .f32⟩ : BufTy).Contents (Elt F) → (⟨S400000x64, .f32⟩ : BufTy).Contents (Elt F) → (⟨S400000x64, .f32⟩ : BufTy).Contents (Elt F)),
    StableHlo.nullary main_cst_26 (constant S_ .f32 0x00000000#32),
    StableHlo.binary main_v122 main_cst_26 main_v123 ((fun x v => Host.reduceAdd x v reducesTo_S400000x64_S400000_d1 h_S_) : (⟨S400000x64, .f32⟩ : BufTy).Contents (Elt F) → (⟨S_, .f32⟩ : BufTy).Contents (Elt F) → (⟨S400000, .f32⟩ : BufTy).Contents (Elt F)) ]

set_option maxRecDepth 65536 in
set_option maxHeartbeats 4000000 in
/-- @main is that straight line: the windows and the outlined functions unfolded, sequencing reassociated. -/
theorem main_eq (c : Dev nD) : main (F := F) c = seq ops := by
  simp only [main, main_part0, main_part1, main_part2, fn_where.body, fn_leaky_relu.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub ..⟩

/-- From any memory with zero counters every weakly fair execution of @main terminates, and every final state has
    each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefFrame.lean ====
/-
  The idealized reference's argument arrays come through its @main unchanged — no operation of the line writes one —
  so its run is its frame; and the same run with the result buffer kept, at the line's fold over the launch contents.
-/
import proofs.«137646_j56495999811606_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A buffer that differs from every buffer the line writes keeps its contents. -/
local macro "kept_through_ops" : tactic => `(tactic| (
  refine after_of_forall_not_mem _ _ (List.forall_iff_forall_mem.mp ?_)
  simp only [ops, List.Forall, nullary_writes, unary_writes, binary_writes, ternary_writes, reshape_writes, Finset.mem_singleton]
  repeat' apply And.intro
  all_goals exact devRef_ne_of_ne (by decide)))

set_option maxRecDepth 65536 in
theorem kept_arg0 (V : Valuation τ sig (Elt F)) :
    after ops V (Proc.devRef .tc main_arg0) = V (Proc.devRef .tc main_arg0) := by kept_through_ops
set_option maxRecDepth 65536 in
theorem kept_arg1 (V : Valuation τ sig (Elt F)) :
    after ops V (Proc.devRef .tc main_arg1) = V (Proc.devRef .tc main_arg1) := by kept_through_ops
set_option maxRecDepth 65536 in
theorem kept_arg2 (V : Valuation τ sig (Elt F)) :
    after ops V (Proc.devRef .tc main_arg2) = V (Proc.devRef .tc main_arg2) := by kept_through_ops
set_option maxRecDepth 65536 in
theorem kept_arg3 (V : Valuation τ sig (Elt F)) :
    after ops V (Proc.devRef .tc main_arg3) = V (Proc.devRef .tc main_arg3) := by kept_through_ops
set_option maxRecDepth 65536 in
theorem kept_arg4 (V : Valuation τ sig (Elt F)) :
    after ops V (Proc.devRef .tc main_arg4) = V (Proc.devRef .tc main_arg4) := by kept_through_ops
set_option maxRecDepth 65536 in
theorem kept_arg5 (V : Valuation τ sig (Elt F)) :
    after ops V (Proc.devRef .tc main_arg5) = V (Proc.devRef .tc main_arg5) := by kept_through_ops
set_option maxRecDepth 65536 in
theorem kept_arg6 (V : Valuation τ sig (Elt F)) :
    after ops V (Proc.devRef .tc main_arg6) = V (Proc.devRef .tc main_arg6) := by kept_through_ops
set_option maxRecDepth 65536 in
theorem kept_arg7 (V : Valuation τ sig (Elt F)) :
    after ops V (Proc.devRef .tc main_arg7) = V (Proc.devRef .tc main_arg7) := by kept_through_ops
set_option maxRecDepth 65536 in
theorem kept_arg8 (V : Valuation τ sig (Elt F)) :
    after ops V (Proc.devRef .tc main_arg8) = V (Proc.devRef .tc main_arg8) := by kept_through_ops
set_option maxRecDepth 65536 in
theorem kept_arg9 (V : Valuation τ sig (Elt F)) :
    after ops V (Proc.devRef .tc main_arg9) = V (Proc.devRef .tc main_arg9) := by kept_through_ops

/-- The reference's run: the result at the line's fold, every argument as launched. -/
theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v123) = after ops (launchContents m c) (Proc.devRef .tc main_v123)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨h c main_v123,
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _)⟩)
    (run_main m ρ)

end Cert.ReferenceIdeal.RefRun

end
-- ==== Proof.KernelRun.lean ====
/-
  The idealized kernel's run with its result kept: every weakly fair execution of @main terminates, nothing
  faulting, with the result buffer at the last boundary's contents (the fold of the thirteen segments from the
  launch memory) and every argument array as launched.
-/
import proofs.«137646_j56495999811606_2_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_val : θ_run defs (onTc (τ := τ) (main (F := F))) ⟨m, fun _ => 0, ρ⟩ (fun r => ∀ c : Dev nD,
      r.2.mem ((c.tc : Thread nD τ).loc main_v92) = W13 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v92 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c)⟩)

end Cert.KernelIdeal.Val

end
-- ==== Proof.RefSegs.lean ====
/-
  The reference's line of operations cut into its stages: the edge lists and degrees; the degree factor's select; the per-edge weight;
  each convolution and, apart, each rectifier (the operations of an outlined function); the decoder. The whole line is their concatenation.
-/
import proofs.«137646_j56495999811606_2_alg».proof.Proof.RefOps
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev opsA1 : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x2B8CBCCC#32),
    StableHlo.unary main_cst_2 main_v13 (broadcastInDim S50000 ![] bcast_S_S50000 : (⟨S_, .f32⟩ : BufTy).Contents (Elt F) → (⟨S50000, .f32⟩ : BufTy).Contents (Elt F)),
    StableHlo.binary main_v10 main_v13 main_v14 (maximumf : (⟨S50000, .f32⟩ : BufTy).Contents (Elt F) → (⟨S50000, .f32⟩ : BufTy).Contents (Elt F) → (⟨S50000, .f32⟩ : BufTy).Contents (Elt F)),
    StableHlo.unary main_v14 main_v15 (Host.rsqrt : (⟨S50000, .f32⟩ : BufTy).Contents (Elt F) → (⟨S50000, .f32⟩ : BufTy).Contents (Elt F)),
    StableHlo.nullary main_cst_3 (constant S_ .f32 0x00000000#32) ]

abbrev opsWh : List (HloOp τ sig (Elt F)) :=
  [ StableHlo.TRef.unary (.of main_cst_3) main_call0.v0 id,
    StableHlo.TRef.unary main_call0.v0 main_call0.v1 (broadcastInDim S50000 ![] bcast_S_S50000),
    StableHlo.TRef.ternary (.of main_v12) (.of main_v15) main_call0.v1 main_call0.v2 select ]

abbrev opsA2 : List (HloOp τ sig (Elt F)) :=
  [ StableHlo.nullary main_c (constantI S_ 32 0#32),
    StableHlo.unary main_c main_v17 (broadcastInDim S850000 ![] bcast_S_S850000 : (⟨S_, .i32⟩ : BufTy).Contents (Elt F) → (⟨S850000, .i32⟩ : BufTy).Contents (Elt F)),
    StableHlo.binary main_v3 main_v17 main_v18 (cmpi .slt : (⟨S850000, .i32⟩ : BufTy).Contents (Elt F) → (⟨S850000, .i32⟩ : BufTy).Contents (Elt F) → (⟨S850000, .i1⟩ : BufTy).Contents (Elt F)),
    StableHlo.nullary main_c_4 (constantI S_ 32 50000#32),
    StableHlo.unary main_c_4 main_v19 (broadcastInDim S850000 ![] bcast_S_S850000 : (⟨S_, .i32⟩ : BufTy).Contents (Elt F) → (⟨S850000, .i32⟩ : BufTy).Contents (Elt F)),
    StableHlo.binary main_v3 main_v19 main_v20 (addi : (⟨S850000, .i32⟩ : BufTy).Contents (Elt F) → (⟨S850000, .i32⟩ : BufTy).Contents (Elt F) → (⟨S850000, .i32⟩ : BufTy).Contents (Elt F)),
    StableHlo.ternary main_v18 main_v20 main_v3 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v21 main_v22 (broadcastInDim S850000x1 ![0] bcast_S850000_S850000x1_0 : (⟨S850000, .i32⟩ : BufTy).Contents (Elt F) → (⟨S850000x1, .i32⟩ : BufTy).Contents (Elt F)),
    StableHlo.binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_5 (constantI S_ 32 0#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (cmpi .slt : (⟨S850000, .i32⟩ : BufTy).Contents (Elt F) → (⟨S850000, .i32⟩ : BufTy).Contents (Elt F) → (⟨S850000, .i1⟩ : BufTy).Contents (Elt F)),
    StableHlo.nullary main_c_6 (constantI S_ 32 50000#32),
    StableHlo.unary main_c_6 main_v26 (broadcastInDim S850000 ![] bcast_S_S850000 : (⟨S_, .i32⟩ : BufTy).Contents (Elt F) → (⟨S850000, .i32⟩ : BufTy).Contents (Elt F)),
    StableHlo.binary main_v6 main_v26 main_v27 (addi : (⟨S850000, .i32⟩ : BufTy).Contents (Elt F) → (⟨S850000, .i32⟩ : BufTy).Contents (Elt F) → (⟨S850000, .i32⟩ : BufTy).Contents (Elt F)),
    StableHlo.ternary main_v25 main_v27 main_v6 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v28 main_v29 (broadcastInDim S850000x1 ![0] bcast_S850000_S850000x1_0 : (⟨S850000, .i32⟩ : BufTy).Contents (Elt F) → (⟨S850000x1, .i32⟩ : BufTy).Contents (Elt F)),
    StableHlo.binary main_v16 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v23 main_v30 main_v31 (mulf : (⟨S850000, .f32⟩ : BufTy).Contents (Elt F) → (⟨S850000, .f32⟩ : BufTy).Contents (Elt F) → (⟨S850000, .f32⟩ : BufTy).Contents (Elt F)) ]

abbrev opsL1 : List (HloOp τ sig (Elt F)) :=
  [ StableHlo.binary main_arg0 main_arg4 main_v32 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_7 (constantI S_ 32 0#32),
    StableHlo.unary main_c_7 main_v33 (broadcastInDim S850000 ![] bcast_S_S850000 : (⟨S_, .i32⟩ : BufTy).Contents (Elt F) → (⟨S850000, .i32⟩ : BufTy).Contents (Elt F)),
    StableHlo.binary main_v3 main_v33 main_v34 (cmpi .slt : (⟨S850000, .i32⟩ : BufTy).Contents (Elt F) → (⟨S850000, .i32⟩ : BufTy).Contents (Elt F) → (⟨S850000, .i1⟩ : BufTy).Contents (Elt F)),
    StableHlo.nullary main_c_8 (constantI S_ 32 50000#32),
    StableHlo.unary main_c_8 main_v35 (broadcastInDim S850000 ![] bcast_S_S850000 : (⟨S_, .i32⟩ : BufTy).Contents (Elt F) → (⟨S850000, .i32⟩ : BufTy).Contents (Elt F)),
    StableHlo.binary main_v3 main_v35 main_v36 (addi : (⟨S850000, .i32⟩ : BufTy).Contents (Elt F) → (⟨S850000, .i32⟩ : BufTy).Contents (Elt F) → (⟨S850000, .i32⟩ : BufTy).Contents (Elt F)),
    StableHlo.ternary main_v34 main_v36 main_v3 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v37 main_v38 (broadcastInDim S850000x1 ![0] bcast_S850000_S850000x1_0 : (⟨S850000, .i32⟩ : BufTy).Contents (Elt F) → (⟨S850000x1, .i32⟩ : BufTy).Contents (Elt F)),
    StableHlo.binary main_v32 main_v38 main_v39 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v31 main_v40 (broadcastInDim S850000x1 ![0] bcast_S850000_S850000x1_0 : (⟨S850000, .f32⟩ : BufTy).Contents (Elt F) → (⟨S850000x1, .f32⟩ : BufTy).Contents (Elt F)),
    StableHlo.unary main_v40 main_v41 (broadcastInDim S850000x128 ![0, 1] bcast_S850000x1_S850000x128_0_1 : (⟨S850000x1, .f32⟩ : BufTy).Contents (Elt F) → (⟨S850000x128, .f32⟩ : BufTy).Contents (Elt F)),
    StableHlo.binary main_v39 main_v41 main_v42 (mulf : (⟨S850000x128, .f32⟩ : BufTy).Contents (Elt F) → (⟨S850000x128, .f32⟩ : BufTy).Contents (Elt F) → (⟨S850000x128, .f32⟩ : BufTy).Contents (Elt F)),
    StableHlo.nullary main_cst_9 (constant S_ .f32 0x00000000#32),
    StableHlo.unary main_cst_9 main_v43 (broadcastInDim S50000x128 ![] bcast_S_S50000x128 : (⟨S_, .f32⟩ : BufTy).Contents (Elt F) → (⟨S50000x128, .f32⟩ : BufTy).Contents (Elt F)),
    StableHlo.unary main_v6 main_v44 (broadcastInDim S850000x1 ![0] bcast_S850000_S850000x1_0 : (⟨S850000, .i32⟩ : BufTy).Contents (Elt F) → (⟨S850000x1, .i32⟩ : BufTy).Contents (Elt F)),
    StableHlo.ternary main_v43 main_v44 main_v42 main_v45 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg5 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),
    StableHlo.binary main_v45 main_v47 main_v48 (addf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0x3E4CCCCD#32) ]

abbrev opsR1 : List (HloOp τ sig (Elt F)) :=
  [ StableHlo.TRef.nullary main_call1.cst (constant S_ .f32 0x00000000#32),
    StableHlo.TRef.unary main_call1.cst main_call1.v0 (broadcastInDim S50000x128 ![] bcast_S_S50000x128),
    StableHlo.TRef.binary (.of main_v48) main_call1.v0 main_call1.v1 (cmpf .oge),
    StableHlo.TRef.unary (.of main_cst_10) main_call1.v2 id,
    StableHlo.TRef.unary main_call1.v2 main_call1.v3 (broadcastInDim S50000x128 ![] bcast_S_S50000x128),
    StableHlo.TRef.binary main_call1.v3 (.of main_v48) main_call1.v4 mulf,
    StableHlo.TRef.ternary main_call1.v1 (.of main_v48) main_call1.v4 main_call1.call0.v0 select ]

abbrev opsL2 : List (HloOp τ sig (Elt F)) :=
  [ StableHlo.binary main_v49 main_arg6 main_v50 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_11 (constantI S_ 32 0#32),
    StableHlo.unary main_c_11 main_v51 (broadcastInDim S850000 ![] bcast_S_S850000 : (⟨S_, .i32⟩ : BufTy).Contents (Elt F) → (⟨S850000, .i32⟩ : BufTy).Contents (Elt F)),
    StableHlo.binary main_v3 main_v51 main_v52 (cmpi .slt : (⟨S850000, .i32⟩ : BufTy).Contents (Elt F) → (⟨S850000, .i32⟩ : BufTy).Contents (Elt F) → (⟨S850000, .i1⟩ : BufTy).Contents (Elt F)),
    StableHlo.nullary main_c_12 (constantI S_ 32 50000#32),
    StableHlo.unary main_c_12 main_v53 (broadcastInDim S850000 ![] bcast_S_S850000 : (⟨S_, .i32⟩ : BufTy).Contents (Elt F) → (⟨S850000, .i32⟩ : BufTy).Contents (Elt F)),
    StableHlo.binary main_v3 main_v53 main_v54 (addi : (⟨S850000, .i32⟩ : BufTy).Contents (Elt F) → (⟨S850000, .i32⟩ : BufTy).Contents (Elt F) → (⟨S850000, .i32⟩ : BufTy).Contents (Elt F)),
    StableHlo.ternary main_v52 main_v54 main_v3 main_v55 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v55 main_v56 (broadcastInDim S850000x1 ![0] bcast_S850000_S850000x1_0 : (⟨S850000, .i32⟩ : BufTy).Contents (Elt F) → (⟨S850000x1, .i32⟩ : BufTy).Contents (Elt F)),
    StableHlo.binary main_v50 main_v56 main_v57 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v31 main_v58 (broadcastInDim S850000x1 ![0] bcast_S850000_S850000x1_0 : (⟨S850000, .f32⟩ : BufTy).Contents (Elt F) → (⟨S850000x1, .f32⟩ : BufTy).Contents (Elt F)),
    StableHlo.unary main_v58 main_v59 (broadcastInDim S850000x128 ![0, 1] bcast_S850000x1_S850000x128_0_1 : (⟨S850000x1, .f32⟩ : BufTy).Contents (Elt F) → (⟨S850000x128, .f32⟩ : BufTy).Contents (Elt F)),
    StableHlo.binary main_v57 main_v59 main_v60 (mulf : (⟨S850000x128, .f32⟩ : BufTy).Contents (Elt F) → (⟨S850000x128, .f32⟩ : BufTy).Contents (Elt F) → (⟨S850000x128, .f32⟩ : BufTy).Contents (Elt F)),
    StableHlo.nullary main_cst_13 (constant S_ .f32 0x00000000#32),
    StableHlo.unary main_cst_13 main_v61 (broadcastInDim S50000x128 ![] bcast_S_S50000x128 : (⟨S_, .f32⟩ : BufTy).Contents (Elt F) → (⟨S50000x128, .f32⟩ : BufTy).Contents (Elt F)),
    StableHlo.unary main_v6 main_v62 (broadcastInDim S850000x1 ![0] bcast_S850000_S850000x1_0 : (⟨S850000, .i32⟩ : BufTy).Contents (Elt F) → (⟨S850000x1, .i32⟩ : BufTy).Contents (Elt F)),
    StableHlo.ternary main_v61 main_v62 main_v60 main_v63 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg7 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S50000x128 ![0, 1] bcast_S1x128_S50000x128_0_1 : (⟨S1x128, .f32⟩ : BufTy).Contents (Elt F) → (⟨S50000x128, .f32⟩ : BufTy).Contents (Elt F)),
    StableHlo.binary main_v63 main_v65 main_v66 (addf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x3E4CCCCD#32) ]

abbrev opsR2 : List (HloOp τ sig (Elt F)) :=
  [ StableHlo.TRef.nullary main_call2.cst (constant S_ .f32 0x00000000#32),
    StableHlo.TRef.unary main_call2.cst main_call2.v0 (broadcastInDim S50000x128 ![] bcast_S_S50000x128),
    StableHlo.TRef.binary (.of main_v66) main_call2.v0 main_call2.v1 (cmpf .oge),
    StableHlo.TRef.unary (.of main_cst_14) main_call2.v2 id,
    StableHlo.TRef.unary main_call2.v2 main_call2.v3 (broadcastInDim S50000x128 ![] bcast_S_S50000x128),
    StableHlo.TRef.binary main_call2.v3 (.of main_v66) main_call2.v4 mulf,
    StableHlo.TRef.ternary main_call2.v1 (.of main_v66) main_call2.v4 main_call2.call0.v0 select ]

abbrev opsL3 : List (HloOp τ sig (Elt F)) :=
  [ StableHlo.binary main_v67 main_arg6 main_v68 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_15 (constantI S_ 32 0#32),
    StableHlo.unary main_c_15 main_v69 (broadcastInDim S850000 ![] bcast_S_S850000 : (⟨S_, .i32⟩ : BufTy).Contents (Elt F) → (⟨S850000, .i32⟩ : BufTy).Contents (Elt F)),
    StableHlo.binary main_v3 main_v69 main_v70 (cmpi .slt : (⟨S850000, .i32⟩ : BufTy).Contents (Elt F) → (⟨S850000, .i32⟩ : BufTy).Contents (Elt F) → (⟨S850000, .i1⟩ : BufTy).Contents (Elt F)),
    StableHlo.nullary main_c_16 (constantI S_ 32 50000#32),
    StableHlo.unary main_c_16 main_v71 (broadcastInDim S850000 ![] bcast_S_S850000 : (⟨S_, .i32⟩ : BufTy).Contents (Elt F) → (⟨S850000, .i32⟩ : BufTy).Contents (Elt F)),
    StableHlo.binary main_v3 main_v71 main_v72 (addi : (⟨S850000, .i32⟩ : BufTy).Contents (Elt F) → (⟨S850000, .i32⟩ : BufTy).Contents (Elt F) → (⟨S850000, .i32⟩ : BufTy).Contents (Elt F)),
    StableHlo.ternary main_v70 main_v72 main_v3 main_v73 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v73 main_v74 (broadcastInDim S850000x1 ![0] bcast_S850000_S850000x1_0 : (⟨S850000, .i32⟩ : BufTy).Contents (Elt F) → (⟨S850000x1, .i32⟩ : BufTy).Contents (Elt F)),
    StableHlo.binary main_v68 main_v74 main_v75 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v31 main_v76 (broadcastInDim S850000x1 ![0] bcast_S850000_S850000x1_0 : (⟨S850000, .f32⟩ : BufTy).Contents (Elt F) → (⟨S850000x1, .f32⟩ : BufTy).Contents (Elt F)),
    StableHlo.unary main_v76 main_v77 (broadcastInDim S850000x128 ![0, 1] bcast_S850000x1_S850000x128_0_1 : (⟨S850000x1, .f32⟩ : BufTy).Contents (Elt F) → (⟨S850000x128, .f32⟩ : BufTy).Contents (Elt F)),
    StableHlo.binary main_v75 main_v77 main_v78 (mulf : (⟨S850000x128, .f32⟩ : BufTy).Contents (Elt F) → (⟨S850000x128, .f32⟩ : BufTy).Contents (Elt F) → (⟨S850000x128, .f32⟩ : BufTy).Contents (Elt F)),
    StableHlo.nullary main_cst_17 (constant S_ .f32 0x00000000#32),
    StableHlo.unary main_cst_17 main_v79 (broadcastInDim S50000x128 ![] bcast_S_S50000x128 : (⟨S_, .f32⟩ : BufTy).Contents (Elt F) → (⟨S50000x128, .f32⟩ : BufTy).Contents (Elt F)),
    StableHlo.unary main_v6 main_v80 (broadcastInDim S850000x1 ![0] bcast_S850000_S850000x1_0 : (⟨S850000, .i32⟩ : BufTy).Contents (Elt F) → (⟨S850000x1, .i32⟩ : BufTy).Contents (Elt F)),
    StableHlo.ternary main_v79 main_v80 main_v78 main_v81 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg7 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S50000x128 ![0, 1] bcast_S1x128_S50000x128_0_1 : (⟨S1x128, .f32⟩ : BufTy).Contents (Elt F) → (⟨S50000x128, .f32⟩ : BufTy).Contents (Elt F)),
    StableHlo.binary main_v81 main_v83 main_v84 (addf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x3E4CCCCD#32) ]

abbrev opsR3 : List (HloOp τ sig (Elt F)) :=
  [ StableHlo.TRef.nullary main_call3.cst (constant S_ .f32 0x00000000#32),
    StableHlo.TRef.unary main_call3.cst main_call3.v0 (broadcastInDim S50000x128 ![] bcast_S_S50000x128),
    StableHlo.TRef.binary (.of main_v84) main_call3.v0 main_call3.v1 (cmpf .oge),
    StableHlo.TRef.unary (.of main_cst_18) main_call3.v2 id,
    StableHlo.TRef.unary main_call3.v2 main_call3.v3 (broadcastInDim S50000x128 ![] bcast_S_S50000x128),
    StableHlo.TRef.binary main_call3.v3 (.of main_v84) main_call3.v4 mulf,
    StableHlo.TRef.ternary main_call3.v1 (.of main_v84) main_call3.v4 main_call3.call0.v0 select ]

abbrev opsL4 : List (HloOp τ sig (Elt F)) :=
  [ StableHlo.binary main_v85 main_arg8 main_v86 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.nullary main_c_19 (constantI S_ 32 0#32),
    StableHlo.unary main_c_19 main_v87 (broadcastInDim S850000 ![] bcast_S_S850000 : (⟨S_, .i32⟩ : BufTy).Contents (Elt F) → (⟨S850000, .i32⟩ : BufTy).Contents (Elt F)),
    StableHlo.binary main_v3 main_v87 main_v88 (cmpi .slt : (⟨S850000, .i32⟩ : BufTy).Contents (Elt F) → (⟨S850000, .i32⟩ : BufTy).Contents (Elt F) → (⟨S850000, .i1⟩ : BufTy).Contents (Elt F)),
    StableHlo.nullary main_c_20 (constantI S_ 32 50000#32),
    StableHlo.unary main_c_20 main_v89 (broadcastInDim S850000 ![] bcast_S_S850000 : (⟨S_, .i32⟩ : BufTy).Contents (Elt F) → (⟨S850000, .i32⟩ : BufTy).Contents (Elt F)),
    StableHlo.binary main_v3 main_v89 main_v90 (addi : (⟨S850000, .i32⟩ : BufTy).Contents (Elt F) → (⟨S850000, .i32⟩ : BufTy).Contents (Elt F) → (⟨S850000, .i32⟩ : BufTy).Contents (Elt F)),
    StableHlo.ternary main_v88 main_v90 main_v3 main_v91 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v91 main_v92 (broadcastInDim S850000x1 ![0] bcast_S850000_S850000x1_0 : (⟨S850000, .i32⟩ : BufTy).Contents (Elt F) → (⟨S850000x1, .i32⟩ : BufTy).Contents (Elt F)),
    StableHlo.binary main_v86 main_v92 main_v93 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v31 main_v94 (broadcastInDim S850000x1 ![0] bcast_S850000_S850000x1_0 : (⟨S850000, .f32⟩ : BufTy).Contents (Elt F) → (⟨S850000x1, .f32⟩ : BufTy).Contents (Elt F)),
    StableHlo.unary main_v94 main_v95 (broadcastInDim S850000x64 ![0, 1] bcast_S850000x1_S850000x64_0_1 : (⟨S850000x1, .f32⟩ : BufTy).Contents (Elt F) → (⟨S850000x64, .f32⟩ : BufTy).Contents (Elt F)),
    StableHlo.binary main_v93 main_v95 main_v96 (mulf : (⟨S850000x64, .f32⟩ : BufTy).Contents (Elt F) → (⟨S850000x64, .f32⟩ : BufTy).Contents (Elt F) → (⟨S850000x64, .f32⟩ : BufTy).Contents (Elt F)),
    StableHlo.nullary main_cst_21 (constant S_ .f32 0x00000000#32),
    StableHlo.unary main_cst_21 main_v97 (broadcastInDim S50000x64 ![] bcast_S_S50000x64 : (⟨S_, .f32⟩ : BufTy).Contents (Elt F) → (⟨S50000x64, .f32⟩ : BufTy).Contents (Elt F)),
    StableHlo.unary main_v6 main_v98 (broadcastInDim S850000x1 ![0] bcast_S850000_S850000x1_0 : (⟨S850000, .i32⟩ : BufTy).Contents (Elt F) → (⟨S850000x1, .i32⟩ : BufTy).Contents (Elt F)),
    StableHlo.ternary main_v97 main_v98 main_v96 main_v99 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg9 main_v100 (broadcastInDim S1x64 ![1] bcast_S64_S1x64_1 : (⟨S64, .f32⟩ : BufTy).Contents (Elt F) → (⟨S1x64, .f32⟩ : BufTy).Contents (Elt F)),
    StableHlo.unary main_v100 main_v101 (broadcastInDim S50000x64 ![0, 1] bcast_S1x64_S50000x64_0_1 : (⟨S1x64, .f32⟩ : BufTy).Contents (Elt F) → (⟨S50000x64, .f32⟩ : BufTy).Contents (Elt F)),
    StableHlo.binary main_v99 main_v101 main_v102 (addf : (⟨S50000x64, .f32⟩ : BufTy).Contents (Elt F) → (⟨S50000x64, .f32⟩ : BufTy).Contents (Elt F) → (⟨S50000x64, .f32⟩ : BufTy).Contents (Elt F)) ]

abbrev opsT : List (HloOp τ sig (Elt F)) :=
  [ StableHlo.binary main_arg2 main_arg3 main_v103 ((fun a b => concatenate S2x400000 1 [⟨S2x200000, a⟩, ⟨S2x200000, b⟩] concatenates_S2x200000_S2x200000_S2x400000_d1) : (⟨S2x200000, .i32⟩ : BufTy).Contents (Elt F) → (⟨S2x200000, .i32⟩ : BufTy).Contents (Elt F) → (⟨S2x400000, .i32⟩ : BufTy).Contents (Elt F)),
    StableHlo.unary main_v103 main_v104 ((extractStridedSlice S1x400000 ![0, 0] · slices_S2x400000_S1x400000_0_0) : (⟨S2x400000, .i32⟩ : BufTy).Contents (Elt F) → (⟨S1x400000, .i32⟩ : BufTy).Contents (Elt F)),
    StableHlo.reshape main_v104 main_v105 rfl shapeCasts_S1x400000_S400000,
    StableHlo.nullary main_c_22 (constantI S_ 32 0#32),
    StableHlo.unary main_c_22 main_v106 (broadcastInDim S400000 ![] bcast_S_S400000 : (⟨S_, .i32⟩ : BufTy).Contents (Elt F) → (⟨S400000, .i32⟩ : BufTy).Contents (Elt F)),
    StableHlo.binary main_v105 main_v106 main_v107 (cmpi .slt : (⟨S400000, .i32⟩ : BufTy).Contents (Elt F) → (⟨S400000, .i32⟩ : BufTy).Contents (Elt F) → (⟨S400000, .i1⟩ : BufTy).Contents (Elt F)),
    StableHlo.nullary main_c_23 (constantI S_ 32 50000#32),
    StableHlo.unary main_c_23 main_v108 (broadcastInDim S400000 ![] bcast_S_S400000 : (⟨S_, .i32⟩ : BufTy).Contents (Elt F) → (⟨S400000, .i32⟩ : BufTy).Contents (Elt F)),
    StableHlo.binary main_v105 main_v108 main_v109 (addi : (⟨S400000, .i32⟩ : BufTy).Contents (Elt F) → (⟨S400000, .i32⟩ : BufTy).Contents (Elt F) → (⟨S400000, .i32⟩ : BufTy).Contents (Elt F)),
    StableHlo.ternary main_v107 main_v109 main_v105 main_v110 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v110 main_v111 (broadcastInDim S400000x1 ![0] bcast_S400000_S400000x1_0 : (⟨S400000, .i32⟩ : BufTy).Contents (Elt F) → (⟨S400000x1, .i32⟩ : BufTy).Contents (Elt F)),
    StableHlo.binary main_v102 main_v111 main_v112 ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)),
    StableHlo.unary main_v103 main_v113 ((extractStridedSlice S1x400000 ![1, 0] · slices_S2x400000_S1x400000_1_0) : (⟨S2x400000, .i32⟩ : BufTy).Contents (Elt F) → (⟨S1x400000, .i32⟩ : BufTy).Contents (Elt F)),
    StableHlo.reshape main_v113 main_v114 rfl shapeCasts_S1x400000_S400000,
    StableHlo.nullary main_c_24 (constantI S_ 32 0#32),
    StableHlo.unary main_c_24 main_v115 (broadcastInDim S400000 ![] bcast_S_S400000 : (⟨S_, .i32⟩ : BufTy).Contents (Elt F) → (⟨S400000, .i32⟩ : BufTy).Contents (Elt F)),
    StableHlo.binary main_v114 main_v115 main_v116 (cmpi .slt : (⟨S400000, .i32⟩ : BufTy).Contents (Elt F) → (⟨S400000, .i32⟩ : BufTy).Contents (Elt F) → (⟨S400000, .i1⟩ : BufTy).Contents (Elt F)),
    StableHlo.nullary main_c_25 (constantI S_ 32 50000#32),
    StableHlo.unary main_c_25 main_v117 (broadcastInDim S400000 ![] bcast_S_S400000 : (⟨S_, .i32⟩ : BufTy).Contents (Elt F) → (⟨S400000, .i32⟩ : BufTy).Contents (Elt F)),
    StableHlo.binary main_v114 main_v117 main_v118 (addi : (⟨S400000, .i32⟩ : BufTy).Contents (Elt F) → (⟨S400000, .i32⟩ : BufTy).Contents (Elt F) → (⟨S400000, .i32⟩ : BufTy).Contents (Elt F)),
    StableHlo.ternary main_v116 main_v118 main_v114 main_v119 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v119 main_v120 (broadcastInDim S400000x1 ![0] bcast_S400000_S400000x1_0 : (⟨S400000, .i32⟩ : BufTy).Contents (Elt F) → (⟨S400000x1, .i32⟩ : BufTy).Contents (Elt F)),
    StableHlo.binary main_v102 main_v120 main_v121 ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)),
    StableHlo.binary main_v112 main_v121 main_v122 (mulf : (⟨S400000x64, .f32⟩ : BufTy).Contents (Elt F) → (⟨S400000x64, .f32⟩ : BufTy).Contents (Elt F) → (⟨S400000x64, .f32⟩ : BufTy).Contents (Elt F)),
    StableHlo.nullary main_cst_26 (constant S_ .f32 0x00000000#32),
    StableHlo.binary main_v122 main_cst_26 main_v123 ((fun x v => Host.reduceAdd x v reducesTo_S400000x64_S400000_d1 h_S_) : (⟨S400000x64, .f32⟩ : BufTy).Contents (Elt F) → (⟨S_, .f32⟩ : BufTy).Contents (Elt F) → (⟨S400000, .f32⟩ : BufTy).Contents (Elt F)) ]

set_option maxRecDepth 65536 in
theorem ops_eq : (ops : List (HloOp τ sig (Elt F))) = opsA1 ++ opsWh ++ opsA2 ++ opsL1 ++ opsR1 ++ opsL2 ++ opsR2 ++ opsL3 ++ opsR3 ++ opsL4 ++ opsT := rfl

theorem after_ops (V : Valuation τ sig (Elt F)) :
    after ops V = after opsT (after opsL4 (after opsR3 (after opsL3 (after opsR2 (after opsL2 (after opsR1 (after opsL1 (after opsA2 (after opsWh (after opsA1 (V))))))))))) := by
  rw [ops_eq]; simp only [StableHlo.after_append]

end Cert.ReferenceIdeal.RefRun

end
-- ==== Proof.RefDefs.lean ====
/-
  The stages of the reference network as functions of arrays, in the reference program's own operations: the edge lists
  with their self-loops, the degrees and the degree factor, the per-edge weight `norm = dis[src] · dis[dst]`, one
  convolution `zeros.at[dst].add((h·W)[src] · norm) + b`, the leaky rectifier, the matrix products, the decoder
  `Σ_c z[e0, c] · z[e1, c]` with its two index lists, and the node embeddings `z` as their composition.
-/
import proofs.«137646_j56495999811606_2_alg».proof.Proof.RefSegs
import Idealize.ShloMosaic.PureOps.Ideal

set_option maxRecDepth 65536

noncomputable section

namespace Cert.ReferenceIdeal.Fold

open Cert.ReferenceIdeal Cert.ReferenceIdeal.Gen Cert.ReferenceIdeal.RefRun
open Idealize.ShloMosaic Idealize.ShloMosaic.TcCoe Idealize.ShloMosaic.StableHlo
open Idealize.SL Idealize.SL.Sem

/-! ## The stages -/

/-- An edge list followed by the self-loops' list. -/
def cat2 (a : IVec S800000 32) (b : IVec S50000 32) : IVec S850000 32 :=
  concatenate S850000 0 [⟨S800000, a⟩, ⟨S50000, b⟩] concatenates_S800000_S50000_S850000_d0

theorem cat2_fun : (fun (a : IVec S800000 32) (b : IVec S50000 32) =>
    concatenate S850000 0 [⟨S800000, a⟩, ⟨S50000, b⟩] concatenates_S800000_S50000_S850000_d0) = cat2 := rfl

/-- The sources (row 0) and destinations (row 1) of the edges, each followed by the self-loops `0 … N−1`. -/
def src (a1 : IVec S2x800000 32) : IVec S850000 32 :=
  cat2 (shapeCast S800000 (extractStridedSlice S1x800000 ![0, 0] a1 slices_S2x800000_S1x800000_0_0) shapeCasts_S1x800000_S800000)
    (iotaInDim S50000 32 0)
def dst (a1 : IVec S2x800000 32) : IVec S850000 32 :=
  cat2 (shapeCast S800000 (extractStridedSlice S1x800000 ![1, 0] a1 slices_S2x800000_S1x800000_1_0) shapeCasts_S1x800000_S800000)
    (iotaInDim S50000 32 0)

/-- A gather index column from an index list: negative entries wrapped by the array length, then one column. -/
def wrapCol (i : IVec S850000 32) : IVec S850000x1 32 :=
  broadcastInDim S850000x1 ![0] bcast_S850000_S850000x1_0
    (select (cmpi .slt i (broadcastInDim S850000 ![] bcast_S_S850000 (constantI S_ 32 0#32)))
      (addi i (broadcastInDim S850000 ![] bcast_S_S850000 (constantI S_ 32 50000#32))) i)
def wrapColL (i : IVec S400000 32) : IVec S400000x1 32 :=
  broadcastInDim S400000x1 ![0] bcast_S400000_S400000x1_0
    (select (cmpi .slt i (broadcastInDim S400000 ![] bcast_S_S400000 (constantI S_ 32 0#32)))
      (addi i (broadcastInDim S400000 ![] bcast_S_S400000 (constantI S_ 32 50000#32))) i)

/-- The in-degree of every node, self-loop included. -/
def deg (d : IVec S850000 32) : FVec Ideal S50000 .f32 :=
  Host.scatterAdd scatter_S50000_S850000x1_S850000_n_0_0_1
    (broadcastInDim S50000 ![] bcast_S_S50000 (constant (F := Ideal) S_ .f32 0x00000000#32))
    (broadcastInDim S850000x1 ![0] bcast_S850000_S850000x1_0 d)
    (broadcastInDim S850000 ![] bcast_S_S850000 (constant (F := Ideal) S_ .f32 0x3F800000#32))

/-- `where(deg > 0, rsqrt(max(deg, ε)), 0)`. -/
def dis (g : FVec Ideal S50000 .f32) : FVec Ideal S50000 .f32 :=
  select (cmpf .ogt g (broadcastInDim S50000 ![] bcast_S_S50000 (constant (F := Ideal) S_ .f32 0x00000000#32)))
    (Host.rsqrt (maximumf g (broadcastInDim S50000 ![] bcast_S_S50000 (constant (F := Ideal) S_ .f32 0x2B8CBCCC#32))))
    (broadcastInDim S50000 ![] bcast_S_S50000 (id (constant (F := Ideal) S_ .f32 0x00000000#32)))

/-- The per-edge weight `dis[src] · dis[dst]`. -/
def norm (ds : FVec Ideal S50000 .f32) (s d : IVec S850000 32) : FVec Ideal S850000 .f32 :=
  mulf (Host.gather gather_S50000_S850000x1_S850000_n_0_n_n_0_1_1 ds (wrapCol s))
    (Host.gather gather_S50000_S850000x1_S850000_n_0_n_n_0_1_1 ds (wrapCol d))

/-- One convolution over 128 columns: `zeros.at[dst].add(hw[src] · norm) + b`. -/
def conv (hw : FVec Ideal S50000x128 .f32) (nm : FVec Ideal S850000 .f32) (s d : IVec S850000 32) (b : FVec Ideal S128 .f32) :
    FVec Ideal S50000x128 .f32 :=
  addf (Host.scatterAdd scatter_S50000x128_S850000x1_S850000x128_1_0_0_1
      (broadcastInDim S50000x128 ![] bcast_S_S50000x128 (constant (F := Ideal) S_ .f32 0x00000000#32))
      (broadcastInDim S850000x1 ![0] bcast_S850000_S850000x1_0 d)
      (mulf (Host.gather gather_S50000x128_S850000x1_S850000x128_1_0_n_n_0_1_1128 hw (wrapCol s))
        (broadcastInDim S850000x128 ![0, 1] bcast_S850000x1_S850000x128_0_1 (broadcastInDim S850000x1 ![0] bcast_S850000_S850000x1_0 nm))))
    (broadcastInDim S50000x128 ![0, 1] bcast_S1x128_S50000x128_0_1 (broadcastInDim S1x128 ![1] bcast_S128_S1x128_1 b))

/-- The same over 64 columns. -/
def conv64 (hw : FVec Ideal S50000x64 .f32) (nm : FVec Ideal S850000 .f32) (s d : IVec S850000 32) (b : FVec Ideal S64 .f32) :
    FVec Ideal S50000x64 .f32 :=
  addf (Host.scatterAdd scatter_S50000x64_S850000x1_S850000x64_1_0_0_1
      (broadcastInDim S50000x64 ![] bcast_S_S50000x64 (constant (F := Ideal) S_ .f32 0x00000000#32))
      (broadcastInDim S850000x1 ![0] bcast_S850000_S850000x1_0 d)
      (mulf (Host.gather gather_S50000x64_S850000x1_S850000x64_1_0_n_n_0_1_164 hw (wrapCol s))
        (broadcastInDim S850000x64 ![0, 1] bcast_S850000x1_S850000x64_0_1 (broadcastInDim S850000x1 ![0] bcast_S850000_S850000x1_0 nm))))
    (broadcastInDim S50000x64 ![0, 1] bcast_S1x64_S50000x64_0_1 (broadcastInDim S1x64 ![1] bcast_S64_S1x64_1 b))

/-- The leaky rectifier of an array, slope the f32 nearest 0.2. -/
def lrl (x : FVec Ideal S50000x128 .f32) : FVec Ideal S50000x128 .f32 :=
  select (cmpf .oge x (broadcastInDim S50000x128 ![] bcast_S_S50000x128 (constant (F := Ideal) S_ .f32 0x00000000#32))) x
    (mulf (broadcastInDim S50000x128 ![] bcast_S_S50000x128 (id (constant (F := Ideal) S_ .f32 0x3E4CCCCD#32))) x)

def dot (h : FVec Ideal S50000x128 .f32) (w : FVec Ideal S128x128 .f32) : FVec Ideal S50000x128 .f32 :=
  Host.dotGeneral dot_S50000x128_S128x128_S50000x128_1_0_0_1_n_n none h w
def dot64 (h : FVec Ideal S50000x128 .f32) (w : FVec Ideal S128x64 .f32) : FVec Ideal S50000x64 .f32 :=
  Host.dotGeneral dot_S50000x128_S128x64_S50000x64_1_0_0_1_n_n none h w

/-- The decoder's two index lists: row 0 (row 1) of the two edge arrays joined side by side. -/
def e0 (a2 a3 : IVec S2x200000 32) : IVec S400000 32 :=
  shapeCast S400000 (extractStridedSlice S1x400000 ![0, 0]
    (concatenate S2x400000 1 [⟨S2x200000, a2⟩, ⟨S2x200000, a3⟩] concatenates_S2x200000_S2x200000_S2x400000_d1) slices_S2x400000_S1x400000_0_0)
    shapeCasts_S1x400000_S400000
def e1 (a2 a3 : IVec S2x200000 32) : IVec S400000 32 :=
  shapeCast S400000 (extractStridedSlice S1x400000 ![1, 0]
    (concatenate S2x400000 1 [⟨S2x200000, a2⟩, ⟨S2x200000, a3⟩] concatenates_S2x200000_S2x200000_S2x400000_d1) slices_S2x400000_S1x400000_1_0)
    shapeCasts_S1x400000_S400000

/-- The decoder: `Σ_c z[i0, c] · z[i1, c]`. -/
def dec (z : FVec Ideal S50000x64 .f32) (i0 i1 : IVec S400000 32) : FVec Ideal S400000 .f32 :=
  Host.reduceAdd (mulf (Host.gather gather_S50000x64_S400000x1_S400000x64_1_0_n_n_0_1_164 z (wrapColL i0))
      (Host.gather gather_S50000x64_S400000x1_S400000x64_1_0_n_n_0_1_164 z (wrapColL i1)))
    (constant (F := Ideal) S_ .f32 0x00000000#32) reducesTo_S400000x64_S400000_d1 h_S_

/-- The node embeddings the reference computes. -/
def z (x : FVec Ideal S50000x128 .f32) (a1 : IVec S2x800000 32) (w1 : FVec Ideal S128x128 .f32) (b1 : FVec Ideal S128 .f32)
    (w : FVec Ideal S128x128 .f32) (b : FVec Ideal S128 .f32) (w2 : FVec Ideal S128x64 .f32) (b2 : FVec Ideal S64 .f32) :
    FVec Ideal S50000x64 .f32 :=
  conv64 (dot64 (lrl (conv (dot (lrl (conv (dot (lrl (conv (dot x w1) (norm (dis (deg (dst a1))) (src a1) (dst a1)) (src a1) (dst a1) b1)) w)
    (norm (dis (deg (dst a1))) (src a1) (dst a1)) (src a1) (dst a1) b)) w)
    (norm (dis (deg (dst a1))) (src a1) (dst a1)) (src a1) (dst a1) b)) w2)
    (norm (dis (deg (dst a1))) (src a1) (dst a1)) (src a1) (dst a1) b2

end Cert.ReferenceIdeal.Fold

end
-- ==== Proof.RefFold.lean ====
/-
  The idealized reference's result buffer read back through its line of host operations, a stage at a time: each stage's
  result from any contents, the buffers a later stage still reads carried through, and the whole line's fold at the result
  buffer as the composition of the stages (Proof/RefDefs.lean).
-/
import proofs.«137646_j56495999811606_2_alg».proof.Proof.RefDefs

set_option maxRecDepth 65536

noncomputable section

namespace Cert.ReferenceIdeal.Fold

open Cert.ReferenceIdeal Cert.ReferenceIdeal.Gen Cert.ReferenceIdeal.RefRun
open Idealize.ShloMosaic Idealize.ShloMosaic.TcCoe Idealize.ShloMosaic.StableHlo
open Idealize.SL Idealize.SL.Sem

/-! ## Each stage's result, from any contents `W` -/

attribute [local irreducible] Host.gather Host.scatterAdd Host.reduceAdd

/-- The degree factor's select, on its three operands. -/
def whereT (c : IVec S50000 1) (a : FVec Ideal S50000 .f32) (s : FVec Ideal S_ .f32) : FVec Ideal S50000 .f32 :=
  select c a (broadcastInDim S50000 ![] bcast_S_S50000 (id s))

/-- The rectifier with its slope as an operand. -/
def lrlT (x : FVec Ideal S50000x128 .f32) (s : FVec Ideal S_ .f32) : FVec Ideal S50000x128 .f32 :=
  select (cmpf .oge x (broadcastInDim S50000x128 ![] bcast_S_S50000x128 (constant (F := Ideal) S_ .f32 0x00000000#32))) x
    (mulf (broadcastInDim S50000x128 ![] bcast_S_S50000x128 (id s)) x)

theorem dis_eq (g : FVec Ideal S50000 .f32) :
    dis g = whereT (cmpf .ogt g (broadcastInDim S50000 ![] bcast_S_S50000 (constant (F := Ideal) S_ .f32 0x00000000#32)))
      (Host.rsqrt (maximumf g (broadcastInDim S50000 ![] bcast_S_S50000 (constant (F := Ideal) S_ .f32 0x2B8CBCCC#32))))
      (constant (F := Ideal) S_ .f32 0x00000000#32) := rfl
theorem lrl_eq (x : FVec Ideal S50000x128 .f32) : lrl x = lrlT x (constant (F := Ideal) S_ .f32 0x3E4CCCCD#32) := rfl

variable (W : Valuation τ sig (Elt Ideal))

theorem a1_v3 : after opsA1 W (Proc.devRef .tc main_v3) = src (W (Proc.devRef .tc main_arg1)) := by
  unfold src; simp only [opsA1, cat2_fun]; after_results_simp; try rfl
theorem a1_v6 : after opsA1 W (Proc.devRef .tc main_v6) = dst (W (Proc.devRef .tc main_arg1)) := by
  unfold dst; simp only [opsA1, cat2_fun]; after_results_simp; try rfl
theorem a1_v12 : after opsA1 W (Proc.devRef .tc main_v12)
    = cmpf .ogt (deg (dst (W (Proc.devRef .tc main_arg1)))) (broadcastInDim S50000 ![] bcast_S_S50000 (constant (F := Ideal) S_ .f32 0x00000000#32)) := by
  unfold deg dst; simp only [opsA1, cat2_fun]; after_results_simp; try rfl
theorem a1_v15 : after opsA1 W (Proc.devRef .tc main_v15)
    = Host.rsqrt (maximumf (deg (dst (W (Proc.devRef .tc main_arg1)))) (broadcastInDim S50000 ![] bcast_S_S50000 (constant (F := Ideal) S_ .f32 0x2B8CBCCC#32))) := by
  unfold deg dst; simp only [opsA1, cat2_fun]; after_results_simp; try rfl
theorem a1_c3 : after opsA1 W (Proc.devRef .tc main_cst_3) = constant (F := Ideal) S_ .f32 0x00000000#32 := by
  simp only [opsA1, cat2_fun]; after_results_simp
theorem wh_v16 : after opsWh W (Proc.devRef .tc main_v16) = whereT (W (Proc.devRef .tc main_v12)) (W (Proc.devRef .tc main_v15)) (W (Proc.devRef .tc main_cst_3)) := by
  simp only [opsWh, after_cons, after_nil]; rfl
theorem a2_v31 : after opsA2 W (Proc.devRef .tc main_v31) = norm (W (Proc.devRef .tc main_v16)) (W (Proc.devRef .tc main_v3)) (W (Proc.devRef .tc main_v6)) := by
  unfold norm wrapCol; simp only [opsA2]; after_results_simp; try rfl
theorem l1_v : after opsL1 W (Proc.devRef .tc main_v48)
    = conv (dot (W (Proc.devRef .tc main_arg0)) (W (Proc.devRef .tc main_arg4))) (W (Proc.devRef .tc main_v31)) (W (Proc.devRef .tc main_v3)) (W (Proc.devRef .tc main_v6)) (W (Proc.devRef .tc main_arg5)) := by
  unfold conv dot wrapCol; simp only [opsL1]; after_results_simp; try rfl
theorem l1_c : after opsL1 W (Proc.devRef .tc main_cst_10) = constant (F := Ideal) S_ .f32 0x3E4CCCCD#32 := by
  simp only [opsL1]; after_results_simp
theorem r1_v : after opsR1 W (Proc.devRef .tc main_v49) = lrlT (W (Proc.devRef .tc main_v48)) (W (Proc.devRef .tc main_cst_10)) := by
  simp only [opsR1, after_cons, after_nil]; rfl
theorem l2_v : after opsL2 W (Proc.devRef .tc main_v66)
    = conv (dot (W (Proc.devRef .tc main_v49)) (W (Proc.devRef .tc main_arg6))) (W (Proc.devRef .tc main_v31)) (W (Proc.devRef .tc main_v3)) (W (Proc.devRef .tc main_v6)) (W (Proc.devRef .tc main_arg7)) := by
  unfold conv dot wrapCol; simp only [opsL2]; after_results_simp; try rfl
theorem l2_c : after opsL2 W (Proc.devRef .tc main_cst_14) = constant (F := Ideal) S_ .f32 0x3E4CCCCD#32 := by
  simp only [opsL2]; after_results_simp
theorem r2_v : after opsR2 W (Proc.devRef .tc main_v67) = lrlT (W (Proc.devRef .tc main_v66)) (W (Proc.devRef .tc main_cst_14)) := by
  simp only [opsR2, after_cons, after_nil]; rfl
theorem l3_v : after opsL3 W (Proc.devRef .tc main_v84)
    = conv (dot (W (Proc.devRef .tc main_v67)) (W (Proc.devRef .tc main_arg6))) (W (Proc.devRef .tc main_v31)) (W (Proc.devRef .tc main_v3)) (W (Proc.devRef .tc main_v6)) (W (Proc.devRef .tc main_arg7)) := by
  unfold conv dot wrapCol; simp only [opsL3]; after_results_simp; try rfl
theorem l3_c : after opsL3 W (Proc.devRef .tc main_cst_18) = constant (F := Ideal) S_ .f32 0x3E4CCCCD#32 := by
  simp only [opsL3]; after_results_simp
theorem r3_v : after opsR3 W (Proc.devRef .tc main_v85) = lrlT (W (Proc.devRef .tc main_v84)) (W (Proc.devRef .tc main_cst_18)) := by
  simp only [opsR3, after_cons, after_nil]; rfl
theorem l4_v102 : after opsL4 W (Proc.devRef .tc main_v102)
    = conv64 (dot64 (W (Proc.devRef .tc main_v85)) (W (Proc.devRef .tc main_arg8))) (W (Proc.devRef .tc main_v31)) (W (Proc.devRef .tc main_v3)) (W (Proc.devRef .tc main_v6)) (W (Proc.devRef .tc main_arg9)) := by
  unfold conv64 dot64 wrapCol; simp only [opsL4]; after_results_simp; try rfl
theorem t_v123 : after opsT W (Proc.devRef .tc main_v123)
    = dec (W (Proc.devRef .tc main_v102)) (e0 (W (Proc.devRef .tc main_arg2)) (W (Proc.devRef .tc main_arg3))) (e1 (W (Proc.devRef .tc main_arg2)) (W (Proc.devRef .tc main_arg3))) := by
  unfold dec e0 e1 wrapColL; simp only [opsT]; after_results_simp; try rfl

/-! ## What is carried through the stages -/

abbrev keptR : List (Ref sig .tc) := [main_v3, main_v6, main_v31, main_arg2, main_arg3, main_arg5, main_arg6, main_arg7, main_arg8, main_arg9]
abbrev keptA : List (Ref sig .tc) := [main_v3, main_v6, main_arg0, main_arg2, main_arg3, main_arg4, main_arg5, main_arg6, main_arg7, main_arg8, main_arg9]
abbrev argsA : List (Ref sig .tc) := [main_arg0, main_arg2, main_arg3, main_arg4, main_arg5, main_arg6, main_arg7, main_arg8, main_arg9]

def Agree (L : List (Ref sig .tc)) (W W' : Valuation τ sig (Elt Ideal)) : Prop :=
  ∀ b ∈ L, W (Proc.devRef .tc b) = W' (Proc.devRef .tc b)

theorem Agree.trans {L : List (Ref sig .tc)} {W₁ W₂ W₃ : Valuation τ sig (Elt Ideal)} (h : Agree L W₁ W₂) (h' : Agree L W₂ W₃) :
    Agree L W₁ W₃ := fun b hb => (h b hb).trans (h' b hb)

local macro "not_written" ops:ident : tactic => `(tactic| (
  refine after_of_forall_not_mem _ _ (List.forall_iff_forall_mem.mp ?_)
  simp only [$ops:ident, List.Forall, nullary_writes, unary_writes, binary_writes, ternary_writes, reshape_writes, Finset.mem_singleton]
  repeat' apply And.intro
  all_goals exact devRef_ne_of_ne (by decide)))

theorem agree_a1 : Agree argsA (after opsA1 W) W := fun b hb => by
  simp only [argsA, List.mem_cons, List.not_mem_nil, or_false] at hb
  rcases hb with rfl | rfl | rfl | rfl | rfl | rfl | rfl | rfl | rfl <;> not_written opsA1
theorem agree_wh : Agree keptA (after opsWh W) W := fun b hb => by
  simp only [keptA, List.mem_cons, List.not_mem_nil, or_false] at hb
  rcases hb with rfl | rfl | rfl | rfl | rfl | rfl | rfl | rfl | rfl | rfl | rfl <;> not_written opsWh
theorem agree_a2 : Agree keptA (after opsA2 W) W := fun b hb => by
  simp only [keptA, List.mem_cons, List.not_mem_nil, or_false] at hb
  rcases hb with rfl | rfl | rfl | rfl | rfl | rfl | rfl | rfl | rfl | rfl | rfl <;> not_written opsA2
theorem agree_l1 : Agree keptR (after opsL1 W) W := fun b hb => by
  simp only [keptR, List.mem_cons, List.not_mem_nil, or_false] at hb
  rcases hb with rfl | rfl | rfl | rfl | rfl | rfl | rfl | rfl | rfl | rfl <;> not_written opsL1
theorem agree_r1 : Agree keptR (after opsR1 W) W := fun b hb => by
  simp only [keptR, List.mem_cons, List.not_mem_nil, or_false] at hb
  rcases hb with rfl | rfl | rfl | rfl | rfl | rfl | rfl | rfl | rfl | rfl <;> not_written opsR1
theorem agree_l2 : Agree keptR (after opsL2 W) W := fun b hb => by
  simp only [keptR, List.mem_cons, List.not_mem_nil, or_false] at hb
  rcases hb with rfl | rfl | rfl | rfl | rfl | rfl | rfl | rfl | rfl | rfl <;> not_written opsL2
theorem agree_r2 : Agree keptR (after opsR2 W) W := fun b hb => by
  simp only [keptR, List.mem_cons, List.not_mem_nil, or_false] at hb
  rcases hb with rfl | rfl | rfl | rfl | rfl | rfl | rfl | rfl | rfl | rfl <;> not_written opsR2
theorem agree_l3 : Agree keptR (after opsL3 W) W := fun b hb => by
  simp only [keptR, List.mem_cons, List.not_mem_nil, or_false] at hb
  rcases hb with rfl | rfl | rfl | rfl | rfl | rfl | rfl | rfl | rfl | rfl <;> not_written opsL3
theorem agree_r3 : Agree keptR (after opsR3 W) W := fun b hb => by
  simp only [keptR, List.mem_cons, List.not_mem_nil, or_false] at hb
  rcases hb with rfl | rfl | rfl | rfl | rfl | rfl | rfl | rfl | rfl | rfl <;> not_written opsR3
theorem agree_l4 : Agree keptR (after opsL4 W) W := fun b hb => by
  simp only [keptR, List.mem_cons, List.not_mem_nil, or_false] at hb
  rcases hb with rfl | rfl | rfl | rfl | rfl | rfl | rfl | rfl | rfl | rfl <;> not_written opsL4

/-! ## The line's fold at the result buffer -/

theorem result (V : Valuation τ sig (Elt Ideal)) :
    after ops V (Proc.devRef .tc main_v123)
      = dec (z (V (Proc.devRef .tc main_arg0)) (V (Proc.devRef .tc main_arg1)) (V (Proc.devRef .tc main_arg4))
            (V (Proc.devRef .tc main_arg5)) (V (Proc.devRef .tc main_arg6)) (V (Proc.devRef .tc main_arg7))
            (V (Proc.devRef .tc main_arg8)) (V (Proc.devRef .tc main_arg9)))
          (e0 (V (Proc.devRef .tc main_arg2)) (V (Proc.devRef .tc main_arg3)))
          (e1 (V (Proc.devRef .tc main_arg2)) (V (Proc.devRef .tc main_arg3))) := by
  rw [after_ops]
  generalize hW1 : after opsA1 V = W1
  generalize hW1' : after opsWh W1 = W1'
  generalize hW2 : after opsA2 W1' = W2
  generalize hW3a : after opsL1 W2 = W3a
  generalize hW3 : after opsR1 W3a = W3
  generalize hW4a : after opsL2 W3 = W4a
  generalize hW4 : after opsR2 W4a = W4
  generalize hW5a : after opsL3 W4 = W5a
  generalize hW5 : after opsR3 W5a = W5
  generalize hW6 : after opsL4 W5 = W6
  have g1 : Agree argsA W1 V := hW1 ▸ agree_a1 V
  have g1' : Agree keptA W1' W1 := hW1' ▸ agree_wh W1
  have g2 : Agree keptA W2 W1' := hW2 ▸ agree_a2 W1'
  have k3a : Agree keptR W3a W2 := hW3a ▸ agree_l1 W2
  have k3 : Agree keptR W3 W2 := (hW3 ▸ agree_r1 W3a : Agree keptR W3 W3a).trans k3a
  have k4a : Agree keptR W4a W2 := (hW4a ▸ agree_l2 W3 : Agree keptR W4a W3).trans k3
  have k4 : Agree keptR W4 W2 := (hW4 ▸ agree_r2 W4a : Agree keptR W4 W4a).trans k4a
  have k5a : Agree keptR W5a W2 := (hW5a ▸ agree_l3 W4 : Agree keptR W5a W4).trans k4
  have k5 : Agree keptR W5 W2 := (hW5 ▸ agree_r3 W5a : Agree keptR W5 W5a).trans k5a
  have k6 : Agree keptR W6 W2 := (hW6 ▸ agree_l4 W5 : Agree keptR W6 W5).trans k5
  have arg2 (b : Ref sig .tc) (hb : b ∈ keptA) (hb' : b ∈ argsA) : W2 (Proc.devRef .tc b) = V (Proc.devRef .tc b) :=
    (g2 b hb).trans ((g1' b hb).trans (g1 b hb'))
  have s3 : W2 (Proc.devRef .tc main_v3) = src (V (Proc.devRef .tc main_arg1)) :=
    (g2 main_v3 (by decide)).trans ((g1' main_v3 (by decide)).trans (hW1 ▸ a1_v3 V))
  have s6 : W2 (Proc.devRef .tc main_v6) = dst (V (Proc.devRef .tc main_arg1)) :=
    (g2 main_v6 (by decide)).trans ((g1' main_v6 (by decide)).trans (hW1 ▸ a1_v6 V))
  have s16 : W1' (Proc.devRef .tc main_v16) = dis (deg (dst (V (Proc.devRef .tc main_arg1)))) := by
    rw [← hW1', wh_v16 W1, ← hW1, a1_v12 V, a1_v15 V, a1_c3 V, dis_eq]
  have s31 : W2 (Proc.devRef .tc main_v31) = (norm (dis (deg (dst (V (Proc.devRef .tc main_arg1))))) (src (V (Proc.devRef .tc main_arg1))) (dst (V (Proc.devRef .tc main_arg1)))) := by
    rw [← hW2, a2_v31 W1', s16, g1' main_v3 (by decide), g1' main_v6 (by decide), ← hW1, a1_v3 V, a1_v6 V]
  have e49 : W3 (Proc.devRef .tc main_v49) = lrl (conv (dot (V (Proc.devRef .tc main_arg0)) (V (Proc.devRef .tc main_arg4))) (norm (dis (deg (dst (V (Proc.devRef .tc main_arg1))))) (src (V (Proc.devRef .tc main_arg1))) (dst (V (Proc.devRef .tc main_arg1)))) (src (V (Proc.devRef .tc main_arg1))) (dst (V (Proc.devRef .tc main_arg1))) (V (Proc.devRef .tc main_arg5))) := by
    rw [← hW3, r1_v W3a, ← hW3a, l1_v W2, l1_c W2, s31, s3, s6, arg2 main_arg0 (by decide) (by decide),
      arg2 main_arg4 (by decide) (by decide), arg2 main_arg5 (by decide) (by decide), lrl_eq]
  have e67 : W4 (Proc.devRef .tc main_v67) = lrl (conv (dot (W3 (Proc.devRef .tc main_v49)) (V (Proc.devRef .tc main_arg6))) (norm (dis (deg (dst (V (Proc.devRef .tc main_arg1))))) (src (V (Proc.devRef .tc main_arg1))) (dst (V (Proc.devRef .tc main_arg1)))) (src (V (Proc.devRef .tc main_arg1))) (dst (V (Proc.devRef .tc main_arg1))) (V (Proc.devRef .tc main_arg7))) := by
    rw [← hW4, r2_v W4a, ← hW4a, l2_v W3, l2_c W3, k3 main_v31 (by decide), k3 main_v3 (by decide), k3 main_v6 (by decide),
      k3 main_arg6 (by decide), k3 main_arg7 (by decide), s31, s3, s6, arg2 main_arg6 (by decide) (by decide),
      arg2 main_arg7 (by decide) (by decide), lrl_eq]
  have e85 : W5 (Proc.devRef .tc main_v85) = lrl (conv (dot (W4 (Proc.devRef .tc main_v67)) (V (Proc.devRef .tc main_arg6))) (norm (dis (deg (dst (V (Proc.devRef .tc main_arg1))))) (src (V (Proc.devRef .tc main_arg1))) (dst (V (Proc.devRef .tc main_arg1)))) (src (V (Proc.devRef .tc main_arg1))) (dst (V (Proc.devRef .tc main_arg1))) (V (Proc.devRef .tc main_arg7))) := by
    rw [← hW5, r3_v W5a, ← hW5a, l3_v W4, l3_c W4, k4 main_v31 (by decide), k4 main_v3 (by decide), k4 main_v6 (by decide),
      k4 main_arg6 (by decide), k4 main_arg7 (by decide), s31, s3, s6, arg2 main_arg6 (by decide) (by decide),
      arg2 main_arg7 (by decide) (by decide), lrl_eq]
  have e102 : W6 (Proc.devRef .tc main_v102) = conv64 (dot64 (W5 (Proc.devRef .tc main_v85)) (V (Proc.devRef .tc main_arg8))) (norm (dis (deg (dst (V (Proc.devRef .tc main_arg1))))) (src (V (Proc.devRef .tc main_arg1))) (dst (V (Proc.devRef .tc main_arg1)))) (src (V (Proc.devRef .tc main_arg1))) (dst (V (Proc.devRef .tc main_arg1))) (V (Proc.devRef .tc main_arg9)) := by
    rw [← hW6, l4_v102 W5, k5 main_v31 (by decide), k5 main_v3 (by decide), k5 main_v6 (by decide), k5 main_arg8 (by decide),
      k5 main_arg9 (by decide), s31, s3, s6, arg2 main_arg8 (by decide) (by decide), arg2 main_arg9 (by decide) (by decide)]
  rw [t_v123 W6, k6 main_arg2 (by decide), k6 main_arg3 (by decide), arg2 main_arg2 (by decide) (by decide),
    arg2 main_arg3 (by decide) (by decide), e102, e85, e67, e49]
  rfl

end Cert.ReferenceIdeal.Fold

end
-- ==== Proof.LibPlainDot.lean ====
/-
  A plain matrix product read at an element, over the extended reals.

  For the dimension numbers "contract the left operand's axis 1 with the right operand's axis 0, no batch axis"
  (`DotDims.plain M K N`: an M×K array times a K×N array), the contraction position is one coordinate k < K, the left
  operand is read at (r, k) and the right at (k, c).  So the element (r, c) of the product — whether computed by the
  matrix unit into an accumulator of zeros or by the host's dot_general — is the finite sum  Σ_{k < K} lhs(r,k) · rhs(k,c).
  Nothing here depends on the extents, so the statement is for all M, K, N.
-/
import Idealize.ShloMosaic.Lib.ValueIdx
import Idealize.ShloMosaic.PureOps.Ideal.Laws

noncomputable section

open scoped BigOperators

namespace Cert.PlainDot

open Idealize.ShloMosaic Idealize.ShloMosaic.ValueIdx

variable {M K N : Nat}

/-- The left operand's row coordinate is the output's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- The right operand's column coordinate is the output's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The contraction sum of a plain product, re-indexed by the inner coordinate. -/
theorem sum_plain {φ₁ φ₂ : FTy} (lhs : FVec Ideal ⟨2, ![M, K]⟩ φ₁) (rhs : FVec Ideal ⟨2, ![K, N]⟩ φ₂) (r : Fin M) (c : Fin N) :
    ∑ q : (DotDims.plain M K N).contr.Idx,
        lhs ((DotDims.plain M K N).lhsIdx (ix2 r c) q) * rhs ((DotDims.plain M K N).rhsIdx (ix2 r c) q)
      = ∑ k : Fin K, lhs (ix2 r k) * rhs (ix2 k c) := by
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hk := contrEquiv1_symm_val (DotDims.plain M K N) K hr hs k
  have el : (DotDims.plain M K N).lhsIdx (ix2 r c) ((contrEquiv1 (DotDims.plain M K N) K hr hs).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K hr hs).symm k) = ix2 k c :=
    funext fun a => Fin.ext (by
      match a with
      | ⟨0, _⟩ => exact ((DotDims.plain M K N).rhsIdx_val_of_single rfl _ _).trans hk
      | ⟨1, _⟩ => exact rhs_col _ _)
  rw [el, er]

/-- A plain product accumulated by the matrix unit into zeros, at the element (r, c). -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (sum_plain lhs rhs r c)

/-- A plain product computed by the host's dot_general, at the element (r, c). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (sum_plain lhs rhs r c)

end Cert.PlainDot

end
-- ==== Proof.Region0.lean ====
/-
  What the first pallas_call leaves in its result array, as one function of the arrays it is entered with: row `r`,
  column `c` of the result is `(Σ_k x[r,k] · w[k,c]) · d[r,0]` — the row block of `x` times the whole weight matrix on the
  matrix unit (a change of float format is the identity over the extended reals), then each row scaled by its entry
  of the column `d`. Point `t` of the grid writes rows `5000·t … 5000·t + 4999`; the ten points cover the array.
-/
import proofs.«137646_j56495999811606_2_alg».proof.Proof.Gen.KernelIdeal.Frame
import proofs.«137646_j56495999811606_2_alg».proof.Proof.LibPlainDot
import Idealize.ShloMosaic.Lib.ValueIdx
import Idealize.ShloMosaic.Lib.Pipeline.Value

set_option maxRecDepth 16384

noncomputable section

open scoped BigOperators

namespace Cert.KernelIdeal.R0

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The result array as a function of the three arrays the region reads. -/
def G (x : S50000x128.Idx → Elt Ideal .f32) (w : S128x128.Idx → Elt Ideal .f32) (d : S50000x1.Idx → Elt Ideal .f32) :
    S50000x128.Idx → Elt Ideal .f32 :=
  fun i => (∑ k : Fin 128, x (ix2 (⟨(i 0).val, idx2_lt0 i⟩ : Fin 50000) k) * w (ix2 k (⟨(i 1).val, idx2_lt1 i⟩ : Fin 128)))
    * d (ix2 (⟨(i 0).val, idx2_lt0 i⟩ : Fin 50000) (0 : Fin 1))

theorem G_apply (x : S50000x128.Idx → Elt Ideal .f32) (w : S128x128.Idx → Elt Ideal .f32) (d : S50000x1.Idx → Elt Ideal .f32)
    (r : Fin 50000) (q : Fin 128) :
    G x w d (ix2 r q) = (∑ k : Fin 128, x (ix2 r k) * w (ix2 k q)) * d (ix2 r (0 : Fin 1)) := rfl

/-- The body's stored value at row `p`, column `q` of the block. -/
theorem pay_apply (x0 : Vec Ideal S5000x128 .f32) (x1 : Vec Ideal S128x128 .f32) (x2 : Vec Ideal S5000x1 .f32)
    (p : Fin 5000) (q : Fin 128) :
    k0_pay1 x0 x1 x2 (ix2 p q) = (∑ k : Fin 128, x0 (ix2 p k) * x1 (ix2 k q)) * x2 (ix2 p (0 : Fin 1)) := by
  unfold k0_pay1
  refine congrArg₂ (· * ·) ?_ ?_
  · exact Cert.PlainDot.matmul_zero_apply (M := 5000) (K := 128) (N := 128) none
      (truncf .bf16 x0 bitsLt_bf16_f32) (truncf .bf16 x1 bitsLt_bf16_f32) p q
  · rw [shapeCast_self]
    exact broadcastTo_apply (s := S5000x1) (t := S5000x128) x2 broadcasts_S5000x1_S5000x128 (ix2 p q) (ix2 p (0 : Fin 1))
      (fun a => by match a with | ⟨0, _⟩ => rfl | ⟨1, _⟩ => rfl)

/-- The printed index maps over the grid: the row windows move together, one block per point; the weight window stays. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 9 :=
  (by decide +kernel : ∀ t : Fin grid0.N, _)

theorem idx_onto : ∀ q0 : Fin 10, ∃ t : Fin cfg0.N, win0_3.index t = ![q0.val, 0] :=
  (by decide +kernel : ∀ q0 : Fin 10, ∃ t : Fin grid0.N, win0_3.index t = ![q0.val, 0])

/-- The array row that row `p` of point `t`'s block is. -/
def row (t : Fin cfg0.N) (p : Fin 5000) : Fin 50000 :=
  ⟨win0_3.index t (0 : Fin 2) * 5000 + p.val, by have := (idx_facts t).2.2.2.2.2.2.2; have := p.isLt; omega⟩

theorem read_x (c : Dev nD) (t : Fin cfg0.N) (p : Fin 5000) (k : Fin 128) :
    iblk0 V c 0 t (ix2 p k) = V c main_arg0 (ix2 (row t p) k) := by
  show V c main_arg0 (((cfg0.win 0).blk t).view.emb (ix2 p k)) = V c main_arg0 (ix2 (row t p) k)
  refine congrArg (V c main_arg0) (funext fun a => Fin.ext ?_)
  obtain ⟨e0, e1, -⟩ := idx_facts t
  match a with
  | ⟨0, _⟩ => show win0_0.index t (0 : Fin 2) * 5000 + 1 * p.val = win0_3.index t (0 : Fin 2) * 5000 + p.val; omega
  | ⟨1, _⟩ => show win0_0.index t (1 : Fin 2) * 128 + 1 * k.val = k.val; omega

theorem read_w (c : Dev nD) (t : Fin cfg0.N) (k : Fin 128) (q : Fin 128) :
    iblk0 V c 1 t (ix2 k q) = V c main_arg4 (ix2 k q) := by
  show V c main_arg4 (((cfg0.win 1).blk t).view.emb (ix2 k q)) = V c main_arg4 (ix2 k q)
  refine congrArg (V c main_arg4) (funext fun a => Fin.ext ?_)
  obtain ⟨-, -, e2, e3, -⟩ := idx_facts t
  match a with
  | ⟨0, _⟩ => show win0_1.index t (0 : Fin 2) * 128 + 1 * k.val = k.val; omega
  | ⟨1, _⟩ => show win0_1.index t (1 : Fin 2) * 128 + 1 * q.val = q.val; omega

theorem read_d (c : Dev nD) (t : Fin cfg0.N) (p : Fin 5000) :
    iblk0 V c 2 t (ix2 p (0 : Fin 1)) = V c main_v17 (ix2 (row t p) (0 : Fin 1)) := by
  show V c main_v17 (((cfg0.win 2).blk t).view.emb (ix2 p (0 : Fin 1))) = V c main_v17 (ix2 (row t p) (0 : Fin 1))
  refine congrArg (V c main_v17) (funext fun a => Fin.ext ?_)
  obtain ⟨-, -, -, -, e4, e5, -⟩ := idx_facts t
  match a with
  | ⟨0, _⟩ => show win0_2.index t (0 : Fin 2) * 5000 + 1 * p.val = win0_3.index t (0 : Fin 2) * 5000 + p.val; omega
  | ⟨1, _⟩ => show win0_2.index t (1 : Fin 2) * 1 + 1 * 0 = 0; omega

theorem emb_out (t : Fin cfg0.N) (p : Fin 5000) (q : Fin 128) :
    ((cfg0.win 3).blk t).view.emb (ix2 p q) = ix2 (row t p) q := by
  refine funext fun a => Fin.ext ?_
  obtain ⟨-, -, -, -, -, -, e6, -⟩ := idx_facts t
  match a with
  | ⟨0, _⟩ => show win0_3.index t (0 : Fin 2) * 5000 + 1 * p.val = win0_3.index t (0 : Fin 2) * 5000 + p.val; omega
  | ⟨1, _⟩ => show win0_3.index t (1 : Fin 2) * 128 + 1 * q.val = q.val; omega

/-- What point `t` writes back is block `t` of `G` of the arrays as the region finds them. -/
theorem flushed_eq (c : Dev nD) (t : Fin cfg0.N) :
    (dat0 V c).flushed 3 t
      = ((cfg0.win 3).blk t).view.read (Elt Ideal) (G (V c main_arg0) (V c main_arg4) (V c main_v17)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
    = G (V c main_arg0) (V c main_arg4) (V c main_v17) (((cfg0.win 3).blk t).view.emb (ix2 p q))
  rw [emb_out t p q, G_apply]
  refine (pay_apply (iblk0 V c 0 t) (iblk0 V c 1 t) (iblk0 V c 2 t) p q).trans ?_
  rw [read_d V c t p]
  refine congrArg (· * _) (Finset.sum_congr rfl fun k _ => ?_)
  rw [read_x V c t p k, read_w V c t k q]

theorem mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v18).slice (win0_3.rect t)).set ↔ _
  rw [View.set_slice_whole, Rect.mem_set_unit]
  exact Iff.rfl

theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The result array after the region. -/
theorem final (c : Dev nD) :
    (dat0 V c).arrAt 3 cfg0.N = G (V c main_arg0) (V c main_arg4) (V c main_v17) :=
  (dat0 V c).arrAt_eq_of_cover 3 (G (V c main_arg0) (V c main_arg4) (V c main_v17)) (fun t _ => flushed_eq V c t) cover

end Cert.KernelIdeal.R0

end
-- ==== Proof.Spec.lean ====
/-
  The one scalar function both programs share beyond sums and products: the leaky rectifier with slope 0.2 (the f32
  nearest it), `v` where `v ≥ 0` and `0.2 · v` elsewhere, over the extended reals.
-/
import Idealize.ShloMosaic.PureOps.Ideal

noncomputable section

namespace Cert.Spec

open Idealize.ShloMosaic

/-- `where(v ≥ 0, v, 0.2 · v)`. -/
def lrelu (v : EReal) : EReal :=
  Scalar.select (FloatOps.cmpf (F := Ideal) .oge v (FloatOps.ofBits (F := Ideal) .f32 0x00000000#32)) v
    (FloatOps.mulf (F := Ideal) (FloatOps.ofBits (F := Ideal) .f32 0x3E4CCCCD#32) v)

end Cert.Spec

end
-- ==== Proof.Region1.lean ====
/-
  What pallas_call 1 leaves in its result array, as one function of the arrays it is entered with: with
  `v[r,k] = lrelu(a[r,k] · d[r,0] + b[0,k])` (the aggregated messages scaled by the node's factor, the bias added, the leaky
  rectifier), row `r`, column `c` of the result is `(Σ_k v[r,k] · w[k,c]) · d[r,0]`. Point `t` of the grid writes rows
  `5000·t … 5000·t + 4999`; the ten points cover the array.
-/
import proofs.«137646_j56495999811606_2_alg».proof.Proof.Gen.KernelIdeal.Frame
import proofs.«137646_j56495999811606_2_alg».proof.Proof.LibPlainDot
import proofs.«137646_j56495999811606_2_alg».proof.Proof.Spec
import Idealize.ShloMosaic.Lib.ValueIdx
import Idealize.ShloMosaic.Lib.Pipeline.Value

set_option maxRecDepth 16384

noncomputable section

open scoped BigOperators

namespace Cert.KernelIdeal.R1

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The result array as a function of the four arrays the region reads. -/
def G (a : S50000x128.Idx → Elt Ideal .f32) (d : S50000x1.Idx → Elt Ideal .f32) (b : S1x128.Idx → Elt Ideal .f32)
    (w : S128x128.Idx → Elt Ideal .f32) : S50000x128.Idx → Elt Ideal .f32 :=
  fun i => (∑ k : Fin 128, lrelu (a (ix2 (⟨(i 0).val, idx2_lt0 i⟩ : Fin 50000) k) * d (ix2 (⟨(i 0).val, idx2_lt0 i⟩ : Fin 50000) (0 : Fin 1))
        + b (ix2 (0 : Fin 1) k)) * w (ix2 k (⟨(i 1).val, idx2_lt1 i⟩ : Fin 128)))
    * d (ix2 (⟨(i 0).val, idx2_lt0 i⟩ : Fin 50000) (0 : Fin 1))

theorem G_apply (a : S50000x128.Idx → Elt Ideal .f32) (d : S50000x1.Idx → Elt Ideal .f32) (b : S1x128.Idx → Elt Ideal .f32)
    (w : S128x128.Idx → Elt Ideal .f32) (r : Fin 50000) (q : Fin 128) :
    G a d b w (ix2 r q) = (∑ k : Fin 128, lrelu (a (ix2 r k) * d (ix2 r (0 : Fin 1)) + b (ix2 (0 : Fin 1) k)) * w (ix2 k q))
      * d (ix2 r (0 : Fin 1)) := rfl

/-- The body's stored value at row `p`, column `q` of the block. -/
theorem pay_apply (x0 : Vec Ideal S5000x128 .f32) (x1 : Vec Ideal S5000x1 .f32) (x2 : Vec Ideal S1x128 .f32)
    (x3 : Vec Ideal S128x128 .f32) (p : Fin 5000) (q : Fin 128) :
    k1_pay1 x0 x1 x2 x3 x1 (ix2 p q)
      = (∑ k : Fin 128, lrelu (x0 (ix2 p k) * x1 (ix2 p (0 : Fin 1)) + x2 (ix2 (0 : Fin 1) k)) * x3 (ix2 k q))
        * x1 (ix2 p (0 : Fin 1)) := by
  have hd : ∀ k : Fin 128, broadcastTo S5000x128 x1 broadcasts_S5000x1_S5000x128 (ix2 p k) = x1 (ix2 p (0 : Fin 1)) := fun k =>
    broadcastTo_apply (s := S5000x1) (t := S5000x128) x1 broadcasts_S5000x1_S5000x128 (ix2 p k) (ix2 p (0 : Fin 1))
      (fun a => by match a with | ⟨0, _⟩ => rfl | ⟨1, _⟩ => rfl)
  have hd' : broadcastTo S5000x128 x1 broadcasts_S5000x1_S5000x128 (ix2 p q) = x1 (ix2 p (0 : Fin 1)) :=
    broadcastTo_apply (s := S5000x1) (t := S5000x128) x1 broadcasts_S5000x1_S5000x128 (ix2 p q) (ix2 p (0 : Fin 1))
      (fun a => by match a with | ⟨0, _⟩ => rfl | ⟨1, _⟩ => rfl)
  have hb : ∀ k : Fin 128, broadcastTo S5000x128 x2 broadcasts_S1x128_S5000x128 (ix2 p k) = x2 (ix2 (0 : Fin 1) k) := fun k =>
    broadcastTo_apply (s := S1x128) (t := S5000x128) x2 broadcasts_S1x128_S5000x128 (ix2 p k) (ix2 (0 : Fin 1) k)
      (fun a => by match a with | ⟨0, _⟩ => rfl | ⟨1, _⟩ => rfl)
  unfold k1_pay1
  simp only [shapeCast_self]
  refine congrArg₂ (· * ·) ?_ hd'
  refine (Cert.PlainDot.matmul_zero_apply (M := 5000) (K := 128) (N := 128) none _ _ p q).trans ?_
  refine Finset.sum_congr rfl fun k _ => congrArg (· * _) ?_
  show lrelu (x0 (ix2 p k) * broadcastTo S5000x128 x1 broadcasts_S5000x1_S5000x128 (ix2 p k)
    + broadcastTo S5000x128 x2 broadcasts_S1x128_S5000x128 (ix2 p k)) = _
  rw [hd k, hb k]

/-- The printed index maps over the grid: the row windows move together, one block per point; the bias and weight windows stay. -/
theorem idx_facts : ∀ t : Fin cfg1.N, win1_0.index t (0 : Fin 2) = win1_4.index t (0 : Fin 2)
    ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 9 :=
  (by decide +kernel : ∀ t : Fin grid1.N, _)

theorem idx_onto : ∀ q0 : Fin 10, ∃ t : Fin cfg1.N, win1_4.index t = ![q0.val, 0] :=
  (by decide +kernel : ∀ q0 : Fin 10, ∃ t : Fin grid1.N, win1_4.index t = ![q0.val, 0])

/-- The array row that row `p` of point `t`'s block is. -/
def row (t : Fin cfg1.N) (p : Fin 5000) : Fin 50000 :=
  ⟨win1_4.index t (0 : Fin 2) * 5000 + p.val, by have := (idx_facts t).2.2.2.2.2.2.2.2.2; have := p.isLt; omega⟩

theorem read_a (c : Dev nD) (t : Fin cfg1.N) (p : Fin 5000) (k : Fin 128) :
    iblk1 V c 0 t (ix2 p k) = V c main_v28 (ix2 (row t p) k) := by
  show V c main_v28 (((cfg1.win 0).blk t).view.emb (ix2 p k)) = V c main_v28 (ix2 (row t p) k)
  refine congrArg (V c main_v28) (funext fun a => Fin.ext ?_)
  obtain ⟨e0, e1, -⟩ := idx_facts t
  match a with
  | ⟨0, _⟩ => show win1_0.index t (0 : Fin 2) * 5000 + 1 * p.val = win1_4.index t (0 : Fin 2) * 5000 + p.val; omega
  | ⟨1, _⟩ => show win1_0.index t (1 : Fin 2) * 128 + 1 * k.val = k.val; omega

theorem read_d (c : Dev nD) (t : Fin cfg1.N) (p : Fin 5000) :
    iblk1 V c 1 t (ix2 p (0 : Fin 1)) = V c main_v17 (ix2 (row t p) (0 : Fin 1)) := by
  show V c main_v17 (((cfg1.win 1).blk t).view.emb (ix2 p (0 : Fin 1))) = V c main_v17 (ix2 (row t p) (0 : Fin 1))
  refine congrArg (V c main_v17) (funext fun a => Fin.ext ?_)
  obtain ⟨-, -, e2, e3, -⟩ := idx_facts t
  match a with
  | ⟨0, _⟩ => show win1_1.index t (0 : Fin 2) * 5000 + 1 * p.val = win1_4.index t (0 : Fin 2) * 5000 + p.val; omega
  | ⟨1, _⟩ => show win1_1.index t (1 : Fin 2) * 1 + 1 * 0 = 0; omega

theorem read_b (c : Dev nD) (t : Fin cfg1.N) (k : Fin 128) :
    iblk1 V c 2 t (ix2 (0 : Fin 1) k) = V c main_v29 (ix2 (0 : Fin 1) k) := by
  show V c main_v29 (((cfg1.win 2).blk t).view.emb (ix2 (0 : Fin 1) k)) = V c main_v29 (ix2 (0 : Fin 1) k)
  refine congrArg (V c main_v29) (funext fun a => Fin.ext ?_)
  obtain ⟨-, -, -, -, e4, e5, -⟩ := idx_facts t
  match a with
  | ⟨0, _⟩ => show win1_2.index t (0 : Fin 2) * 1 + 1 * 0 = 0; omega
  | ⟨1, _⟩ => show win1_2.index t (1 : Fin 2) * 128 + 1 * k.val = k.val; omega

theorem read_w (c : Dev nD) (t : Fin cfg1.N) (k : Fin 128) (q : Fin 128) :
    iblk1 V c 3 t (ix2 k q) = V c main_arg6 (ix2 k q) := by
  show V c main_arg6 (((cfg1.win 3).blk t).view.emb (ix2 k q)) = V c main_arg6 (ix2 k q)
  refine congrArg (V c main_arg6) (funext fun a => Fin.ext ?_)
  obtain ⟨-, -, -, -, -, -, e6, e7, -⟩ := idx_facts t
  match a with
  | ⟨0, _⟩ => show win1_3.index t (0 : Fin 2) * 128 + 1 * k.val = k.val; omega
  | ⟨1, _⟩ => show win1_3.index t (1 : Fin 2) * 128 + 1 * q.val = q.val; omega

theorem emb_out (t : Fin cfg1.N) (p : Fin 5000) (q : Fin 128) :
    ((cfg1.win 4).blk t).view.emb (ix2 p q) = ix2 (row t p) q := by
  refine funext fun a => Fin.ext ?_
  obtain ⟨-, -, -, -, -, -, -, -, e8, -⟩ := idx_facts t
  match a with
  | ⟨0, _⟩ => show win1_4.index t (0 : Fin 2) * 5000 + 1 * p.val = win1_4.index t (0 : Fin 2) * 5000 + p.val; omega
  | ⟨1, _⟩ => show win1_4.index t (1 : Fin 2) * 128 + 1 * q.val = q.val; omega

/-- What point `t` writes back is block `t` of `G` of the arrays as the region finds them. -/
theorem flushed_eq (c : Dev nD) (t : Fin cfg1.N) :
    (dat1 V c).flushed 4 t
      = ((cfg1.win 4).blk t).view.read (Elt Ideal) (G (V c main_v28) (V c main_v17) (V c main_v29) (V c main_arg6)) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz, View.ld_unit_zero (S := S5000x1) hz,
    View.ld_unit_zero (S := S1x128) hz]
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (iblk1 V c 3 t) (iblk1 V c 1 t) (ix2 p q)
    = G (V c main_v28) (V c main_v17) (V c main_v29) (V c main_arg6) (((cfg1.win 4).blk t).view.emb (ix2 p q))
  rw [emb_out t p q, G_apply]
  refine (pay_apply (iblk1 V c 0 t) (iblk1 V c 1 t) (iblk1 V c 2 t) (iblk1 V c 3 t) p q).trans ?_
  rw [read_d V c t p]
  refine congrArg (· * _) (Finset.sum_congr rfl fun k _ => ?_)
  rw [read_a V c t p k, read_b V c t k, read_w V c t k q]

theorem mem_blk (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v30).slice (win1_4.rect t)).set ↔ _
  rw [View.set_slice_whole, Rect.mem_set_unit]
  exact Iff.rfl

theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The result array after the region. -/
theorem final (c : Dev nD) :
    (dat1 V c).arrAt 4 cfg1.N = G (V c main_v28) (V c main_v17) (V c main_v29) (V c main_arg6) :=
  (dat1 V c).arrAt_eq_of_cover 4 (G (V c main_v28) (V c main_v17) (V c main_v29) (V c main_arg6)) (fun t _ => flushed_eq V c t) cover

end Cert.KernelIdeal.R1

end
-- ==== Proof.Region2.lean ====
/-
  What pallas_call 2 leaves in its result array, as one function of the arrays it is entered with: with
  `v[r,k] = lrelu(a[r,k] · d[r,0] + b[0,k])` (the aggregated messages scaled by the node's factor, the bias added, the leaky
  rectifier), row `r`, column `c` of the result is `(Σ_k v[r,k] · w[k,c]) · d[r,0]`. Point `t` of the grid writes rows
  `5000·t … 5000·t + 4999`; the ten points cover the array.
-/
import proofs.«137646_j56495999811606_2_alg».proof.Proof.Gen.KernelIdeal.Frame
import proofs.«137646_j56495999811606_2_alg».proof.Proof.LibPlainDot
import proofs.«137646_j56495999811606_2_alg».proof.Proof.Spec
import Idealize.ShloMosaic.Lib.ValueIdx
import Idealize.ShloMosaic.Lib.Pipeline.Value

set_option maxRecDepth 16384

noncomputable section

open scoped BigOperators

namespace Cert.KernelIdeal.R2

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The result array as a function of the four arrays the region reads. -/
def G (a : S50000x128.Idx → Elt Ideal .f32) (d : S50000x1.Idx → Elt Ideal .f32) (b : S1x128.Idx → Elt Ideal .f32)
    (w : S128x128.Idx → Elt Ideal .f32) : S50000x128.Idx → Elt Ideal .f32 :=
  fun i => (∑ k : Fin 128, lrelu (a (ix2 (⟨(i 0).val, idx2_lt0 i⟩ : Fin 50000) k) * d (ix2 (⟨(i 0).val, idx2_lt0 i⟩ : Fin 50000) (0 : Fin 1))
        + b (ix2 (0 : Fin 1) k)) * w (ix2 k (⟨(i 1).val, idx2_lt1 i⟩ : Fin 128)))
    * d (ix2 (⟨(i 0).val, idx2_lt0 i⟩ : Fin 50000) (0 : Fin 1))

theorem G_apply (a : S50000x128.Idx → Elt Ideal .f32) (d : S50000x1.Idx → Elt Ideal .f32) (b : S1x128.Idx → Elt Ideal .f32)
    (w : S128x128.Idx → Elt Ideal .f32) (r : Fin 50000) (q : Fin 128) :
    G a d b w (ix2 r q) = (∑ k : Fin 128, lrelu (a (ix2 r k) * d (ix2 r (0 : Fin 1)) + b (ix2 (0 : Fin 1) k)) * w (ix2 k q))
      * d (ix2 r (0 : Fin 1)) := rfl

/-- The body's stored value at row `p`, column `q` of the block. -/
theorem pay_apply (x0 : Vec Ideal S5000x128 .f32) (x1 : Vec Ideal S5000x1 .f32) (x2 : Vec Ideal S1x128 .f32)
    (x3 : Vec Ideal S128x128 .f32) (p : Fin 5000) (q : Fin 128) :
    k2_pay1 x0 x1 x2 x3 x1 (ix2 p q)
      = (∑ k : Fin 128, lrelu (x0 (ix2 p k) * x1 (ix2 p (0 : Fin 1)) + x2 (ix2 (0 : Fin 1) k)) * x3 (ix2 k q))
        * x1 (ix2 p (0 : Fin 1)) := by
  have hd : ∀ k : Fin 128, broadcastTo S5000x128 x1 broadcasts_S5000x1_S5000x128 (ix2 p k) = x1 (ix2 p (0 : Fin 1)) := fun k =>
    broadcastTo_apply (s := S5000x1) (t := S5000x128) x1 broadcasts_S5000x1_S5000x128 (ix2 p k) (ix2 p (0 : Fin 1))
      (fun a => by match a with | ⟨0, _⟩ => rfl | ⟨1, _⟩ => rfl)
  have hd' : broadcastTo S5000x128 x1 broadcasts_S5000x1_S5000x128 (ix2 p q) = x1 (ix2 p (0 : Fin 1)) :=
    broadcastTo_apply (s := S5000x1) (t := S5000x128) x1 broadcasts_S5000x1_S5000x128 (ix2 p q) (ix2 p (0 : Fin 1))
      (fun a => by match a with | ⟨0, _⟩ => rfl | ⟨1, _⟩ => rfl)
  have hb : ∀ k : Fin 128, broadcastTo S5000x128 x2 broadcasts_S1x128_S5000x128 (ix2 p k) = x2 (ix2 (0 : Fin 1) k) := fun k =>
    broadcastTo_apply (s := S1x128) (t := S5000x128) x2 broadcasts_S1x128_S5000x128 (ix2 p k) (ix2 (0 : Fin 1) k)
      (fun a => by match a with | ⟨0, _⟩ => rfl | ⟨1, _⟩ => rfl)
  unfold k2_pay1
  simp only [shapeCast_self]
  refine congrArg₂ (· * ·) ?_ hd'
  refine (Cert.PlainDot.matmul_zero_apply (M := 5000) (K := 128) (N := 128) none _ _ p q).trans ?_
  refine Finset.sum_congr rfl fun k _ => congrArg (· * _) ?_
  show lrelu (x0 (ix2 p k) * broadcastTo S5000x128 x1 broadcasts_S5000x1_S5000x128 (ix2 p k)
    + broadcastTo S5000x128 x2 broadcasts_S1x128_S5000x128 (ix2 p k)) = _
  rw [hd k, hb k]

/-- The printed index maps over the grid: the row windows move together, one block per point; the bias and weight windows stay. -/
theorem idx_facts : ∀ t : Fin cfg2.N, win2_0.index t (0 : Fin 2) = win2_4.index t (0 : Fin 2)
    ∧ win2_0.index t (1 : Fin 2) = 0
    ∧ win2_1.index t (0 : Fin 2) = win2_4.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (1 : Fin 2) = 0 ∧ win2_4.index t (0 : Fin 2) ≤ 9 :=
  (by decide +kernel : ∀ t : Fin grid2.N, _)

theorem idx_onto : ∀ q0 : Fin 10, ∃ t : Fin cfg2.N, win2_4.index t = ![q0.val, 0] :=
  (by decide +kernel : ∀ q0 : Fin 10, ∃ t : Fin grid2.N, win2_4.index t = ![q0.val, 0])

/-- The array row that row `p` of point `t`'s block is. -/
def row (t : Fin cfg2.N) (p : Fin 5000) : Fin 50000 :=
  ⟨win2_4.index t (0 : Fin 2) * 5000 + p.val, by have := (idx_facts t).2.2.2.2.2.2.2.2.2; have := p.isLt; omega⟩

theorem read_a (c : Dev nD) (t : Fin cfg2.N) (p : Fin 5000) (k : Fin 128) :
    iblk2 V c 0 t (ix2 p k) = V c main_v40 (ix2 (row t p) k) := by
  show V c main_v40 (((cfg2.win 0).blk t).view.emb (ix2 p k)) = V c main_v40 (ix2 (row t p) k)
  refine congrArg (V c main_v40) (funext fun a => Fin.ext ?_)
  obtain ⟨e0, e1, -⟩ := idx_facts t
  match a with
  | ⟨0, _⟩ => show win2_0.index t (0 : Fin 2) * 5000 + 1 * p.val = win2_4.index t (0 : Fin 2) * 5000 + p.val; omega
  | ⟨1, _⟩ => show win2_0.index t (1 : Fin 2) * 128 + 1 * k.val = k.val; omega

theorem read_d (c : Dev nD) (t : Fin cfg2.N) (p : Fin 5000) :
    iblk2 V c 1 t (ix2 p (0 : Fin 1)) = V c main_v17 (ix2 (row t p) (0 : Fin 1)) := by
  show V c main_v17 (((cfg2.win 1).blk t).view.emb (ix2 p (0 : Fin 1))) = V c main_v17 (ix2 (row t p) (0 : Fin 1))
  refine congrArg (V c main_v17) (funext fun a => Fin.ext ?_)
  obtain ⟨-, -, e2, e3, -⟩ := idx_facts t
  match a with
  | ⟨0, _⟩ => show win2_1.index t (0 : Fin 2) * 5000 + 1 * p.val = win2_4.index t (0 : Fin 2) * 5000 + p.val; omega
  | ⟨1, _⟩ => show win2_1.index t (1 : Fin 2) * 1 + 1 * 0 = 0; omega

theorem read_b (c : Dev nD) (t : Fin cfg2.N) (k : Fin 128) :
    iblk2 V c 2 t (ix2 (0 : Fin 1) k) = V c main_v41 (ix2 (0 : Fin 1) k) := by
  show V c main_v41 (((cfg2.win 2).blk t).view.emb (ix2 (0 : Fin 1) k)) = V c main_v41 (ix2 (0 : Fin 1) k)
  refine congrArg (V c main_v41) (funext fun a => Fin.ext ?_)
  obtain ⟨-, -, -, -, e4, e5, -⟩ := idx_facts t
  match a with
  | ⟨0, _⟩ => show win2_2.index t (0 : Fin 2) * 1 + 1 * 0 = 0; omega
  | ⟨1, _⟩ => show win2_2.index t (1 : Fin 2) * 128 + 1 * k.val = k.val; omega

theorem read_w (c : Dev nD) (t : Fin cfg2.N) (k : Fin 128) (q : Fin 128) :
    iblk2 V c 3 t (ix2 k q) = V c main_arg6 (ix2 k q) := by
  show V c main_arg6 (((cfg2.win 3).blk t).view.emb (ix2 k q)) = V c main_arg6 (ix2 k q)
  refine congrArg (V c main_arg6) (funext fun a => Fin.ext ?_)
  obtain ⟨-, -, -, -, -, -, e6, e7, -⟩ := idx_facts t
  match a with
  | ⟨0, _⟩ => show win2_3.index t (0 : Fin 2) * 128 + 1 * k.val = k.val; omega
  | ⟨1, _⟩ => show win2_3.index t (1 : Fin 2) * 128 + 1 * q.val = q.val; omega

theorem emb_out (t : Fin cfg2.N) (p : Fin 5000) (q : Fin 128) :
    ((cfg2.win 4).blk t).view.emb (ix2 p q) = ix2 (row t p) q := by
  refine funext fun a => Fin.ext ?_
  obtain ⟨-, -, -, -, -, -, -, -, e8, -⟩ := idx_facts t
  match a with
  | ⟨0, _⟩ => show win2_4.index t (0 : Fin 2) * 5000 + 1 * p.val = win2_4.index t (0 : Fin 2) * 5000 + p.val; omega
  | ⟨1, _⟩ => show win2_4.index t (1 : Fin 2) * 128 + 1 * q.val = q.val; omega

/-- What point `t` writes back is block `t` of `G` of the arrays as the region finds them. -/
theorem flushed_eq (c : Dev nD) (t : Fin cfg2.N) :
    (dat2 V c).flushed 4 t
      = ((cfg2.win 4).blk t).view.read (Elt Ideal) (G (V c main_v40) (V c main_v17) (V c main_v41) (V c main_arg6)) := by
  show (cfg2.win 4).cut (grid2.coords t) ((dat2 V c).after 4 t) = _
  rw [after2_4]
  unfold out2_4
  rw [View.canon_unit_zero hz]
  simp only [View.ld_unit_zero (S := S5000x128) hz, View.ld_unit_zero (S := S128x128) hz, View.ld_unit_zero (S := S5000x1) hz,
    View.ld_unit_zero (S := S1x128) hz]
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (iblk2 V c 3 t) (iblk2 V c 1 t) (ix2 p q)
    = G (V c main_v40) (V c main_v17) (V c main_v41) (V c main_arg6) (((cfg2.win 4).blk t).view.emb (ix2 p q))
  rw [emb_out t p q, G_apply]
  refine (pay_apply (iblk2 V c 0 t) (iblk2 V c 1 t) (iblk2 V c 2 t) (iblk2 V c 3 t) p q).trans ?_
  rw [read_d V c t p]
  refine congrArg (· * _) (Finset.sum_congr rfl fun k _ => ?_)
  rw [read_a V c t p k, read_b V c t k, read_w V c t k q]

theorem mem_blk (t : Fin cfg2.N) (i : S50000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v42).slice (win2_4.rect t)).set ↔ _
  rw [View.set_slice_whole, Rect.mem_set_unit]
  exact Iff.rfl

theorem cover (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  obtain ⟨t, ht⟩ := idx_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- The result array after the region. -/
theorem final (c : Dev nD) :
    (dat2 V c).arrAt 4 cfg2.N = G (V c main_v40) (V c main_v17) (V c main_v41) (V c main_arg6) :=
  (dat2 V c).arrAt_eq_of_cover 4 (G (V c main_v40) (V c main_v17) (V c main_v41) (V c main_arg6)) (fun t _ => flushed_eq V c t) cover

end Cert.KernelIdeal.R2

end
-- ==== Proof.Region3.lean ====
/-
  What pallas_call 3 leaves in its result array, as one function of the arrays it is entered with: with
  `v[r,k] = lrelu(a[r,k] · d[r,0] + b[0,k])` (the aggregated messages scaled by the node's factor, the bias added, the leaky
  rectifier), row `r`, column `c` of the result is `(Σ_k v[r,k] · w[k,c]) · d[r,0]`. Point `t` of the grid writes rows
  `5000·t … 5000·t + 4999`; the ten points cover the array.
-/
import proofs.«137646_j56495999811606_2_alg».proof.Proof.Gen.KernelIdeal.Frame
import proofs.«137646_j56495999811606_2_alg».proof.Proof.LibPlainDot
import proofs.«137646_j56495999811606_2_alg».proof.Proof.Spec
import Idealize.ShloMosaic.Lib.ValueIdx
import Idealize.ShloMosaic.Lib.Pipeline.Value

set_option maxRecDepth 16384

noncomputable section

open scoped BigOperators

namespace Cert.KernelIdeal.R3

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The result array as a function of the four arrays the region reads. -/
def G (a : S50000x128.Idx → Elt Ideal .f32) (d : S50000x1.Idx → Elt Ideal .f32) (b : S1x128.Idx → Elt Ideal .f32)
    (w : S128x64.Idx → Elt Ideal .f32) : S50000x64.Idx → Elt Ideal .f32 :=
  fun i => (∑ k : Fin 128, lrelu (a (ix2 (⟨(i 0).val, idx2_lt0 i⟩ : Fin 50000) k) * d (ix2 (⟨(i 0).val, idx2_lt0 i⟩ : Fin 50000) (0 : Fin 1))
        + b (ix2 (0 : Fin 1) k)) * w (ix2 k (⟨(i 1).val, idx2_lt1 i⟩ : Fin 64)))
    * d (ix2 (⟨(i 0).val, idx2_lt0 i⟩ : Fin 50000) (0 : Fin 1))

theorem G_apply (a : S50000x128.Idx → Elt Ideal .f32) (d : S50000x1.Idx → Elt Ideal .f32) (b : S1x128.Idx → Elt Ideal .f32)
    (w : S128x64.Idx → Elt Ideal .f32) (r : Fin 50000) (q : Fin 64) :
    G a d b w (ix2 r q) = (∑ k : Fin 128, lrelu (a (ix2 r k) * d (ix2 r (0 : Fin 1)) + b (ix2 (0 : Fin 1) k)) * w (ix2 k q))
      * d (ix2 r (0 : Fin 1)) := rfl

/-- The body's stored value at row `p`, column `q` of the block. -/
theorem pay_apply (x0 : Vec Ideal S5000x128 .f32) (x1 : Vec Ideal S5000x1 .f32) (x2 : Vec Ideal S1x128 .f32)
    (x3 : Vec Ideal S128x64 .f32) (p : Fin 5000) (q : Fin 64) :
    k3_pay1 x0 x1 x2 x3 x1 (ix2 p q)
      = (∑ k : Fin 128, lrelu (x0 (ix2 p k) * x1 (ix2 p (0 : Fin 1)) + x2 (ix2 (0 : Fin 1) k)) * x3 (ix2 k q))
        * x1 (ix2 p (0 : Fin 1)) := by
  have hd : ∀ k : Fin 128, broadcastTo S5000x128 x1 broadcasts_S5000x1_S5000x128 (ix2 p k) = x1 (ix2 p (0 : Fin 1)) := fun k =>
    broadcastTo_apply (s := S5000x1) (t := S5000x128) x1 broadcasts_S5000x1_S5000x128 (ix2 p k) (ix2 p (0 : Fin 1))
      (fun a => by match a with | ⟨0, _⟩ => rfl | ⟨1, _⟩ => rfl)
  have hd' : broadcastTo S5000x64 x1 broadcasts_S5000x1_S5000x64 (ix2 p q) = x1 (ix2 p (0 : Fin 1)) :=
    broadcastTo_apply (s := S5000x1) (t := S5000x64) x1 broadcasts_S5000x1_S5000x64 (ix2 p q) (ix2 p (0 : Fin 1))
      (fun a => by match a with | ⟨0, _⟩ => rfl | ⟨1, _⟩ => rfl)
  have hb : ∀ k : Fin 128, broadcastTo S5000x128 x2 broadcasts_S1x128_S5000x128 (ix2 p k) = x2 (ix2 (0 : Fin 1) k) := fun k =>
    broadcastTo_apply (s := S1x128) (t := S5000x128) x2 broadcasts_S1x128_S5000x128 (ix2 p k) (ix2 (0 : Fin 1) k)
      (fun a => by match a with | ⟨0, _⟩ => rfl | ⟨1, _⟩ => rfl)
  unfold k3_pay1
  simp only [shapeCast_self]
  refine congrArg₂ (· * ·) ?_ hd'
  refine (Cert.PlainDot.matmul_zero_apply (M := 5000) (K := 128) (N := 64) none _ _ p q).trans ?_
  refine Finset.sum_congr rfl fun k _ => congrArg (· * _) ?_
  show lrelu (x0 (ix2 p k) * broadcastTo S5000x128 x1 broadcasts_S5000x1_S5000x128 (ix2 p k)
    + broadcastTo S5000x128 x2 broadcasts_S1x128_S5000x128 (ix2 p k)) = _
  rw [hd k, hb k]

/-- The printed index maps over the grid: the row windows move together, one block per point; the bias and weight windows stay. -/
theorem idx_facts : ∀ t : Fin cfg3.N, win3_0.index t (0 : Fin 2) = win3_4.index t (0 : Fin 2)
    ∧ win3_0.index t (1 : Fin 2) = 0
    ∧ win3_1.index t (0 : Fin 2) = win3_4.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (1 : Fin 2) = 0 ∧ win3_4.index t (0 : Fin 2) ≤ 9 :=
  (by decide +kernel : ∀ t : Fin grid3.N, _)

theorem idx_onto : ∀ q0 : Fin 10, ∃ t : Fin cfg3.N, win3_4.index t = ![q0.val, 0] :=
  (by decide +kernel : ∀ q0 : Fin 10, ∃ t : Fin grid3.N, win3_4.index t = ![q0.val, 0])

/-- The array row that row `p` of point `t`'s block is. -/
def row (t : Fin cfg3.N) (p : Fin 5000) : Fin 50000 :=
  ⟨win3_4.index t (0 : Fin 2) * 5000 + p.val, by have := (idx_facts t).2.2.2.2.2.2.2.2.2; have := p.isLt; omega⟩

theorem read_a (c : Dev nD) (t : Fin cfg3.N) (p : Fin 5000) (k : Fin 128) :
    iblk3 V c 0 t (ix2 p k) = V c main_v52 (ix2 (row t p) k) := by
  show V c main_v52 (((cfg3.win 0).blk t).view.emb (ix2 p k)) = V c main_v52 (ix2 (row t p) k)
  refine congrArg (V c main_v52) (funext fun a => Fin.ext ?_)
  obtain ⟨e0, e1, -⟩ := idx_facts t
  match a with
  | ⟨0, _⟩ => show win3_0.index t (0 : Fin 2) * 5000 + 1 * p.val = win3_4.index t (0 : Fin 2) * 5000 + p.val; omega
  | ⟨1, _⟩ => show win3_0.index t (1 : Fin 2) * 128 + 1 * k.val = k.val; omega

theorem read_d (c : Dev nD) (t : Fin cfg3.N) (p : Fin 5000) :
    iblk3 V c 1 t (ix2 p (0 : Fin 1)) = V c main_v17 (ix2 (row t p) (0 : Fin 1)) := by
  show V c main_v17 (((cfg3.win 1).blk t).view.emb (ix2 p (0 : Fin 1))) = V c main_v17 (ix2 (row t p) (0 : Fin 1))
  refine congrArg (V c main_v17) (funext fun a => Fin.ext ?_)
  obtain ⟨-, -, e2, e3, -⟩ := idx_facts t
  match a with
  | ⟨0, _⟩ => show win3_1.index t (0 : Fin 2) * 5000 + 1 * p.val = win3_4.index t (0 : Fin 2) * 5000 + p.val; omega
  | ⟨1, _⟩ => show win3_1.index t (1 : Fin 2) * 1 + 1 * 0 = 0; omega

theorem read_b (c : Dev nD) (t : Fin cfg3.N) (k : Fin 128) :
    iblk3 V c 2 t (ix2 (0 : Fin 1) k) = V c main_v53 (ix2 (0 : Fin 1) k) := by
  show V c main_v53 (((cfg3.win 2).blk t).view.emb (ix2 (0 : Fin 1) k)) = V c main_v53 (ix2 (0 : Fin 1) k)
  refine congrArg (V c main_v53) (funext fun a => Fin.ext ?_)
  obtain ⟨-, -, -, -, e4, e5, -⟩ := idx_facts t
  match a with
  | ⟨0, _⟩ => show win3_2.index t (0 : Fin 2) * 1 + 1 * 0 = 0; omega
  | ⟨1, _⟩ => show win3_2.index t (1 : Fin 2) * 128 + 1 * k.val = k.val; omega

theorem read_w (c : Dev nD) (t : Fin cfg3.N) (k : Fin 128) (q : Fin 64) :
    iblk3 V c 3 t (ix2 k q) = V c main_arg8 (ix2 k q) := by
  show V c main_arg8 (((cfg3.win 3).blk t).view.emb (ix2 k q)) = V c main_arg8 (ix2 k q)
  refine congrArg (V c main_arg8) (funext fun a => Fin.ext ?_)
  obtain ⟨-, -, -, -, -, -, e6, e7, -⟩ := idx_facts t
  match a with
  | ⟨0, _⟩ => show win3_3.index t (0 : Fin 2) * 128 + 1 * k.val = k.val; omega
  | ⟨1, _⟩ => show win3_3.index t (1 : Fin 2) * 64 + 1 * q.val = q.val; omega

theorem emb_out (t : Fin cfg3.N) (p : Fin 5000) (q : Fin 64) :
    ((cfg3.win 4).blk t).view.emb (ix2 p q) = ix2 (row t p) q := by
  refine funext fun a => Fin.ext ?_
  obtain ⟨-, -, -, -, -, -, -, -, e8, -⟩ := idx_facts t
  match a with
  | ⟨0, _⟩ => show win3_4.index t (0 : Fin 2) * 5000 + 1 * p.val = win3_4.index t (0 : Fin 2) * 5000 + p.val; omega
  | ⟨1, _⟩ => show win3_4.index t (1 : Fin 2) * 64 + 1 * q.val = q.val; omega

/-- What point `t` writes back is block `t` of `G` of the arrays as the region finds them. -/
theorem flushed_eq (c : Dev nD) (t : Fin cfg3.N) :
    (dat3 V c).flushed 4 t
      = ((cfg3.win 4).blk t).view.read (Elt Ideal) (G (V c main_v52) (V c main_v17) (V c main_v53) (V c main_arg8)) := by
  show (cfg3.win 4).cut (grid3.coords t) ((dat3 V c).after 4 t) = _
  rw [after3_4]
  unfold out3_4
  rw [View.canon_unit_zero hz]
  simp only [View.ld_unit_zero (S := S5000x128) hz, View.ld_unit_zero (S := S128x64) hz, View.ld_unit_zero (S := S5000x1) hz,
    View.ld_unit_zero (S := S1x128) hz]
  funext j
  obtain ⟨p, q, rfl⟩ : ∃ (p : Fin 5000) (q : Fin 64), j = ix2 p q := ⟨j 0, j 1, eq_ix2 j⟩
  show k3_pay1 (iblk3 V c 0 t) (iblk3 V c 1 t) (iblk3 V c 2 t) (iblk3 V c 3 t) (iblk3 V c 1 t) (ix2 p q)
    = G (V c main_v52) (V c main_v17) (V c main_v53) (V c main_arg8) (((cfg3.win 4).blk t).view.emb (ix2 p q))
  rw [emb_out t p q, G_apply]
  refine (pay_apply (iblk3 V c 0 t) (iblk3 V c 1 t) (iblk3 V c 2 t) (iblk3 V c 3 t) p q).trans ?_
  rw [read_d V c t p]
  refine congrArg (· * _) (Finset.sum_congr rfl fun k _ => ?_)
  rw [read_a V c t p k, read_b V c t k, read_w V c t k q]

theorem mem_blk (t : Fin cfg3.N) (i : S50000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v54).slice (win3_4.rect t)).set ↔ _
  rw [View.set_slice_whole, Rect.mem_set_unit]
  exact Iff.rfl

theorem cover (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  obtain ⟨t, ht⟩ := idx_onto ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 64 ≤ (i 1).val ∧ (i 1).val < win3_4.index t (1 : Fin 2) * 64 + 64; omega

/-- The result array after the region. -/
theorem final (c : Dev nD) :
    (dat3 V c).arrAt 4 cfg3.N = G (V c main_v52) (V c main_v17) (V c main_v53) (V c main_arg8) :=
  (dat3 V c).arrAt_eq_of_cover 4 (G (V c main_v52) (V c main_v17) (V c main_v53) (V c main_arg8)) (fun t _ => flushed_eq V c t) cover

end Cert.KernelIdeal.R3

end
-- ==== Proof.Region4.lean ====
/-
  What the last pallas_call leaves in its result array, as one function of the arrays it is entered with: row `r`,
  column `c` of the result is `a[r,c] · d[r,0] + b[0,c]` — the aggregated messages scaled by the node's factor, the bias
  added. Point `t` of the grid writes rows `5000·t … 5000·t + 4999`; the ten points cover the array.
-/
import proofs.«137646_j56495999811606_2_alg».proof.Proof.Gen.KernelIdeal.Frame
import Idealize.ShloMosaic.Lib.ValueIdx
import Idealize.ShloMosaic.Lib.Pipeline.Value

set_option maxRecDepth 16384

noncomputable section

open scoped BigOperators

namespace Cert.KernelIdeal.R4

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The result array as a function of the three arrays the region reads. -/
def G (a : S50000x64.Idx → Elt Ideal .f32) (d : S50000x1.Idx → Elt Ideal .f32) (b : S1x64.Idx → Elt Ideal .f32) :
    S50000x64.Idx → Elt Ideal .f32 :=
  fun i => a (ix2 (⟨(i 0).val, idx2_lt0 i⟩ : Fin 50000) (⟨(i 1).val, idx2_lt1 i⟩ : Fin 64))
      * d (ix2 (⟨(i 0).val, idx2_lt0 i⟩ : Fin 50000) (0 : Fin 1))
    + b (ix2 (0 : Fin 1) (⟨(i 1).val, idx2_lt1 i⟩ : Fin 64))

theorem G_apply (a : S50000x64.Idx → Elt Ideal .f32) (d : S50000x1.Idx → Elt Ideal .f32) (b : S1x64.Idx → Elt Ideal .f32)
    (r : Fin 50000) (q : Fin 64) :
    G a d b (ix2 r q) = a (ix2 r q) * d (ix2 r (0 : Fin 1)) + b (ix2 (0 : Fin 1) q) := rfl

/-- The body's stored value at row `p`, column `q` of the block. -/
theorem pay_apply (x0 : Vec Ideal S5000x64 .f32) (x1 : Vec Ideal S5000x1 .f32) (x2 : Vec Ideal S1x64 .f32)
    (p : Fin 5000) (q : Fin 64) :
    k4_pay1 x0 x1 x2 (ix2 p q) = x0 (ix2 p q) * x1 (ix2 p (0 : Fin 1)) + x2 (ix2 (0 : Fin 1) q) := by
  have hd : broadcastTo S5000x64 x1 broadcasts_S5000x1_S5000x64 (ix2 p q) = x1 (ix2 p (0 : Fin 1)) :=
    broadcastTo_apply (s := S5000x1) (t := S5000x64) x1 broadcasts_S5000x1_S5000x64 (ix2 p q) (ix2 p (0 : Fin 1))
      (fun a => by match a with | ⟨0, _⟩ => rfl | ⟨1, _⟩ => rfl)
  have hb : broadcastTo S5000x64 x2 broadcasts_S1x64_S5000x64 (ix2 p q) = x2 (ix2 (0 : Fin 1) q) :=
    broadcastTo_apply (s := S1x64) (t := S5000x64) x2 broadcasts_S1x64_S5000x64 (ix2 p q) (ix2 (0 : Fin 1) q)
      (fun a => by match a with | ⟨0, _⟩ => rfl | ⟨1, _⟩ => rfl)
  unfold k4_pay1
  simp only [shapeCast_self]
  show x0 (ix2 p q) * broadcastTo S5000x64 x1 broadcasts_S5000x1_S5000x64 (ix2 p q)
    + broadcastTo S5000x64 x2 broadcasts_S1x64_S5000x64 (ix2 p q) = _
  rw [hd, hb]

theorem idx_facts : ∀ t : Fin cfg4.N, win4_0.index t (0 : Fin 2) = win4_3.index t (0 : Fin 2)
    ∧ win4_0.index t (1 : Fin 2) = 0
    ∧ win4_1.index t (0 : Fin 2) = win4_3.index t (0 : Fin 2) ∧ win4_1.index t (1 : Fin 2) = 0
    ∧ win4_2.index t (0 : Fin 2) = 0 ∧ win4_2.index t (1 : Fin 2) = 0
    ∧ win4_3.index t (1 : Fin 2) = 0 ∧ win4_3.index t (0 : Fin 2) ≤ 9 :=
  (by decide +kernel : ∀ t : Fin grid4.N, _)

theorem idx_onto : ∀ q0 : Fin 10, ∃ t : Fin cfg4.N, win4_3.index t = ![q0.val, 0] :=
  (by decide +kernel : ∀ q0 : Fin 10, ∃ t : Fin grid4.N, win4_3.index t = ![q0.val, 0])

def row (t : Fin cfg4.N) (p : Fin 5000) : Fin 50000 :=
  ⟨win4_3.index t (0 : Fin 2) * 5000 + p.val, by have := (idx_facts t).2.2.2.2.2.2.2; have := p.isLt; omega⟩

theorem read_a (c : Dev nD) (t : Fin cfg4.N) (p : Fin 5000) (q : Fin 64) :
    iblk4 V c 0 t (ix2 p q) = V c main_v64 (ix2 (row t p) q) := by
  show V c main_v64 (((cfg4.win 0).blk t).view.emb (ix2 p q)) = V c main_v64 (ix2 (row t p) q)
  refine congrArg (V c main_v64) (funext fun a => Fin.ext ?_)
  obtain ⟨e0, e1, -⟩ := idx_facts t
  match a with
  | ⟨0, _⟩ => show win4_0.index t (0 : Fin 2) * 5000 + 1 * p.val = win4_3.index t (0 : Fin 2) * 5000 + p.val; omega
  | ⟨1, _⟩ => show win4_0.index t (1 : Fin 2) * 64 + 1 * q.val = q.val; omega

theorem read_d (c : Dev nD) (t : Fin cfg4.N) (p : Fin 5000) :
    iblk4 V c 1 t (ix2 p (0 : Fin 1)) = V c main_v17 (ix2 (row t p) (0 : Fin 1)) := by
  show V c main_v17 (((cfg4.win 1).blk t).view.emb (ix2 p (0 : Fin 1))) = V c main_v17 (ix2 (row t p) (0 : Fin 1))
  refine congrArg (V c main_v17) (funext fun a => Fin.ext ?_)
  obtain ⟨-, -, e2, e3, -⟩ := idx_facts t
  match a with
  | ⟨0, _⟩ => show win4_1.index t (0 : Fin 2) * 5000 + 1 * p.val = win4_3.index t (0 : Fin 2) * 5000 + p.val; omega
  | ⟨1, _⟩ => show win4_1.index t (1 : Fin 2) * 1 + 1 * 0 = 0; omega

theorem read_b (c : Dev nD) (t : Fin cfg4.N) (q : Fin 64) :
    iblk4 V c 2 t (ix2 (0 : Fin 1) q) = V c main_v65 (ix2 (0 : Fin 1) q) := by
  show V c main_v65 (((cfg4.win 2).blk t).view.emb (ix2 (0 : Fin 1) q)) = V c main_v65 (ix2 (0 : Fin 1) q)
  refine congrArg (V c main_v65) (funext fun a => Fin.ext ?_)
  obtain ⟨-, -, -, -, e4, e5, -⟩ := idx_facts t
  match a with
  | ⟨0, _⟩ => show win4_2.index t (0 : Fin 2) * 1 + 1 * 0 = 0; omega
  | ⟨1, _⟩ => show win4_2.index t (1 : Fin 2) * 64 + 1 * q.val = q.val; omega

theorem emb_out (t : Fin cfg4.N) (p : Fin 5000) (q : Fin 64) :
    ((cfg4.win 3).blk t).view.emb (ix2 p q) = ix2 (row t p) q := by
  refine funext fun a => Fin.ext ?_
  obtain ⟨-, -, -, -, -, -, e6, -⟩ := idx_facts t
  match a with
  | ⟨0, _⟩ => show win4_3.index t (0 : Fin 2) * 5000 + 1 * p.val = win4_3.index t (0 : Fin 2) * 5000 + p.val; omega
  | ⟨1, _⟩ => show win4_3.index t (1 : Fin 2) * 64 + 1 * q.val = q.val; omega

theorem flushed_eq (c : Dev nD) (t : Fin cfg4.N) :
    (dat4 V c).flushed 3 t
      = ((cfg4.win 3).blk t).view.read (Elt Ideal) (G (V c main_v64) (V c main_v17) (V c main_v65)) := by
  show (cfg4.win 3).cut (grid4.coords t) ((dat4 V c).after 3 t) = _
  rw [after4_3]
  unfold out4_3
  rw [View.canon_unit_zero hz]
  simp only [View.ld_unit_zero (S := S5000x64) hz, View.ld_unit_zero (S := S5000x1) hz, View.ld_unit_zero (S := S1x64) hz]
  funext j
  obtain ⟨p, q, rfl⟩ : ∃ (p : Fin 5000) (q : Fin 64), j = ix2 p q := ⟨j 0, j 1, eq_ix2 j⟩
  show k4_pay1 (iblk4 V c 0 t) (iblk4 V c 1 t) (iblk4 V c 2 t) (ix2 p q)
    = G (V c main_v64) (V c main_v17) (V c main_v65) (((cfg4.win 3).blk t).view.emb (ix2 p q))
  rw [emb_out t p q, G_apply]
  refine (pay_apply (iblk4 V c 0 t) (iblk4 V c 1 t) (iblk4 V c 2 t) p q).trans ?_
  rw [read_a V c t p q, read_d V c t p, read_b V c t q]

theorem mem_blk (t : Fin cfg4.N) (i : S50000x64.Idx) :
    i ∈ ((cfg4.win 3).blk t).view.set ↔ ∀ a : Fin 2, win4_3.index t a * S5000x64.size a ≤ (i a).val
      ∧ (i a).val < win4_3.index t a * S5000x64.size a + S5000x64.size a := by
  show i ∈ ((View.whole main_v66).slice (win4_3.rect t)).set ↔ _
  rw [View.set_slice_whole, Rect.mem_set_unit]
  exact Iff.rfl

theorem cover (i : S50000x64.Idx) :
    ∃ t : Fin cfg4.N, (cfg4.win 3).flush t = true ∧ i ∈ ((cfg4.win 3).blk t).view.set := by
  have hi0 : (i 0).val < 50000 := (i 0).isLt
  have hi1 : (i 1).val < 64 := (i 1).isLt
  obtain ⟨t, ht⟩ := idx_onto ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 64 ≤ (i 1).val ∧ (i 1).val < win4_3.index t (1 : Fin 2) * 64 + 64; omega

/-- The result array after the region. -/
theorem final (c : Dev nD) :
    (dat4 V c).arrAt 3 cfg4.N = G (V c main_v64) (V c main_v17) (V c main_v65) :=
  (dat4 V c).arrAt_eq_of_cover 3 (G (V c main_v64) (V c main_v17) (V c main_v65)) (fun t _ => flushed_eq V c t) cover

end Cert.KernelIdeal.R4

end
-- ==== Proof.KernelFold.lean ====
/-
  The idealized kernel's result buffer at the last boundary, read back through @main's thirteen segments: the five
  regions' result arrays by their whole-array functions (Proof/Region0 … Region4), the host stretches between them by
  their operations, the edge lists, the degree factor and the arguments carried through unchanged.

  With `src`, `dst` the edge lists and `d` the degree factor as a column (what the host prefix leaves), and
  `agg h = zeros.at[dst].add(h[src])`:
      H0 = R0.G x W1 d,  H1 = R1.G (agg H0) d b1 W,  H2 = R2.G (agg H1) d b W,  H3 = R3.G (agg H2) d b W2,
      Z = R4.G (agg H3) d b2,  result = Σ_c Z[e0, c] · Z[e1, c].
-/
import proofs.«137646_j56495999811606_2_alg».proof.Proof.Region0
import proofs.«137646_j56495999811606_2_alg».proof.Proof.Region1
import proofs.«137646_j56495999811606_2_alg».proof.Proof.Region2
import proofs.«137646_j56495999811606_2_alg».proof.Proof.Region3
import proofs.«137646_j56495999811606_2_alg».proof.Proof.Region4
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.StableHlo
open Idealize.SL Idealize.SL.Sem

/-! ## The host stretches' operations as functions -/

/-- A gather index column from an index list: negative entries wrapped by the array length, then one column. -/
def wrapCol (i : IVec S850000 32) : IVec S850000x1 32 :=
  broadcastInDim S850000x1 ![0] bcast_S850000_S850000x1_0
    (select (cmpi .slt i (broadcastInDim S850000 ![] bcast_S_S850000 (constantI S_ 32 0#32)))
      (addi i (broadcastInDim S850000 ![] bcast_S_S850000 (constantI S_ 32 50000#32))) i)

def wrapColL (i : IVec S400000 32) : IVec S400000x1 32 :=
  broadcastInDim S400000x1 ![0] bcast_S400000_S400000x1_0
    (select (cmpi .slt i (broadcastInDim S400000 ![] bcast_S_S400000 (constantI S_ 32 0#32)))
      (addi i (broadcastInDim S400000 ![] bcast_S_S400000 (constantI S_ 32 50000#32))) i)

/-- `zeros.at[dst].add(h[src])` over 128 columns. -/
def agg (h : FVec Ideal S50000x128 .f32) (src dst : IVec S850000 32) : FVec Ideal S50000x128 .f32 :=
  Host.scatterAdd scatter_S50000x128_S850000x1_S850000x128_1_0_0_1
    (broadcastInDim S50000x128 ![] bcast_S_S50000x128 (constant (F := Ideal) S_ .f32 0x00000000#32))
    (broadcastInDim S850000x1 ![0] bcast_S850000_S850000x1_0 dst)
    (Host.gather gather_S50000x128_S850000x1_S850000x128_1_0_n_n_0_1_1128 h (wrapCol src))

/-- The same over 64 columns. -/
def agg64 (h : FVec Ideal S50000x64 .f32) (src dst : IVec S850000 32) : FVec Ideal S50000x64 .f32 :=
  Host.scatterAdd scatter_S50000x64_S850000x1_S850000x64_1_0_0_1
    (broadcastInDim S50000x64 ![] bcast_S_S50000x64 (constant (F := Ideal) S_ .f32 0x00000000#32))
    (broadcastInDim S850000x1 ![0] bcast_S850000_S850000x1_0 dst)
    (Host.gather gather_S50000x64_S850000x1_S850000x64_1_0_n_n_0_1_164 h (wrapCol src))

/-- A bias as one row. -/
def row128 (b : FVec Ideal S128 .f32) : FVec Ideal S1x128 .f32 := shapeCast S1x128 b shapeCasts_S128_S1x128
def row64 (b : FVec Ideal S64 .f32) : FVec Ideal S1x64 .f32 := shapeCast S1x64 b shapeCasts_S64_S1x64

/-- The decoder's two index lists: row 0 (row 1) of the positive edges followed by row 0 (row 1) of the negative ones. -/
def e0 (a2 a3 : IVec S2x200000 32) : IVec S400000 32 :=
  concatenate S400000 0 [⟨S200000, shapeCast S200000 (extractStridedSlice S1x200000 ![0, 0] a2 slices_S2x200000_S1x200000_0_0) shapeCasts_S1x200000_S200000⟩,
    ⟨S200000, shapeCast S200000 (extractStridedSlice S1x200000 ![0, 0] a3 slices_S2x200000_S1x200000_0_0) shapeCasts_S1x200000_S200000⟩]
    concatenates_S200000_S200000_S400000_d0
def e1 (a2 a3 : IVec S2x200000 32) : IVec S400000 32 :=
  concatenate S400000 0 [⟨S200000, shapeCast S200000 (extractStridedSlice S1x200000 ![1, 0] a2 slices_S2x200000_S1x200000_1_0) shapeCasts_S1x200000_S200000⟩,
    ⟨S200000, shapeCast S200000 (extractStridedSlice S1x200000 ![1, 0] a3 slices_S2x200000_S1x200000_1_0) shapeCasts_S1x200000_S200000⟩]
    concatenates_S200000_S200000_S400000_d0

/-- The decoder: `Σ_c z[i0, c] · z[i1, c]`. -/
def dec (z : FVec Ideal S50000x64 .f32) (i0 i1 : IVec S400000 32) : FVec Ideal S400000 .f32 :=
  Host.reduceAdd (mulf (Host.gather gather_S50000x64_S400000x1_S400000x64_1_0_n_n_0_1_164 z (wrapColL i0))
      (Host.gather gather_S50000x64_S400000x1_S400000x64_1_0_n_n_0_1_164 z (wrapColL i1)))
    (constant (F := Ideal) S_ .f32 0x00000000#32) reducesTo_S400000x64_S400000_d1 h_S_

/-! ## Each stretch's results, from any contents `W` -/

attribute [local irreducible] Host.gather Host.scatterAdd Host.reduceAdd

variable (W : Valuation τ sig (Elt Ideal))

theorem h1_v28 : after hostOps1 W (Proc.devRef .tc main_v28)
    = agg (W (Proc.devRef .tc main_v18)) (W (Proc.devRef .tc main_v3)) (W (Proc.devRef .tc main_v6)) := by
  unfold agg wrapCol; simp only [hostOps1]; after_results_simp
theorem h1_v29 : after hostOps1 W (Proc.devRef .tc main_v29) = row128 (W (Proc.devRef .tc main_arg5)) := by
  unfold row128; simp only [hostOps1]; after_results_simp; rfl
theorem h2_v40 : after hostOps2 W (Proc.devRef .tc main_v40)
    = agg (W (Proc.devRef .tc main_v30)) (W (Proc.devRef .tc main_v3)) (W (Proc.devRef .tc main_v6)) := by
  unfold agg wrapCol; simp only [hostOps2]; after_results_simp
theorem h2_v41 : after hostOps2 W (Proc.devRef .tc main_v41) = row128 (W (Proc.devRef .tc main_arg7)) := by
  unfold row128; simp only [hostOps2]; after_results_simp; rfl
theorem h3_v52 : after hostOps3 W (Proc.devRef .tc main_v52)
    = agg (W (Proc.devRef .tc main_v42)) (W (Proc.devRef .tc main_v3)) (W (Proc.devRef .tc main_v6)) := by
  unfold agg wrapCol; simp only [hostOps3]; after_results_simp
theorem h3_v53 : after hostOps3 W (Proc.devRef .tc main_v53) = row128 (W (Proc.devRef .tc main_arg7)) := by
  unfold row128; simp only [hostOps3]; after_results_simp; rfl
theorem h4_v64 : after hostOps4 W (Proc.devRef .tc main_v64)
    = agg64 (W (Proc.devRef .tc main_v54)) (W (Proc.devRef .tc main_v3)) (W (Proc.devRef .tc main_v6)) := by
  unfold agg64 wrapCol; simp only [hostOps4]; after_results_simp
theorem h4_v65 : after hostOps4 W (Proc.devRef .tc main_v65) = row64 (W (Proc.devRef .tc main_arg9)) := by
  unfold row64; simp only [hostOps4]; after_results_simp; rfl
theorem h5_v92 : after hostOps5 W (Proc.devRef .tc main_v92)
    = dec (W (Proc.devRef .tc main_v66)) (e0 (W (Proc.devRef .tc main_arg2)) (W (Proc.devRef .tc main_arg3)))
        (e1 (W (Proc.devRef .tc main_arg2)) (W (Proc.devRef .tc main_arg3))) := by
  unfold dec e0 e1 wrapColL; simp only [hostOps5]; after_results_simp; rfl

/-! ## What is carried through the segments -/

/-- The buffers a later segment still reads after the host prefix: the edge lists, the degree factor, the arguments. -/
abbrev kept : List (Ref sig .tc) := [main_v3, main_v6, main_v17, main_arg2, main_arg3, main_arg5, main_arg6, main_arg7, main_arg8, main_arg9]
/-- The arguments some segment reads. -/
abbrev argsRead : List (Ref sig .tc) := [main_arg0, main_arg2, main_arg3, main_arg4, main_arg5, main_arg6, main_arg7, main_arg8, main_arg9]

/-- Two boundary contents agree on a list of buffers. -/
def Agree (L : List (Ref sig .tc)) (W W' : Valuation τ sig (Elt Ideal)) : Prop :=
  ∀ b ∈ L, W (Proc.devRef .tc b) = W' (Proc.devRef .tc b)

theorem Agree.trans {L : List (Ref sig .tc)} {W₁ W₂ W₃ : Valuation τ sig (Elt Ideal)} (h : Agree L W₁ W₂) (h' : Agree L W₂ W₃) :
    Agree L W₁ W₃ := fun b hb => (h b hb).trans (h' b hb)

/-- A buffer that differs from every buffer a stretch writes keeps its contents. -/
local macro "not_written" ops:ident : tactic => `(tactic| (
  refine after_of_forall_not_mem _ _ (List.forall_iff_forall_mem.mp ?_)
  simp only [$ops:ident, List.Forall, nullary_writes, unary_writes, binary_writes, ternary_writes, reshape_writes, Finset.mem_singleton]
  repeat' apply And.intro
  all_goals exact devRef_ne_of_ne (by decide)))

theorem agree_h1 : Agree kept (after hostOps1 W) W := fun b hb => by
  simp only [kept, List.mem_cons, List.not_mem_nil, or_false] at hb
  rcases hb with rfl | rfl | rfl | rfl | rfl | rfl | rfl | rfl | rfl | rfl <;> not_written hostOps1
theorem agree_h2 : Agree kept (after hostOps2 W) W := fun b hb => by
  simp only [kept, List.mem_cons, List.not_mem_nil, or_false] at hb
  rcases hb with rfl | rfl | rfl | rfl | rfl | rfl | rfl | rfl | rfl | rfl <;> not_written hostOps2
theorem agree_h3 : Agree kept (after hostOps3 W) W := fun b hb => by
  simp only [kept, List.mem_cons, List.not_mem_nil, or_false] at hb
  rcases hb with rfl | rfl | rfl | rfl | rfl | rfl | rfl | rfl | rfl | rfl <;> not_written hostOps3
theorem agree_h4 : Agree kept (after hostOps4 W) W := fun b hb => by
  simp only [kept, List.mem_cons, List.not_mem_nil, or_false] at hb
  rcases hb with rfl | rfl | rfl | rfl | rfl | rfl | rfl | rfl | rfl | rfl <;> not_written hostOps4

theorem agree_h0 : Agree argsRead (after hostOps0 W) W := fun b hb => by
  simp only [argsRead, List.mem_cons, List.not_mem_nil, or_false] at hb
  rcases hb with rfl | rfl | rfl | rfl | rfl | rfl | rfl | rfl | rfl <;> not_written hostOps0
theorem agree_h0_1 : Agree argsRead (after hostOps0_1 W) W := fun b hb => by
  simp only [argsRead, List.mem_cons, List.not_mem_nil, or_false] at hb
  rcases hb with rfl | rfl | rfl | rfl | rfl | rfl | rfl | rfl | rfl <;> not_written hostOps0_1
theorem agree_h0_2 : Agree argsRead (after hostOps0_2 W) W := fun b hb => by
  simp only [argsRead, List.mem_cons, List.not_mem_nil, or_false] at hb
  rcases hb with rfl | rfl | rfl | rfl | rfl | rfl | rfl | rfl | rfl <;> not_written hostOps0_2

variable (m : (ℓ : Loc nD τ sig) → Buf (Elt Ideal) ℓ) (ρ : Dev nD → PrngReg) (c : Dev nD)

theorem agree_r0 : Agree kept (W4 m ρ c) (W3 m ρ c) := fun b hb => by
  simp only [kept, List.mem_cons, List.not_mem_nil, or_false] at hb
  rcases hb with rfl | rfl | rfl | rfl | rfl | rfl | rfl | rfl | rfl | rfl <;> first
    | exact W4_of_ne m ρ c _ (by decide)
    | exact (W4_arr m ρ c 1).trans (((dat0 (V3 m ρ) c).arrAt_in 1 rfl _).trans (A_eq0 (V3 m ρ) c 1))
    | exact (W4_arr m ρ c 2).trans (((dat0 (V3 m ρ) c).arrAt_in 2 rfl _).trans (A_eq0 (V3 m ρ) c 2))
    | exact (W4_arr m ρ c 3).trans (((dat0 (V3 m ρ) c).arrAt_in 3 rfl _).trans (A_eq0 (V3 m ρ) c 3))
theorem agree_r1 : Agree kept (W6 m ρ c) (W5 m ρ c) := fun b hb => by
  simp only [kept, List.mem_cons, List.not_mem_nil, or_false] at hb
  rcases hb with rfl | rfl | rfl | rfl | rfl | rfl | rfl | rfl | rfl | rfl <;> first
    | exact W6_of_ne m ρ c _ (by decide)
    | exact (W6_arr m ρ c 1).trans (((dat1 (V5 m ρ) c).arrAt_in 1 rfl _).trans (A_eq1 (V5 m ρ) c 1))
    | exact (W6_arr m ρ c 2).trans (((dat1 (V5 m ρ) c).arrAt_in 2 rfl _).trans (A_eq1 (V5 m ρ) c 2))
    | exact (W6_arr m ρ c 3).trans (((dat1 (V5 m ρ) c).arrAt_in 3 rfl _).trans (A_eq1 (V5 m ρ) c 3))
theorem agree_r2 : Agree kept (W8 m ρ c) (W7 m ρ c) := fun b hb => by
  simp only [kept, List.mem_cons, List.not_mem_nil, or_false] at hb
  rcases hb with rfl | rfl | rfl | rfl | rfl | rfl | rfl | rfl | rfl | rfl <;> first
    | exact W8_of_ne m ρ c _ (by decide)
    | exact (W8_arr m ρ c 1).trans (((dat2 (V7 m ρ) c).arrAt_in 1 rfl _).trans (A_eq2 (V7 m ρ) c 1))
    | exact (W8_arr m ρ c 2).trans (((dat2 (V7 m ρ) c).arrAt_in 2 rfl _).trans (A_eq2 (V7 m ρ) c 2))
    | exact (W8_arr m ρ c 3).trans (((dat2 (V7 m ρ) c).arrAt_in 3 rfl _).trans (A_eq2 (V7 m ρ) c 3))
theorem agree_r3 : Agree kept (W10 m ρ c) (W9 m ρ c) := fun b hb => by
  simp only [kept, List.mem_cons, List.not_mem_nil, or_false] at hb
  rcases hb with rfl | rfl | rfl | rfl | rfl | rfl | rfl | rfl | rfl | rfl <;> first
    | exact W10_of_ne m ρ c _ (by decide)
    | exact (W10_arr m ρ c 1).trans (((dat3 (V9 m ρ) c).arrAt_in 1 rfl _).trans (A_eq3 (V9 m ρ) c 1))
    | exact (W10_arr m ρ c 2).trans (((dat3 (V9 m ρ) c).arrAt_in 2 rfl _).trans (A_eq3 (V9 m ρ) c 2))
    | exact (W10_arr m ρ c 3).trans (((dat3 (V9 m ρ) c).arrAt_in 3 rfl _).trans (A_eq3 (V9 m ρ) c 3))
theorem agree_r4 : Agree kept (W12 m ρ c) (W11 m ρ c) := fun b hb => by
  simp only [kept, List.mem_cons, List.not_mem_nil, or_false] at hb
  rcases hb with rfl | rfl | rfl | rfl | rfl | rfl | rfl | rfl | rfl | rfl <;> first
    | exact W12_of_ne m ρ c _ (by decide)
    | exact (W12_arr m ρ c 1).trans (((dat4 (V11 m ρ) c).arrAt_in 1 rfl _).trans (A_eq4 (V11 m ρ) c 1))
    | exact (W12_arr m ρ c 2).trans (((dat4 (V11 m ρ) c).arrAt_in 2 rfl _).trans (A_eq4 (V11 m ρ) c 2))
    | exact (W12_arr m ρ c 3).trans (((dat4 (V11 m ρ) c).arrAt_in 3 rfl _).trans (A_eq4 (V11 m ρ) c 3))

/-- The arguments reach the first region as launched. -/
theorem args_W3 : Agree argsRead (W3 m ρ c) (W0 m ρ c) :=
  (agree_h0_2 (W2 m ρ c)).trans ((agree_h0_1 (W1 m ρ c)).trans (agree_h0 (W0 m ρ c)))

theorem a4 : Agree kept (W4 m ρ c) (W3 m ρ c) := agree_r0 m ρ c
theorem a5 : Agree kept (W5 m ρ c) (W3 m ρ c) := (agree_h1 (W4 m ρ c)).trans (a4 m ρ c)
theorem a6 : Agree kept (W6 m ρ c) (W3 m ρ c) := (agree_r1 m ρ c).trans (a5 m ρ c)
theorem a7 : Agree kept (W7 m ρ c) (W3 m ρ c) := (agree_h2 (W6 m ρ c)).trans (a6 m ρ c)
theorem a8 : Agree kept (W8 m ρ c) (W3 m ρ c) := (agree_r2 m ρ c).trans (a7 m ρ c)
theorem a9 : Agree kept (W9 m ρ c) (W3 m ρ c) := (agree_h3 (W8 m ρ c)).trans (a8 m ρ c)
theorem a10 : Agree kept (W10 m ρ c) (W3 m ρ c) := (agree_r3 m ρ c).trans (a9 m ρ c)
theorem a11 : Agree kept (W11 m ρ c) (W3 m ρ c) := (agree_h4 (W10 m ρ c)).trans (a10 m ρ c)
theorem a12 : Agree kept (W12 m ρ c) (W3 m ρ c) := (agree_r4 m ρ c).trans (a11 m ρ c)

/-! ## The result -/

/-- The edge lists and the degree factor as the host prefix leaves them. -/
abbrev srcK : IVec S850000 32 := W3 m ρ c (Proc.devRef .tc main_v3)
abbrev dstK : IVec S850000 32 := W3 m ρ c (Proc.devRef .tc main_v6)
abbrev disK : FVec Ideal S50000x1 .f32 := W3 m ρ c (Proc.devRef .tc main_v17)

/-- The node embeddings the kernel computes. -/
def z : FVec Ideal S50000x64 .f32 :=
  R4.G (agg64 (R3.G (agg (R2.G (agg (R1.G (agg (R0.G (m ((c.tc : Thread nD τ).loc main_arg0)) (m ((c.tc : Thread nD τ).loc main_arg4)) (disK m ρ c))
      (srcK m ρ c) (dstK m ρ c)) (disK m ρ c) (row128 (m ((c.tc : Thread nD τ).loc main_arg5))) (m ((c.tc : Thread nD τ).loc main_arg6)))
      (srcK m ρ c) (dstK m ρ c)) (disK m ρ c) (row128 (m ((c.tc : Thread nD τ).loc main_arg7))) (m ((c.tc : Thread nD τ).loc main_arg6)))
      (srcK m ρ c) (dstK m ρ c)) (disK m ρ c) (row128 (m ((c.tc : Thread nD τ).loc main_arg7))) (m ((c.tc : Thread nD τ).loc main_arg8)))
      (srcK m ρ c) (dstK m ρ c)) (disK m ρ c) (row64 (m ((c.tc : Thread nD τ).loc main_arg9)))

theorem arg_W3 (b : Ref sig .tc) (hb : b ∈ argsRead) : W3 m ρ c (Proc.devRef .tc b) = m ((c.tc : Thread nD τ).loc b) :=
  args_W3 m ρ c b hb

theorem result : W13 m ρ c (Proc.devRef .tc main_v92)
    = dec (z m ρ c) (e0 (m ((c.tc : Thread nD τ).loc main_arg2)) (m ((c.tc : Thread nD τ).loc main_arg3)))
        (e1 (m ((c.tc : Thread nD τ).loc main_arg2)) (m ((c.tc : Thread nD τ).loc main_arg3))) := by
  have k (W : Valuation τ sig (Elt Ideal)) (h : Agree kept W (W3 m ρ c)) (b : Ref sig .tc) (hb : b ∈ kept) (hb' : b ∈ argsRead) :
      W (Proc.devRef .tc b) = m ((c.tc : Thread nD τ).loc b) := (h b hb).trans (arg_W3 m ρ c b hb')
  have e18 : W4 m ρ c (Proc.devRef .tc main_v18) = R0.G (m ((c.tc : Thread nD τ).loc main_arg0)) (m ((c.tc : Thread nD τ).loc main_arg4)) (disK m ρ c) := by
    refine ((W4_arr m ρ c 3).trans (R0.final (V3 m ρ) c)).trans ?_
    show R0.G (W3 m ρ c (Proc.devRef .tc main_arg0)) (W3 m ρ c (Proc.devRef .tc main_arg4)) (W3 m ρ c (Proc.devRef .tc main_v17)) = _
    rw [arg_W3 m ρ c main_arg0 (by decide), arg_W3 m ρ c main_arg4 (by decide)]
  have e28 : W5 m ρ c (Proc.devRef .tc main_v28) = agg (W4 m ρ c (Proc.devRef .tc main_v18)) (srcK m ρ c) (dstK m ρ c) := by
    refine (h1_v28 (W4 m ρ c)).trans ?_
    rw [a4 m ρ c main_v3 (by decide), a4 m ρ c main_v6 (by decide)]
  have e29 : W5 m ρ c (Proc.devRef .tc main_v29) = row128 (m ((c.tc : Thread nD τ).loc main_arg5)) := by
    refine (h1_v29 (W4 m ρ c)).trans ?_
    rw [k _ (a4 m ρ c) main_arg5 (by decide) (by decide)]
  have e30 : W6 m ρ c (Proc.devRef .tc main_v30) = R1.G (W5 m ρ c (Proc.devRef .tc main_v28)) (disK m ρ c) (W5 m ρ c (Proc.devRef .tc main_v29)) (m ((c.tc : Thread nD τ).loc main_arg6)) := by
    refine ((W6_arr m ρ c 4).trans (R1.final (V5 m ρ) c)).trans ?_
    show R1.G (W5 m ρ c (Proc.devRef .tc main_v28)) (W5 m ρ c (Proc.devRef .tc main_v17)) (W5 m ρ c (Proc.devRef .tc main_v29)) (W5 m ρ c (Proc.devRef .tc main_arg6)) = _
    rw [a5 m ρ c main_v17 (by decide), k _ (a5 m ρ c) main_arg6 (by decide) (by decide)]
  have e40 : W7 m ρ c (Proc.devRef .tc main_v40) = agg (W6 m ρ c (Proc.devRef .tc main_v30)) (srcK m ρ c) (dstK m ρ c) := by
    refine (h2_v40 (W6 m ρ c)).trans ?_
    rw [a6 m ρ c main_v3 (by decide), a6 m ρ c main_v6 (by decide)]
  have e41 : W7 m ρ c (Proc.devRef .tc main_v41) = row128 (m ((c.tc : Thread nD τ).loc main_arg7)) := by
    refine (h2_v41 (W6 m ρ c)).trans ?_
    rw [k _ (a6 m ρ c) main_arg7 (by decide) (by decide)]
  have e42 : W8 m ρ c (Proc.devRef .tc main_v42) = R2.G (W7 m ρ c (Proc.devRef .tc main_v40)) (disK m ρ c) (W7 m ρ c (Proc.devRef .tc main_v41)) (m ((c.tc : Thread nD τ).loc main_arg6)) := by
    refine ((W8_arr m ρ c 4).trans (R2.final (V7 m ρ) c)).trans ?_
    show R2.G (W7 m ρ c (Proc.devRef .tc main_v40)) (W7 m ρ c (Proc.devRef .tc main_v17)) (W7 m ρ c (Proc.devRef .tc main_v41)) (W7 m ρ c (Proc.devRef .tc main_arg6)) = _
    rw [a7 m ρ c main_v17 (by decide), k _ (a7 m ρ c) main_arg6 (by decide) (by decide)]
  have e52 : W9 m ρ c (Proc.devRef .tc main_v52) = agg (W8 m ρ c (Proc.devRef .tc main_v42)) (srcK m ρ c) (dstK m ρ c) := by
    refine (h3_v52 (W8 m ρ c)).trans ?_
    rw [a8 m ρ c main_v3 (by decide), a8 m ρ c main_v6 (by decide)]
  have e53 : W9 m ρ c (Proc.devRef .tc main_v53) = row128 (m ((c.tc : Thread nD τ).loc main_arg7)) := by
    refine (h3_v53 (W8 m ρ c)).trans ?_
    rw [k _ (a8 m ρ c) main_arg7 (by decide) (by decide)]
  have e54 : W10 m ρ c (Proc.devRef .tc main_v54) = R3.G (W9 m ρ c (Proc.devRef .tc main_v52)) (disK m ρ c) (W9 m ρ c (Proc.devRef .tc main_v53)) (m ((c.tc : Thread nD τ).loc main_arg8)) := by
    refine ((W10_arr m ρ c 4).trans (R3.final (V9 m ρ) c)).trans ?_
    show R3.G (W9 m ρ c (Proc.devRef .tc main_v52)) (W9 m ρ c (Proc.devRef .tc main_v17)) (W9 m ρ c (Proc.devRef .tc main_v53)) (W9 m ρ c (Proc.devRef .tc main_arg8)) = _
    rw [a9 m ρ c main_v17 (by decide), k _ (a9 m ρ c) main_arg8 (by decide) (by decide)]
  have e64 : W11 m ρ c (Proc.devRef .tc main_v64) = agg64 (W10 m ρ c (Proc.devRef .tc main_v54)) (srcK m ρ c) (dstK m ρ c) := by
    refine (h4_v64 (W10 m ρ c)).trans ?_
    rw [a10 m ρ c main_v3 (by decide), a10 m ρ c main_v6 (by decide)]
  have e65 : W11 m ρ c (Proc.devRef .tc main_v65) = row64 (m ((c.tc : Thread nD τ).loc main_arg9)) := by
    refine (h4_v65 (W10 m ρ c)).trans ?_
    rw [k _ (a10 m ρ c) main_arg9 (by decide) (by decide)]
  have e66 : W12 m ρ c (Proc.devRef .tc main_v66) = R4.G (W11 m ρ c (Proc.devRef .tc main_v64)) (disK m ρ c) (W11 m ρ c (Proc.devRef .tc main_v65)) := by
    refine ((W12_arr m ρ c 3).trans (R4.final (V11 m ρ) c)).trans ?_
    show R4.G (W11 m ρ c (Proc.devRef .tc main_v64)) (W11 m ρ c (Proc.devRef .tc main_v17)) (W11 m ρ c (Proc.devRef .tc main_v65)) = _
    rw [a11 m ρ c main_v17 (by decide)]
  refine (h5_v92 (W12 m ρ c)).trans ?_
  rw [k _ (a12 m ρ c) main_arg2 (by decide) (by decide), k _ (a12 m ρ c) main_arg3 (by decide) (by decide),
    e66, e64, e65, e54, e52, e53, e42, e40, e41, e30, e28, e29, e18]
  rfl

end Cert.KernelIdeal.Fold

end
-- ==== Proof.LibRowIndexing.lean ====
/-
  Row gathers and row scatters read at an index, and the one law of the extended reals that lets a
  per-row scale factor cross an accumulating scatter.

  * `rowGather_apply`: the gather that `x[idx]` of a matrix `x : [N, C]` at a column `idx : [E, 1]` of row
    numbers lowers to (offset axis 1, collapsed axis 0, one start index per row) reads, at `(e, c)`, the matrix at
    row `idx[e, 0]` — read signed, clamped into `[0, N − 1]` — and column `c`.
  * `vecGather_apply`: the same for a vector `x : [N]`.
  * `rowScatter_resultIdx`: the accumulating scatter of rows `u : [E, C]` into `[N, C]` at the row numbers
    `idx : [E, 1]` lands update `(e, c)` on `(n, c')` only if `idx[e, 0]`, read signed and NOT clamped, is `n`
    and `c = c'`.
  * `sum_mul_of_nonneg_ne_top`: a finite sum of extended reals times a nonnegative finite factor is the sum of
    the products (right distributivity holds for such a factor whatever the summands are).
  * `rowScatterAdd_scale`: hence, if every update that can land on row `n` is another update times `D n`
    (`0 ≤ D n < ⊤`), the scatter of the first into zeros is the scatter of the second into zeros, times `D n`.
-/
import Idealize.ShloMosaic.Lib.ValueIdx
import Idealize.ShloMosaic.PureOps.Ideal

noncomputable section

open scoped BigOperators

namespace Cert.Lib.RowIndexing

open Idealize.ShloMosaic Idealize.ShloMosaic.ValueIdx

/-! ## The dimension numbers -/

/-- `x[idx]` of `x : [N, C]` at `idx : [E, 1]`. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- `x[idx]` of `x : [N]` at `idx : [E, 1]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- `zeros([N, C]).at[idx].add(u)` for `u : [E, C]`, `idx : [E, 1]`. -/
abbrev rowScatterDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-! ## The gathers read at an index -/

theorem rowGather_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N C E wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (rowGatherDims N C E wf).start (ix2 e c) idx 0 + (rowGatherDims N C E wf).batchCoord (ix2 e c) 0
      + (rowGatherDims N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e c) ⟨List.idxOf (0 : Fin 2) (rowGatherDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N C E wf).start (ix2 e c) idx 1 + (rowGatherDims N C E wf).batchCoord (ix2 e c) 1
      + (rowGatherDims N C E wf).offCoord (ix2 e c) 1 = _
    rw [GatherDims.batchCoord_eq_zero _ _ _ List.not_mem_nil]
    have hs : (rowGatherDims N C E wf).start (ix2 e c) idx 1 = 0 := by
      unfold GatherDims.start
      rw [dif_neg (show (1 : Fin 2) ∉ ([0] : List (Fin 2)) by decide)]
    rw [hs]
    simp only [Nat.add_zero, Nat.zero_add]
    rfl

theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Where a row scatter's update lands -/

theorem rowScatter_resultIdx {N C E w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (n : Fin N) (c' : Fin C)
    (h : (rowScatterDims N C E wf).resultIdx? (ix2 e c) idx = some (ix2 n c')) :
    (idx (ix2 e (0 : Fin 1))).toInt = (n.val : Int) ∧ c = c' := by
  unfold ScatterDims.resultIdx? at h
  split at h
  · rename_i hall
    have h' := Option.some.inj h
    have h0 := congrArg (fun f => (f 0).val) h'
    have h1 := congrArg (fun f => (f 1).val) h'
    simp only at h0 h1
    have hs0 : (rowScatterDims N C E wf).start (ix2 e c) idx 0 = (idx (ix2 e (0 : Fin 1))).toInt := by
      unfold ScatterDims.start
      rw [dif_pos (show (0 : Fin 2) ∈ (rowScatterDims N C E wf).scatterDimsToOperandDims from List.mem_singleton.mpr rfl)]
      have hsi : (rowScatterDims N C E wf).siIdx (ix2 e c) ⟨List.idxOf (0 : Fin 2) (rowScatterDims N C E wf).scatterDimsToOperandDims,
          List.idxOf_lt_length_iff.2 (List.mem_singleton.mpr rfl)⟩ = ix2 e (0 : Fin 1) := by
        funext b; refine Fin.ext ?_
        match b with
        | ⟨0, _⟩ => rfl
        | ⟨1, _⟩ => rfl
      rw [hsi]
    have hw0 : (rowScatterDims N C E wf).window (ix2 e c) 0 = 0 := by
      unfold ScatterDims.window
      rw [dif_neg (show (0 : Fin 2) ∉ (rowScatterDims N C E wf).sKept by
        simp [ScatterDims.sKept, Shape.kept, List.mem_filter, List.mem_finRange])]
    have hs1 : (rowScatterDims N C E wf).start (ix2 e c) idx 1 = 0 := by
      unfold ScatterDims.start
      rw [dif_neg (show (1 : Fin 2) ∉ ([0] : List (Fin 2)) by decide)]
    have hw1 : (rowScatterDims N C E wf).window (ix2 e c) 1 = c.val := by
      unfold ScatterDims.window
      rw [dif_pos (show (1 : Fin 2) ∈ (rowScatterDims N C E wf).sKept by
        simp [ScatterDims.sKept, Shape.kept, List.mem_filter, List.mem_finRange])]
      rfl
    have ha0 := (hall 0).1
    rw [hs0, hw0] at h0 ha0
    rw [hs1, hw1] at h1
    simp only [Nat.cast_zero, add_zero, zero_add, Int.toNat_natCast] at h0 h1 ha0
    refine ⟨?_, Fin.ext h1⟩
    have : ((idx (ix2 e (0 : Fin 1))).toInt.toNat : Int) = (idx (ix2 e (0 : Fin 1))).toInt := Int.toNat_of_nonneg ha0
    rw [← this]; exact_mod_cast congrArg (Nat.cast (R := Int)) h0
  · exact absurd h (by simp)

/-! ## A nonnegative finite factor crosses a finite sum of extended reals -/

theorem sum_mul_of_nonneg_ne_top {ι : Type*} (s : Finset ι) (f : ι → EReal) {D : EReal} (h0 : 0 ≤ D) (ht : D ≠ ⊤) :
    (∑ j ∈ s, f j) * D = ∑ j ∈ s, f j * D := by
  classical
  induction s using Finset.induction_on with
  | empty => simp
  | insert a s ha ih =>
    rw [Finset.sum_insert ha, Finset.sum_insert ha, EReal.right_distrib_of_nonneg_of_ne_top h0 ht, ih]

/-- The row scatter into zeros of updates that are, wherever they can land on row `n`, other updates times `D n`,
    is the row scatter of those other updates times `D n`. -/
theorem rowScatterAdd_scale {N C E w : Nat}
    (wf : ScatterDims.WF ⟨2, ![N, C]⟩ ⟨2, ![E, 1]⟩ ⟨2, ![E, C]⟩ [1] [0] [0] 1)
    (idx : IVec ⟨2, ![E, 1]⟩ w) (u u' : (⟨2, ![E, C]⟩ : Shape).Idx → EReal) (D : Fin N → EReal)
    (hD0 : ∀ n, 0 ≤ D n) (hDt : ∀ n, D n ≠ ⊤)
    (h : ∀ (e : Fin E) (c : Fin C) (n : Fin N), (idx (ix2 e (0 : Fin 1))).toInt = (n.val : Int) →
      u (ix2 e c) = u' (ix2 e c) * D n)
    (n : Fin N) (c : Fin C) :
    Ideal.hostScatterAdd (rowScatterDims N C E wf) (fun _ => 0) idx u (ix2 n c)
      = Ideal.hostScatterAdd (rowScatterDims N C E wf) (fun _ => 0) idx u' (ix2 n c) * D n := by
  unfold Ideal.hostScatterAdd
  rw [zero_add, zero_add, sum_mul_of_nonneg_ne_top _ _ (hD0 n) (hDt n)]
  refine Finset.sum_congr rfl fun j hj => ?_
  obtain ⟨e, c₀, rfl⟩ : ∃ (e : Fin E) (c₀ : Fin C), j = ix2 e c₀ := ⟨j 0, j 1, eq_ix2 j⟩
  have hj' := (Finset.mem_filter.mp hj).2
  exact h e c₀ n (rowScatter_resultIdx wf idx e c₀ n c hj').1

/-- ONE GRAPH-CONVOLUTION LAYER, the destination's factor taken out of the sum. With `g` the clamped row a gather reads,
    the scatter into zeros, at the rows `Jdst`, of the messages `hw[g Isrc e] · (dis[g Isrc e] · dis[g Idst e])` is the scatter
    of the messages `H[g Isrc e]`, where `H[n] = hw[n] · dis[n]`, times `dis` of the row — provided `dis` is nonnegative and
    finite, and an update that lands on row `n` (its UNclamped scatter row number is `n`) gathers `dis` at that same `n`. -/
theorem conv_layer {N C E : Nat} (hN : 0 < N)
    (wfG : GatherDims.WF ⟨2, ![N, C]⟩ ⟨2, ![E, 1]⟩ ⟨2, ![E, C]⟩ [1] [0] [] [0] [] 1 ![1, C])
    (wfV : GatherDims.WF ⟨1, ![N]⟩ ⟨2, ![E, 1]⟩ ⟨1, ![E]⟩ [] [0] [] [0] [] 1 ![1])
    (wfS : ScatterDims.WF ⟨2, ![N, C]⟩ ⟨2, ![E, 1]⟩ ⟨2, ![E, C]⟩ [1] [0] [0] 1)
    (hw H : (⟨2, ![N, C]⟩ : Shape).Idx → EReal) (dis : (⟨1, ![N]⟩ : Shape).Idx → EReal)
    (hD0 : ∀ n : Fin N, 0 ≤ dis (ix1 n)) (hDt : ∀ n : Fin N, dis (ix1 n) ≠ ⊤)
    (hH : ∀ (r : Fin N) (q : Fin C), H (ix2 r q) = hw (ix2 r q) * dis (ix1 r))
    (Isrc Idst Jdst : IVec ⟨2, ![E, 1]⟩ 32)
    (hwrap : ∀ (e : Fin E) (n : Fin N), (Jdst (ix2 e (0 : Fin 1))).toInt = (n.val : Int) →
      min (Idst (ix2 e (0 : Fin 1))).toInt.toNat (N - 1) = n.val)
    (nm : (⟨2, ![E, C]⟩ : Shape).Idx → EReal)
    (hnm : ∀ (e : Fin E) (c : Fin C), nm (ix2 e c)
      = Host.gather (vecGatherDims N E wfV) dis Isrc (ix1 e) * Host.gather (vecGatherDims N E wfV) dis Idst (ix1 e))
    (r : Fin N) (q : Fin C) :
    Host.scatterAdd (F := Ideal) (φ := .f32) (rowScatterDims N C E wfS) (fun _ => 0) Jdst
        (mulf (F := Ideal) (φ := .f32) (Host.gather (rowGatherDims N C E wfG) hw Isrc) nm) (ix2 r q)
      = Host.scatterAdd (F := Ideal) (φ := .f32) (rowScatterDims N C E wfS) (fun _ => 0) Jdst
          (Host.gather (rowGatherDims N C E wfG) H Isrc) (ix2 r q) * dis (ix1 r) := by
  show Ideal.hostScatterAdd (rowScatterDims N C E wfS) (fun _ => 0) Jdst
        (fun j => Host.gather (rowGatherDims N C E wfG) hw Isrc j * nm j) (ix2 r q)
      = Ideal.hostScatterAdd (rowScatterDims N C E wfS) (fun _ => 0) Jdst
          (Host.gather (rowGatherDims N C E wfG) H Isrc) (ix2 r q) * dis (ix1 r)
  refine rowScatterAdd_scale wfS Jdst _ _ (fun n => dis (ix1 n)) hD0 hDt ?_ r q
  intro e c n hn
  show Host.gather (rowGatherDims N C E wfG) hw Isrc (ix2 e c) * nm (ix2 e c)
    = Host.gather (rowGatherDims N C E wfG) H Isrc (ix2 e c) * dis (ix1 n)
  rw [rowGather_apply hN, rowGather_apply hN, hnm, vecGather_apply hN, vecGather_apply hN, hH]
  have hn' : (⟨min (Idst (ix2 e (0 : Fin 1))).toInt.toNat (N - 1), by omega⟩ : Fin N) = n := Fin.ext (hwrap e n hn)
  rw [hn', mul_assoc]

end Cert.Lib.RowIndexing

end
-- ==== Proof.LibColumns.lean ====
/-
  Small layout facts about index columns, read at an index.

  * a list `[a]` as a column `[a, 1]` — by a reshape (`shapeCast_col_apply`) or by a `broadcast_in_dim` along axis 0
    (`bcastCol_apply`) — reads at `(i, 0)` the list at `i`;
  * a column `[a, 1]` broadcast across `b` columns reads at `(i, j)` the column at `(i, 0)` (`bcastAcross_apply`);
  * a list `[b]` placed as one row `[1, b]` by a `broadcast_in_dim` along axis 1 reads at `(0, j)` the list at `j`
    (`bcastRow_apply`);
  * a row number that is not negative is not changed by the wrap `select(i < 0, i + N, i)`, and a gather's clamp
    `min (toNat i) (N − 1)` leaves a row number below `N` as it is (`wrap_clamp`).
-/
import Idealize.ShloMosaic.Lib.ValueIdx
import Idealize.ShloMosaic.Lib.ValueLayout
import Idealize.ShloMosaic.Lib.Pipeline.Value

noncomputable section

namespace Cert.Lib.Columns

open Idealize.ShloMosaic Idealize.ShloMosaic.ValueIdx

variable {α : Type}

theorem shapeCast_col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem bcastCol_apply {a : ℕ} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) := by
  refine broadcastInDim_apply ![0] h x (ix2 i u) (ix1 i) ?_
  intro b
  obtain rfl : b = 0 := Subsingleton.elim _ _
  show i.val = if a = 1 then 0 else i.val
  split_ifs with ha
  · have := i.isLt; omega
  · rfl

theorem bcastAcross_apply {a b : ℕ} (h : (⟨2, ![a, 1]⟩ : Shape).BroadcastsInDim ⟨2, ![a, b]⟩ ![0, 1])
    (y : (⟨2, ![a, 1]⟩ : Shape).Idx → α) (i : Fin a) (j : Fin b) :
    broadcastInDim ⟨2, ![a, b]⟩ ![0, 1] h y (ix2 i j) = y (ix2 i (0 : Fin 1)) := by
  refine broadcastInDim_apply ![0, 1] h y (ix2 i j) (ix2 i (0 : Fin 1)) ?_
  intro c
  fin_cases c
  · show i.val = if a = 1 then 0 else i.val
    split_ifs with ha
    · have := i.isLt; omega
    · rfl
  · show (0 : ℕ) = if (1 : ℕ) = 1 then 0 else _
    simp

theorem bcastRow_apply {b : ℕ} (h : (⟨1, ![b]⟩ : Shape).BroadcastsInDim ⟨2, ![1, b]⟩ ![1])
    (x : (⟨1, ![b]⟩ : Shape).Idx → α) (u : Fin 1) (j : Fin b) :
    broadcastInDim ⟨2, ![1, b]⟩ ![1] h x (ix2 u j) = x (ix1 j) := by
  refine broadcastInDim_apply ![1] h x (ix2 u j) (ix1 j) ?_
  intro c
  obtain rfl : c = 0 := Subsingleton.elim _ _
  show j.val = if b = 1 then 0 else j.val
  split_ifs with hb
  · have := j.isLt; omega
  · rfl

/-- A row number `0 ≤ n < N` given as a word: the wrap of negative numbers leaves it, and so does the clamp. -/
theorem wrap_clamp (d : BitVec 32) (N : BitVec 32) (Nn n : ℕ) (h : d.toInt = (n : Int)) (hn : n < Nn) :
    min (Scalar.select (IntOp.cmpi .slt d 0#32) (IntOp.addi d N) d).toInt.toNat (Nn - 1) = n := by
  have hs : IntOp.cmpi .slt d 0#32 = 0#1 := by
    unfold IntOp.cmpi
    have : d.slt 0#32 = false := by
      rw [BitVec.slt_eq_decide]
      simp [h]
    simp [this]
  rw [hs, select_zero, h, Int.toNat_natCast]
  omega

end Cert.Lib.Columns

end
-- ==== Proof.BridgeLayer.lean ====
/-
  One convolution layer of the two programs side by side: the reference scatters the messages `(h·W)[src] · norm` and adds
  the bias; the kernel scatters the messages `((h·W) · dis)[src]`, and its next pallas_call multiplies the row by `dis` and
  adds the bias. They agree because `norm = dis[src] · dis[dst]`, an edge's message lands on the row `dst`, and the factor
  `dis[dst]` — nonnegative and finite — may be taken out of the row's sum (Proof/LibRowIndexing.lean `conv_layer`).
-/
import proofs.«137646_j56495999811606_2_alg».proof.Proof.KernelFold
import proofs.«137646_j56495999811606_2_alg».proof.Proof.RefDefs
import proofs.«137646_j56495999811606_2_alg».proof.Proof.LibRowIndexing
import proofs.«137646_j56495999811606_2_alg».proof.Proof.LibColumns
import Idealize.ShloMosaic.Lib.IdealHost
import Idealize.ShloMosaic.Lib.KernelVsHost
import Idealize.ShloMosaic.PureOps.Ideal.Laws

set_option maxRecDepth 16384

noncomputable section

namespace Cert.Bridge

open Idealize.ShloMosaic Idealize.ShloMosaic.ValueIdx Cert.Lib.RowIndexing Cert.Lib.Columns

/-- The zero word broadcast to any shape is the zero array. -/
theorem zero_splat (T : Shape) (h : (⟨0, ![]⟩ : Shape).BroadcastsInDim T ![]) :
    broadcastInDim T ![] h (constant (F := Ideal) ⟨0, ![]⟩ .f32 0x00000000#32) = fun _ => (0 : EReal) :=
  funext fun i => (broadcastInDim_scalar_apply h _ i).trans Ideal.ofBits_zero_f32

/-- An edge whose destination, read as a signed word, is the row `n` gathers at row `n`: the wrap of negative row numbers
    and the gather's clamp leave a row number in range as it is. -/
theorem wrap_fact (D : IVec ⟨1, ![850000]⟩ 32) (e : Fin 850000) (n : Fin 50000)
    (h : (broadcastInDim ⟨2, ![850000, 1]⟩ ![0] Cert.ReferenceIdeal.Gen.bcast_S850000_S850000x1_0 D (ix2 e (0 : Fin 1))).toInt = (n.val : Int)) :
    min (Cert.ReferenceIdeal.Fold.wrapCol D (ix2 e (0 : Fin 1))).toInt.toNat (50000 - 1) = n.val := by
  rw [bcastCol_apply] at h
  have h2 : Cert.ReferenceIdeal.Fold.wrapCol D (ix2 e (0 : Fin 1))
      = Scalar.select (IntOp.cmpi .slt (D (ix1 e)) 0#32) (IntOp.addi (D (ix1 e)) 50000#32) (D (ix1 e)) := by
    unfold Cert.ReferenceIdeal.Fold.wrapCol
    exact bcastCol_apply _ _ e 0
  rw [h2]
  exact wrap_clamp _ _ 50000 n.val h n.isLt

attribute [local irreducible] Ideal.hostScatterAdd Host.gather

/-- One convolution over 128 columns: the reference's layer is the kernel's aggregation times the row's factor, plus the bias. -/
theorem layer128 (hw H : FVec Ideal ⟨2, ![50000, 128]⟩ .f32) (dis1 : FVec Ideal ⟨1, ![50000]⟩ .f32)
    (hD0 : ∀ n : Fin 50000, 0 ≤ dis1 (ix1 n)) (hDt : ∀ n : Fin 50000, dis1 (ix1 n) ≠ ⊤)
    (hH : ∀ (r : Fin 50000) (q : Fin 128), H (ix2 r q) = hw (ix2 r q) * dis1 (ix1 r))
    (S D : IVec ⟨1, ![850000]⟩ 32) (b : FVec Ideal ⟨1, ![128]⟩ .f32) (r : Fin 50000) (q : Fin 128) :
    Cert.ReferenceIdeal.Fold.conv hw (Cert.ReferenceIdeal.Fold.norm dis1 S D) S D b (ix2 r q) = Cert.KernelIdeal.Fold.agg H S D (ix2 r q) * dis1 (ix1 r) + b (ix1 q) := by
  have hwK : Cert.KernelIdeal.Fold.wrapCol S = Cert.ReferenceIdeal.Fold.wrapCol S := rfl
  have hw' := wrap_fact D
  have hnm : ∀ (e : Fin 850000) (c : Fin 128),
      broadcastInDim ⟨2, ![850000, 128]⟩ ![0, 1] Cert.ReferenceIdeal.Gen.bcast_S850000x1_S850000x128_0_1
        (broadcastInDim ⟨2, ![850000, 1]⟩ ![0] Cert.ReferenceIdeal.Gen.bcast_S850000_S850000x1_0 (Cert.ReferenceIdeal.Fold.norm dis1 S D)) (ix2 e c)
      = Host.gather (vecGatherDims 50000 850000 Cert.ReferenceIdeal.gather_S50000_S850000x1_S850000_n_0_n_n_0_1_1.wf) dis1 (Cert.ReferenceIdeal.Fold.wrapCol S) (ix1 e)
        * Host.gather (vecGatherDims 50000 850000 Cert.ReferenceIdeal.gather_S50000_S850000x1_S850000_n_0_n_n_0_1_1.wf) dis1 (Cert.ReferenceIdeal.Fold.wrapCol D) (ix1 e) :=
    fun e c => (bcastAcross_apply _ _ e c).trans ((bcastCol_apply _ _ e 0).trans rfl)
  unfold Cert.ReferenceIdeal.Fold.conv Cert.KernelIdeal.Fold.agg
  rw [hwK]
  generalize Cert.ReferenceIdeal.Fold.wrapCol S = Isrc at hnm ⊢
  generalize Cert.ReferenceIdeal.Fold.wrapCol D = Idst at hw' hnm
  generalize broadcastInDim ⟨2, ![850000, 128]⟩ ![0, 1] Cert.ReferenceIdeal.Gen.bcast_S850000x1_S850000x128_0_1
    (broadcastInDim ⟨2, ![850000, 1]⟩ ![0] Cert.ReferenceIdeal.Gen.bcast_S850000_S850000x1_0 (Cert.ReferenceIdeal.Fold.norm dis1 S D)) = nm at hnm ⊢
  refine (addf_apply _ _ _).trans ?_
  refine congrArg₂ (· + ·) ?_ ?_
  · rw [zero_splat (⟨2, ![50000, 128]⟩ : Shape) Cert.ReferenceIdeal.Gen.bcast_S_S50000x128]
    exact conv_layer (N := 50000) (C := 128) (E := 850000) (by decide)
      Cert.ReferenceIdeal.gather_S50000x128_S850000x1_S850000x128_1_0_n_n_0_1_1128.wf Cert.ReferenceIdeal.gather_S50000_S850000x1_S850000_n_0_n_n_0_1_1.wf
      Cert.ReferenceIdeal.scatter_S50000x128_S850000x1_S850000x128_1_0_0_1.wf hw H dis1 hD0 hDt hH
      Isrc Idst (broadcastInDim ⟨2, ![850000, 1]⟩ ![0] Cert.ReferenceIdeal.Gen.bcast_S850000_S850000x1_0 D) hw' nm hnm r q
  · exact (broadcastInDim_oneRow_apply _ _ r q).trans (bcastRow_apply _ b 0 q)

/-- One convolution over 64 columns: the reference's layer is the kernel's aggregation times the row's factor, plus the bias. -/
theorem layer64 (hw H : FVec Ideal ⟨2, ![50000, 64]⟩ .f32) (dis1 : FVec Ideal ⟨1, ![50000]⟩ .f32)
    (hD0 : ∀ n : Fin 50000, 0 ≤ dis1 (ix1 n)) (hDt : ∀ n : Fin 50000, dis1 (ix1 n) ≠ ⊤)
    (hH : ∀ (r : Fin 50000) (q : Fin 64), H (ix2 r q) = hw (ix2 r q) * dis1 (ix1 r))
    (S D : IVec ⟨1, ![850000]⟩ 32) (b : FVec Ideal ⟨1, ![64]⟩ .f32) (r : Fin 50000) (q : Fin 64) :
    Cert.ReferenceIdeal.Fold.conv64 hw (Cert.ReferenceIdeal.Fold.norm dis1 S D) S D b (ix2 r q) = Cert.KernelIdeal.Fold.agg64 H S D (ix2 r q) * dis1 (ix1 r) + b (ix1 q) := by
  have hwK : Cert.KernelIdeal.Fold.wrapCol S = Cert.ReferenceIdeal.Fold.wrapCol S := rfl
  have hw' := wrap_fact D
  have hnm : ∀ (e : Fin 850000) (c : Fin 64),
      broadcastInDim ⟨2, ![850000, 64]⟩ ![0, 1] Cert.ReferenceIdeal.Gen.bcast_S850000x1_S850000x64_0_1
        (broadcastInDim ⟨2, ![850000, 1]⟩ ![0] Cert.ReferenceIdeal.Gen.bcast_S850000_S850000x1_0 (Cert.ReferenceIdeal.Fold.norm dis1 S D)) (ix2 e c)
      = Host.gather (vecGatherDims 50000 850000 Cert.ReferenceIdeal.gather_S50000_S850000x1_S850000_n_0_n_n_0_1_1.wf) dis1 (Cert.ReferenceIdeal.Fold.wrapCol S) (ix1 e)
        * Host.gather (vecGatherDims 50000 850000 Cert.ReferenceIdeal.gather_S50000_S850000x1_S850000_n_0_n_n_0_1_1.wf) dis1 (Cert.ReferenceIdeal.Fold.wrapCol D) (ix1 e) :=
    fun e c => (bcastAcross_apply _ _ e c).trans ((bcastCol_apply _ _ e 0).trans rfl)
  unfold Cert.ReferenceIdeal.Fold.conv64 Cert.KernelIdeal.Fold.agg64
  rw [hwK]
  generalize Cert.ReferenceIdeal.Fold.wrapCol S = Isrc at hnm ⊢
  generalize Cert.ReferenceIdeal.Fold.wrapCol D = Idst at hw' hnm
  generalize broadcastInDim ⟨2, ![850000, 64]⟩ ![0, 1] Cert.ReferenceIdeal.Gen.bcast_S850000x1_S850000x64_0_1
    (broadcastInDim ⟨2, ![850000, 1]⟩ ![0] Cert.ReferenceIdeal.Gen.bcast_S850000_S850000x1_0 (Cert.ReferenceIdeal.Fold.norm dis1 S D)) = nm at hnm ⊢
  refine (addf_apply _ _ _).trans ?_
  refine congrArg₂ (· + ·) ?_ ?_
  · rw [zero_splat (⟨2, ![50000, 64]⟩ : Shape) Cert.ReferenceIdeal.Gen.bcast_S_S50000x64]
    exact conv_layer (N := 50000) (C := 64) (E := 850000) (by decide)
      Cert.ReferenceIdeal.gather_S50000x64_S850000x1_S850000x64_1_0_n_n_0_1_164.wf Cert.ReferenceIdeal.gather_S50000_S850000x1_S850000_n_0_n_n_0_1_1.wf
      Cert.ReferenceIdeal.scatter_S50000x64_S850000x1_S850000x64_1_0_0_1.wf hw H dis1 hD0 hDt hH
      Isrc Idst (broadcastInDim ⟨2, ![850000, 1]⟩ ![0] Cert.ReferenceIdeal.Gen.bcast_S850000_S850000x1_0 D) hw' nm hnm r q
  · exact (broadcastInDim_oneRow_apply _ _ r q).trans (bcastRow_apply _ b 0 q)

end Cert.Bridge

end
-- ==== Proof.BridgeChain.lean ====
/-
  The node embeddings of the two programs are one array. Layer by layer: if the kernel's region result is the reference's
  matrix product times each row's factor, then (one layer, Proof/BridgeLayer.lean) the reference's convolution output is the
  kernel's aggregation times the row's factor plus the bias — exactly what the kernel's next region computes before its
  rectifier and matrix product — so the next region's result is again the reference's next matrix product times the row's
  factor. The last region adds the bias without a rectifier and is the reference's last convolution.
-/
import proofs.«137646_j56495999811606_2_alg».proof.Proof.BridgeLayer
import proofs.«137646_j56495999811606_2_alg».proof.Proof.LibPlainDot
import Idealize.ShloMosaic.Lib.ValueLayout

set_option maxRecDepth 16384

noncomputable section

open scoped BigOperators

namespace Cert.Bridge

open Idealize.ShloMosaic Idealize.ShloMosaic.ValueIdx Cert.Lib.RowIndexing Cert.Lib.Columns Cert.Spec

/-- The reference's rectifier at an entry. -/
theorem lrl_apply (c : FVec Ideal ⟨2, ![50000, 128]⟩ .f32) (i : (⟨2, ![50000, 128]⟩ : Shape).Idx) :
    Cert.ReferenceIdeal.Fold.lrl c i = lrelu (c i) := rfl

/-- The reference's matrix products at an entry. -/
theorem dot_apply (h : FVec Ideal ⟨2, ![50000, 128]⟩ .f32) (w : FVec Ideal ⟨2, ![128, 128]⟩ .f32) (r : Fin 50000) (q : Fin 128) :
    Cert.ReferenceIdeal.Fold.dot h w (ix2 r q) = ∑ k : Fin 128, h (ix2 r k) * w (ix2 k q) :=
  Cert.PlainDot.dotGeneral_apply (M := 50000) (K := 128) (N := 128) none .single h w r q
theorem dot64_apply (h : FVec Ideal ⟨2, ![50000, 128]⟩ .f32) (w : FVec Ideal ⟨2, ![128, 64]⟩ .f32) (r : Fin 50000) (q : Fin 64) :
    Cert.ReferenceIdeal.Fold.dot64 h w (ix2 r q) = ∑ k : Fin 128, h (ix2 r k) * w (ix2 k q) :=
  Cert.PlainDot.dotGeneral_apply (M := 50000) (K := 128) (N := 64) none .single h w r q

/-- A bias as one row reads the bias. -/
theorem row128_apply (b : FVec Ideal ⟨1, ![128]⟩ .f32) (k : Fin 128) : Cert.KernelIdeal.Fold.row128 b (ix2 (0 : Fin 1) k) = b (ix1 k) :=
  shapeCast_a_1a_apply b _ 0 k
theorem row64_apply (b : FVec Ideal ⟨1, ![64]⟩ .f32) (k : Fin 64) : Cert.KernelIdeal.Fold.row64 b (ix2 (0 : Fin 1) k) = b (ix1 k) :=
  shapeCast_a_1a_apply b _ 0 k

section
variable (dis1 : FVec Ideal ⟨1, ![50000]⟩ .f32) (d2 : FVec Ideal ⟨2, ![50000, 1]⟩ .f32)
  (hd2 : ∀ r : Fin 50000, d2 (ix2 r (0 : Fin 1)) = dis1 (ix1 r))
include hd2

/-- The first region: the row block of `x · W1`, each row times its factor. -/
theorem first (x : FVec Ideal ⟨2, ![50000, 128]⟩ .f32) (w1 : FVec Ideal ⟨2, ![128, 128]⟩ .f32) (r : Fin 50000) (q : Fin 128) :
    Cert.KernelIdeal.R0.G x w1 d2 (ix2 r q) = Cert.ReferenceIdeal.Fold.dot x w1 (ix2 r q) * dis1 (ix1 r) := by
  rw [Cert.KernelIdeal.R0.G_apply, dot_apply, hd2]

/-- A middle region (128 output columns), given what the previous layer established. -/
theorem step128 (A c : FVec Ideal ⟨2, ![50000, 128]⟩ .f32) (bb : FVec Ideal ⟨1, ![128]⟩ .f32)
    (hl : ∀ (r : Fin 50000) (k : Fin 128), c (ix2 r k) = A (ix2 r k) * dis1 (ix1 r) + bb (ix1 k))
    (w : FVec Ideal ⟨2, ![128, 128]⟩ .f32) (r : Fin 50000) (q : Fin 128) :
    Cert.KernelIdeal.R1.G A d2 (Cert.KernelIdeal.Fold.row128 bb) w (ix2 r q) = Cert.ReferenceIdeal.Fold.dot (Cert.ReferenceIdeal.Fold.lrl c) w (ix2 r q) * dis1 (ix1 r) := by
  rw [Cert.KernelIdeal.R1.G_apply, dot_apply, hd2]
  refine congrArg (· * _) (Finset.sum_congr rfl fun k _ => ?_)
  rw [lrl_apply, hl, row128_apply]

/-- The last matrix region (64 output columns). -/
theorem step64 (A c : FVec Ideal ⟨2, ![50000, 128]⟩ .f32) (bb : FVec Ideal ⟨1, ![128]⟩ .f32)
    (hl : ∀ (r : Fin 50000) (k : Fin 128), c (ix2 r k) = A (ix2 r k) * dis1 (ix1 r) + bb (ix1 k))
    (w : FVec Ideal ⟨2, ![128, 64]⟩ .f32) (r : Fin 50000) (q : Fin 64) :
    Cert.KernelIdeal.R3.G A d2 (Cert.KernelIdeal.Fold.row128 bb) w (ix2 r q) = Cert.ReferenceIdeal.Fold.dot64 (Cert.ReferenceIdeal.Fold.lrl c) w (ix2 r q) * dis1 (ix1 r) := by
  rw [Cert.KernelIdeal.R3.G_apply, dot64_apply, hd2]
  refine congrArg (· * _) (Finset.sum_congr rfl fun k _ => ?_)
  rw [lrl_apply, hl, row128_apply]

/-- THE EMBEDDINGS AGREE: the kernel's five regions with its four aggregations between them compute the reference's four
    convolutions with its three rectifiers between them — for any edge lists, and any factor that is nonnegative and finite. -/
theorem embeddings (hD0 : ∀ n : Fin 50000, 0 ≤ dis1 (ix1 n)) (hDt : ∀ n : Fin 50000, dis1 (ix1 n) ≠ ⊤)
    (S D : IVec ⟨1, ![850000]⟩ 32)
    (x : FVec Ideal ⟨2, ![50000, 128]⟩ .f32) (w1 : FVec Ideal ⟨2, ![128, 128]⟩ .f32) (b1 : FVec Ideal ⟨1, ![128]⟩ .f32)
    (w : FVec Ideal ⟨2, ![128, 128]⟩ .f32) (b : FVec Ideal ⟨1, ![128]⟩ .f32) (w2 : FVec Ideal ⟨2, ![128, 64]⟩ .f32)
    (b2 : FVec Ideal ⟨1, ![64]⟩ .f32) :
    Cert.KernelIdeal.R4.G (Cert.KernelIdeal.Fold.agg64 (Cert.KernelIdeal.R3.G (Cert.KernelIdeal.Fold.agg (Cert.KernelIdeal.R2.G (Cert.KernelIdeal.Fold.agg (Cert.KernelIdeal.R1.G (Cert.KernelIdeal.Fold.agg (Cert.KernelIdeal.R0.G x w1 d2) S D) d2 (Cert.KernelIdeal.Fold.row128 b1) w)
        S D) d2 (Cert.KernelIdeal.Fold.row128 b) w) S D) d2 (Cert.KernelIdeal.Fold.row128 b) w2) S D) d2 (Cert.KernelIdeal.Fold.row64 b2)
      = Cert.ReferenceIdeal.Fold.conv64 (Cert.ReferenceIdeal.Fold.dot64 (Cert.ReferenceIdeal.Fold.lrl (Cert.ReferenceIdeal.Fold.conv (Cert.ReferenceIdeal.Fold.dot (Cert.ReferenceIdeal.Fold.lrl (Cert.ReferenceIdeal.Fold.conv (Cert.ReferenceIdeal.Fold.dot (Cert.ReferenceIdeal.Fold.lrl (Cert.ReferenceIdeal.Fold.conv (Cert.ReferenceIdeal.Fold.dot x w1)
          (Cert.ReferenceIdeal.Fold.norm dis1 S D) S D b1)) w) (Cert.ReferenceIdeal.Fold.norm dis1 S D) S D b)) w) (Cert.ReferenceIdeal.Fold.norm dis1 S D) S D b)) w2)
          (Cert.ReferenceIdeal.Fold.norm dis1 S D) S D b2 := by
  have p0 := first dis1 d2 hd2 x w1
  have l1 := layer128 _ _ dis1 hD0 hDt p0 S D b1
  have p1 := step128 dis1 d2 hd2 _ _ b1 l1 w
  have l2 := layer128 _ _ dis1 hD0 hDt p1 S D b
  have p2 : ∀ (r : Fin 50000) (q : Fin 128), Cert.KernelIdeal.R2.G _ d2 (Cert.KernelIdeal.Fold.row128 b) w (ix2 r q) = _ := step128 dis1 d2 hd2 _ _ b l2 w
  have l3 := layer128 _ _ dis1 hD0 hDt p2 S D b
  have p3 := step64 dis1 d2 hd2 _ _ b l3 w2
  have l4 := layer64 _ _ dis1 hD0 hDt p3 S D b2
  funext i
  obtain ⟨r, q, rfl⟩ : ∃ (r : Fin 50000) (q : Fin 64), i = ix2 r q := ⟨i 0, i 1, eq_ix2 i⟩
  rw [Cert.KernelIdeal.R4.G_apply, hd2, row64_apply]
  exact (l4 r q).symm

end

end Cert.Bridge

end
-- ==== Proof.LibInvSqrtDeg.lean ====
/-
  The symmetric-normalization factor of a graph convolution, `where(deg > 0, rsqrt(max(deg, ε)), 0)`, is a
  nonnegative FINITE extended real whatever the degree is — an infinite degree gives `rsqrt ⊤ = 0`, a degree at
  most zero the `0` branch, a positive real degree the real `1/√max(deg, ε)` — provided `ε` is positive. That is all a
  proof needs of the factor to move it across a sum (right distributivity of the extended reals holds for such a factor).
-/
import Idealize.ShloMosaic.PureOps.Ideal
import Idealize.ShloMosaic.Lib.IdealHost

noncomputable section

namespace Cert.Lib.InvSqrtDeg

open Idealize.ShloMosaic

/-- `rsqrt` of a positive extended real is a nonnegative finite one. -/
theorem rsqrt_nonneg_ne_top {x : EReal} (hx : 0 < x) : 0 ≤ Ideal.rsqrt x ∧ Ideal.rsqrt x ≠ ⊤ := by
  induction x using EReal.rec with
  | bot => exact absurd hx (by simp)
  | top => exact ⟨le_of_eq (by rfl), by show (0 : EReal) ≠ ⊤; exact EReal.zero_ne_top⟩
  | coe r =>
    have hr : 0 < r := EReal.coe_pos.mp hx
    have e : Ideal.rsqrt (r : EReal) = (((Real.sqrt r)⁻¹ : ℝ) : EReal) := by
      show (if r < 0 then (⊥ : EReal) else if r = 0 then ⊤ else (((Real.sqrt r)⁻¹ : ℝ) : EReal)) = _
      rw [if_neg (not_lt.mpr hr.le), if_neg hr.ne']
    rw [e]
    exact ⟨EReal.coe_nonneg.mpr (inv_nonneg.mpr (Real.sqrt_nonneg r)), EReal.coe_ne_top _⟩

/-- The f32 pattern `0x2B8CBCCC` (the float nearest 1e-12) is positive. -/
theorem eps_pos : (0 : EReal) < Ideal.ofBits .f32 0x2B8CBCCC#32 := by
  have e : Ideal.ofBits .f32 0x2B8CBCCC#32 = (((9223372 : ℝ) * (2 : ℝ) ^ (-63 : Int) : ℝ) : EReal) := by
    simp [Ideal.ofBits, Ideal.ieee, -EReal.coe_mul]
  rw [e]
  exact EReal.coe_pos.mpr (by positivity)

/-- The factor at one node: nonnegative and finite, for every degree. -/
theorem factor_nonneg_ne_top (deg zero eps fill : EReal) (hz : zero = 0) (he : 0 < eps) (hf : fill = 0) :
    0 ≤ Scalar.select (Ideal.cmp .ogt deg zero) (Ideal.rsqrt (max deg eps)) fill
      ∧ Scalar.select (Ideal.cmp .ogt deg zero) (Ideal.rsqrt (max deg eps)) fill ≠ ⊤ := by
  unfold Scalar.select
  split
  · exact rsqrt_nonneg_ne_top (lt_of_lt_of_le he (le_max_right _ _))
  · subst hf; exact ⟨le_refl _, EReal.zero_ne_top⟩

end Cert.Lib.InvSqrtDeg

end
-- ==== Proof.BridgePrefix.lean ====
/-
  What the two programs share before and after the layers. Before: the kernel's host prefix leaves the reference's edge
  lists and the reference's degree factor (as a column); the factor is nonnegative and finite at every node. After: the
  decoder's two index lists agree — the kernel joins row `i` of the positive edges to row `i` of the negative ones, the
  reference takes row `i` of the two arrays joined side by side.
-/
import proofs.«137646_j56495999811606_2_alg».proof.Proof.KernelFold
import proofs.«137646_j56495999811606_2_alg».proof.Proof.RefDefs
import proofs.«137646_j56495999811606_2_alg».proof.Proof.LibInvSqrtDeg
import proofs.«137646_j56495999811606_2_alg».proof.Proof.LibColumns
import Idealize.ShloMosaic.Lib.Pipeline.Frame
import Idealize.ShloMosaic.Lib.ValueLayout

set_option maxRecDepth 16384

noncomputable section

namespace Cert.Bridge

open Idealize.ShloMosaic Idealize.ShloMosaic.ValueIdx Cert.Lib.Columns

/-! ## The host prefix -/

section Prefix
open Cert.KernelIdeal Cert.KernelIdeal.Gen Idealize.ShloMosaic.TcCoe Idealize.ShloMosaic.StableHlo

attribute [local irreducible] Host.gather Host.scatterAdd

/-- The degree factor's select, on its three operands. -/
def whereK (c : IVec S50000 1) (a : FVec Ideal S50000 .f32) (s : FVec Ideal S_ .f32) : FVec Ideal S50000 .f32 :=
  select c a (broadcastInDim S50000 ![] bcast_S_S50000 (id s))

theorem dis_eq (g : FVec Ideal S50000 .f32) :
    Cert.ReferenceIdeal.Fold.dis g = whereK (cmpf .ogt g (broadcastInDim S50000 ![] bcast_S_S50000 (constant (F := Ideal) S_ .f32 0x00000000#32))) (Host.rsqrt (maximumf g (broadcastInDim S50000 ![] bcast_S_S50000 (constant (F := Ideal) S_ .f32 0x2B8CBCCC#32)))) (constant (F := Ideal) S_ .f32 0x00000000#32) := rfl

variable (W : Valuation τ sig (Elt Ideal))

theorem p0_v3 : after hostOps0 W (Proc.devRef .tc main_v3) = Cert.ReferenceIdeal.Fold.src (W (Proc.devRef .tc main_arg1)) := by
  unfold Cert.ReferenceIdeal.Fold.src; simp only [hostOps0, Cert.ReferenceIdeal.Fold.cat2_fun]; after_results_simp; try rfl
theorem p0_v6 : after hostOps0 W (Proc.devRef .tc main_v6) = Cert.ReferenceIdeal.Fold.dst (W (Proc.devRef .tc main_arg1)) := by
  unfold Cert.ReferenceIdeal.Fold.dst; simp only [hostOps0, Cert.ReferenceIdeal.Fold.cat2_fun]; after_results_simp; try rfl
theorem p0_v12 : after hostOps0 W (Proc.devRef .tc main_v12)
    = cmpf .ogt (Cert.ReferenceIdeal.Fold.deg (Cert.ReferenceIdeal.Fold.dst (W (Proc.devRef .tc main_arg1)))) (broadcastInDim S50000 ![] bcast_S_S50000 (constant (F := Ideal) S_ .f32 0x00000000#32)) := by
  unfold Cert.ReferenceIdeal.Fold.deg Cert.ReferenceIdeal.Fold.dst; simp only [hostOps0, Cert.ReferenceIdeal.Fold.cat2_fun]; after_results_simp; try rfl
theorem p0_v15 : after hostOps0 W (Proc.devRef .tc main_v15)
    = Host.rsqrt (maximumf (Cert.ReferenceIdeal.Fold.deg (Cert.ReferenceIdeal.Fold.dst (W (Proc.devRef .tc main_arg1)))) (broadcastInDim S50000 ![] bcast_S_S50000 (constant (F := Ideal) S_ .f32 0x2B8CBCCC#32))) := by
  unfold Cert.ReferenceIdeal.Fold.deg Cert.ReferenceIdeal.Fold.dst; simp only [hostOps0, Cert.ReferenceIdeal.Fold.cat2_fun]; after_results_simp; try rfl
theorem p0_c3 : after hostOps0 W (Proc.devRef .tc main_cst_3) = constant (F := Ideal) S_ .f32 0x00000000#32 := by
  simp only [hostOps0, Cert.ReferenceIdeal.Fold.cat2_fun]; after_results_simp
theorem p1_v16 : after hostOps0_1 W (Proc.devRef .tc main_v16)
    = whereK (W (Proc.devRef .tc main_v12)) (W (Proc.devRef .tc main_v15)) (W (Proc.devRef .tc main_cst_3)) := by
  simp only [hostOps0_1, after_cons, after_nil]; rfl
theorem p2_v17 : after hostOps0_2 W (Proc.devRef .tc main_v17)
    = shapeCast S50000x1 (W (Proc.devRef .tc main_v16)) shapeCasts_S50000_S50000x1 := by
  simp only [hostOps0_2]; after_results_simp; rfl

local macro "not_written" ops:ident : tactic => `(tactic| (
  refine after_of_forall_not_mem _ _ (List.forall_iff_forall_mem.mp ?_)
  simp only [$ops:ident, List.Forall, nullary_writes, unary_writes, binary_writes, ternary_writes, reshape_writes, Finset.mem_singleton]
  repeat' apply And.intro
  all_goals exact devRef_ne_of_ne (by decide)))

theorem k1_v3 : after hostOps0_1 W (Proc.devRef .tc main_v3) = W (Proc.devRef .tc main_v3) := by not_written hostOps0_1
theorem k1_v6 : after hostOps0_1 W (Proc.devRef .tc main_v6) = W (Proc.devRef .tc main_v6) := by not_written hostOps0_1
theorem k2_v3 : after hostOps0_2 W (Proc.devRef .tc main_v3) = W (Proc.devRef .tc main_v3) := by not_written hostOps0_2
theorem k2_v6 : after hostOps0_2 W (Proc.devRef .tc main_v6) = W (Proc.devRef .tc main_v6) := by not_written hostOps0_2

variable (m : (ℓ : Loc nD τ sig) → Buf (Elt Ideal) ℓ) (ρ : Dev nD → PrngReg) (c : Dev nD)

theorem srcK_eq : Cert.KernelIdeal.Fold.srcK m ρ c = Cert.ReferenceIdeal.Fold.src (m ((c.tc : Thread nD τ).loc main_arg1)) :=
  (k2_v3 (W2 m ρ c)).trans ((k1_v3 (W1 m ρ c)).trans (p0_v3 (W0 m ρ c)))
theorem dstK_eq : Cert.KernelIdeal.Fold.dstK m ρ c = Cert.ReferenceIdeal.Fold.dst (m ((c.tc : Thread nD τ).loc main_arg1)) :=
  (k2_v6 (W2 m ρ c)).trans ((k1_v6 (W1 m ρ c)).trans (p0_v6 (W0 m ρ c)))
theorem disK_eq : Cert.KernelIdeal.Fold.disK m ρ c
    = shapeCast S50000x1 (Cert.ReferenceIdeal.Fold.dis (Cert.ReferenceIdeal.Fold.deg (Cert.ReferenceIdeal.Fold.dst (m ((c.tc : Thread nD τ).loc main_arg1))))) shapeCasts_S50000_S50000x1 := by
  refine (p2_v17 (W2 m ρ c)).trans ?_
  rw [show W2 m ρ c (Proc.devRef .tc main_v16) = _ from p1_v16 (W1 m ρ c),
    show W1 m ρ c (Proc.devRef .tc main_v12) = _ from p0_v12 (W0 m ρ c),
    show W1 m ρ c (Proc.devRef .tc main_v15) = _ from p0_v15 (W0 m ρ c),
    show W1 m ρ c (Proc.devRef .tc main_cst_3) = _ from p0_c3 (W0 m ρ c), dis_eq]

end Prefix

/-- The factor as a column reads the factor. -/
theorem col_apply (dis1 : FVec Ideal ⟨1, ![50000]⟩ .f32) (h : (⟨1, ![50000]⟩ : Shape).ShapeCasts ⟨2, ![50000, 1]⟩) (r : Fin 50000) :
    shapeCast ⟨2, ![50000, 1]⟩ dis1 h (ix2 r (0 : Fin 1)) = dis1 (ix1 r) := shapeCast_col_apply dis1 h r 0

/-- The degree factor is nonnegative and finite at every node, whatever the degrees are. -/
theorem dis_nonneg_ne_top (g : FVec Ideal ⟨1, ![50000]⟩ .f32) (n : Fin 50000) :
    0 ≤ Cert.ReferenceIdeal.Fold.dis g (ix1 n) ∧ Cert.ReferenceIdeal.Fold.dis g (ix1 n) ≠ ⊤ :=
  Cert.Lib.InvSqrtDeg.factor_nonneg_ne_top (g (ix1 n)) (Ideal.ofBits .f32 0x00000000#32) (Ideal.ofBits .f32 0x2B8CBCCC#32)
    (Ideal.ofBits .f32 0x00000000#32) Ideal.ofBits_zero_f32 Cert.Lib.InvSqrtDeg.eps_pos Ideal.ofBits_zero_f32

end Cert.Bridge

end
-- ==== Proof.BridgeDecoder.lean ====
/-
  The decoder's two index lists agree: position `j` of the kernel's list — row `i` of the positive edges, then row `i` of the
  negative ones — and of the reference's — row `i` of the two edge arrays joined side by side — is entry `(i, j)` of the
  positive edges for `j < 200000` and entry `(i, j − 200000)` of the negative ones from there on.
-/
import proofs.«137646_j56495999811606_2_alg».proof.Proof.KernelFold
import proofs.«137646_j56495999811606_2_alg».proof.Proof.RefDefs
import Idealize.ShloMosaic.Lib.Pipeline.Value
import Idealize.ShloMosaic.Lib.ValueLayout

set_option maxRecDepth 16384

noncomputable section

namespace Cert.Bridge

open Idealize.ShloMosaic Idealize.ShloMosaic.ValueIdx

set_option maxHeartbeats 1000000

theorem e0K_left (a2 a3 : IVec ⟨2, ![2, 200000]⟩ 32) (j0 : Fin 400000) (hlt : j0.val < 200000) :
    Cert.KernelIdeal.Fold.e0 a2 a3 (ix1 j0) = a2 (ix2 (0 : Fin 2) (⟨j0.val, hlt⟩ : Fin 200000)) := by
  unfold Cert.KernelIdeal.Fold.e0
  refine (concatenate_pair_apply_left (t := ⟨1, ![400000]⟩) (s₁ := ⟨1, ![200000]⟩) (s₂ := ⟨1, ![200000]⟩) (0 : Fin 1) _ _ _ (ix1 j0) rfl
    (ix1 (⟨j0.val, hlt⟩ : Fin 200000)) (fun b => by obtain rfl : b = 0 := Subsingleton.elim _ _; rfl)).trans ?_
  refine (shapeCast_1a_a_apply _ _ (⟨j0.val, hlt⟩ : Fin 200000)).trans ?_
  exact extractStridedSlice_apply (s := ⟨2, ![2, 200000]⟩) (t := ⟨2, ![1, 200000]⟩) ![0, 0] a2 _ (ix2 (0 : Fin 1) (⟨j0.val, hlt⟩ : Fin 200000))
    (ix2 (0 : Fin 2) (⟨j0.val, hlt⟩ : Fin 200000)) (fun a => by
      match a with
      | ⟨0, _⟩ => rfl
      | ⟨1, _⟩ => exact (Nat.zero_add _).symm)

theorem e0R_left (a2 a3 : IVec ⟨2, ![2, 200000]⟩ 32) (j0 : Fin 400000) (hlt : j0.val < 200000) :
    Cert.ReferenceIdeal.Fold.e0 a2 a3 (ix1 j0) = a2 (ix2 (0 : Fin 2) (⟨j0.val, hlt⟩ : Fin 200000)) := by
  unfold Cert.ReferenceIdeal.Fold.e0
  refine (shapeCast_1a_a_apply _ _ j0).trans ?_
  refine (extractStridedSlice_apply (s := ⟨2, ![2, 400000]⟩) (t := ⟨2, ![1, 400000]⟩) ![0, 0] _ _ (ix2 (0 : Fin 1) j0)
    (ix2 (0 : Fin 2) j0) (fun a => by
      match a with
      | ⟨0, _⟩ => rfl
      | ⟨1, _⟩ => exact (Nat.zero_add _).symm)).trans ?_
  exact concatenate_pair_apply_left (t := ⟨2, ![2, 400000]⟩) (s₁ := ⟨2, ![2, 200000]⟩) (s₂ := ⟨2, ![2, 200000]⟩) (1 : Fin 2) a2 a3 _
    (ix2 (0 : Fin 2) j0) rfl (ix2 (0 : Fin 2) (⟨j0.val, hlt⟩ : Fin 200000))
    (fun b => by match b with | ⟨0, _⟩ => rfl | ⟨1, _⟩ => rfl)

theorem e0K_right (a2 a3 : IVec ⟨2, ![2, 200000]⟩ 32) (j0 : Fin 400000) (k : Fin 200000) (hk : k.val + 200000 = j0.val) :
    Cert.KernelIdeal.Fold.e0 a2 a3 (ix1 j0) = a3 (ix2 (0 : Fin 2) k) := by
  unfold Cert.KernelIdeal.Fold.e0
  refine (concatenate_pair_apply_right (t := ⟨1, ![400000]⟩) (s₁ := ⟨1, ![200000]⟩) (s₂ := ⟨1, ![200000]⟩) (0 : Fin 1) _ _ _ (ix1 j0) rfl rfl
    (ix1 k)
    (fun b hb => by obtain rfl : b = 0 := Subsingleton.elim _ _; exact absurd rfl hb)
    hk).trans ?_
  refine (shapeCast_1a_a_apply _ _ k).trans ?_
  exact extractStridedSlice_apply (s := ⟨2, ![2, 200000]⟩) (t := ⟨2, ![1, 200000]⟩) ![0, 0] a3 _
    (ix2 (0 : Fin 1) k) (ix2 (0 : Fin 2) k) (fun a => by
      match a with
      | ⟨0, _⟩ => rfl
      | ⟨1, _⟩ => exact (Nat.zero_add _).symm)

theorem e0R_right (a2 a3 : IVec ⟨2, ![2, 200000]⟩ 32) (j0 : Fin 400000) (k : Fin 200000) (hk : k.val + 200000 = j0.val) :
    Cert.ReferenceIdeal.Fold.e0 a2 a3 (ix1 j0) = a3 (ix2 (0 : Fin 2) k) := by
  unfold Cert.ReferenceIdeal.Fold.e0
  refine (shapeCast_1a_a_apply _ _ j0).trans ?_
  refine (extractStridedSlice_apply (s := ⟨2, ![2, 400000]⟩) (t := ⟨2, ![1, 400000]⟩) ![0, 0] _ _ (ix2 (0 : Fin 1) j0)
    (ix2 (0 : Fin 2) j0) (fun a => by
      match a with
      | ⟨0, _⟩ => rfl
      | ⟨1, _⟩ => exact (Nat.zero_add _).symm)).trans ?_
  exact concatenate_pair_apply_right (t := ⟨2, ![2, 400000]⟩) (s₁ := ⟨2, ![2, 200000]⟩) (s₂ := ⟨2, ![2, 200000]⟩) (1 : Fin 2) a2 a3 _
    (ix2 (0 : Fin 2) j0) rfl rfl (ix2 (0 : Fin 2) k)
    (fun b hb => by
      match b with
      | ⟨0, _⟩ => rfl
      | ⟨1, _⟩ => exact absurd rfl hb)
    hk

theorem e0_eq (a2 a3 : IVec ⟨2, ![2, 200000]⟩ 32) : Cert.KernelIdeal.Fold.e0 a2 a3 = Cert.ReferenceIdeal.Fold.e0 a2 a3 := by
  funext j
  obtain ⟨j0, rfl⟩ : ∃ j0 : Fin 400000, j = ix1 j0 := ⟨j 0, eq_ix1 j⟩
  by_cases hlt : j0.val < 200000
  · exact (e0K_left a2 a3 j0 hlt).trans (e0R_left a2 a3 j0 hlt).symm
  · have hj : j0.val < 400000 := j0.isLt
    have hge : 200000 ≤ j0.val := Nat.le_of_not_lt hlt
    have hlt' : j0.val - 200000 < 200000 := by omega
    exact (e0K_right a2 a3 j0 ⟨j0.val - 200000, hlt'⟩ (Nat.sub_add_cancel hge)).trans
      (e0R_right a2 a3 j0 ⟨j0.val - 200000, hlt'⟩ (Nat.sub_add_cancel hge)).symm

theorem e1K_left (a2 a3 : IVec ⟨2, ![2, 200000]⟩ 32) (j0 : Fin 400000) (hlt : j0.val < 200000) :
    Cert.KernelIdeal.Fold.e1 a2 a3 (ix1 j0) = a2 (ix2 (1 : Fin 2) (⟨j0.val, hlt⟩ : Fin 200000)) := by
  unfold Cert.KernelIdeal.Fold.e1
  refine (concatenate_pair_apply_left (t := ⟨1, ![400000]⟩) (s₁ := ⟨1, ![200000]⟩) (s₂ := ⟨1, ![200000]⟩) (0 : Fin 1) _ _ _ (ix1 j0) rfl
    (ix1 (⟨j0.val, hlt⟩ : Fin 200000)) (fun b => by obtain rfl : b = 0 := Subsingleton.elim _ _; rfl)).trans ?_
  refine (shapeCast_1a_a_apply _ _ (⟨j0.val, hlt⟩ : Fin 200000)).trans ?_
  exact extractStridedSlice_apply (s := ⟨2, ![2, 200000]⟩) (t := ⟨2, ![1, 200000]⟩) ![1, 0] a2 _ (ix2 (0 : Fin 1) (⟨j0.val, hlt⟩ : Fin 200000))
    (ix2 (1 : Fin 2) (⟨j0.val, hlt⟩ : Fin 200000)) (fun a => by
      match a with
      | ⟨0, _⟩ => rfl
      | ⟨1, _⟩ => exact (Nat.zero_add _).symm)

theorem e1R_left (a2 a3 : IVec ⟨2, ![2, 200000]⟩ 32) (j0 : Fin 400000) (hlt : j0.val < 200000) :
    Cert.ReferenceIdeal.Fold.e1 a2 a3 (ix1 j0) = a2 (ix2 (1 : Fin 2) (⟨j0.val, hlt⟩ : Fin 200000)) := by
  unfold Cert.ReferenceIdeal.Fold.e1
  refine (shapeCast_1a_a_apply _ _ j0).trans ?_
  refine (extractStridedSlice_apply (s := ⟨2, ![2, 400000]⟩) (t := ⟨2, ![1, 400000]⟩) ![1, 0] _ _ (ix2 (0 : Fin 1) j0)
    (ix2 (1 : Fin 2) j0) (fun a => by
      match a with
      | ⟨0, _⟩ => rfl
      | ⟨1, _⟩ => exact (Nat.zero_add _).symm)).trans ?_
  exact concatenate_pair_apply_left (t := ⟨2, ![2, 400000]⟩) (s₁ := ⟨2, ![2, 200000]⟩) (s₂ := ⟨2, ![2, 200000]⟩) (1 : Fin 2) a2 a3 _
    (ix2 (1 : Fin 2) j0) rfl (ix2 (1 : Fin 2) (⟨j0.val, hlt⟩ : Fin 200000))
    (fun b => by match b with | ⟨0, _⟩ => rfl | ⟨1, _⟩ => rfl)

theorem e1K_right (a2 a3 : IVec ⟨2, ![2, 200000]⟩ 32) (j0 : Fin 400000) (k : Fin 200000) (hk : k.val + 200000 = j0.val) :
    Cert.KernelIdeal.Fold.e1 a2 a3 (ix1 j0) = a3 (ix2 (1 : Fin 2) k) := by
  unfold Cert.KernelIdeal.Fold.e1
  refine (concatenate_pair_apply_right (t := ⟨1, ![400000]⟩) (s₁ := ⟨1, ![200000]⟩) (s₂ := ⟨1, ![200000]⟩) (0 : Fin 1) _ _ _ (ix1 j0) rfl rfl
    (ix1 k)
    (fun b hb => by obtain rfl : b = 0 := Subsingleton.elim _ _; exact absurd rfl hb)
    hk).trans ?_
  refine (shapeCast_1a_a_apply _ _ k).trans ?_
  exact extractStridedSlice_apply (s := ⟨2, ![2, 200000]⟩) (t := ⟨2, ![1, 200000]⟩) ![1, 0] a3 _
    (ix2 (0 : Fin 1) k) (ix2 (1 : Fin 2) k) (fun a => by
      match a with
      | ⟨0, _⟩ => rfl
      | ⟨1, _⟩ => exact (Nat.zero_add _).symm)

theorem e1R_right (a2 a3 : IVec ⟨2, ![2, 200000]⟩ 32) (j0 : Fin 400000) (k : Fin 200000) (hk : k.val + 200000 = j0.val) :
    Cert.ReferenceIdeal.Fold.e1 a2 a3 (ix1 j0) = a3 (ix2 (1 : Fin 2) k) := by
  unfold Cert.ReferenceIdeal.Fold.e1
  refine (shapeCast_1a_a_apply _ _ j0).trans ?_
  refine (extractStridedSlice_apply (s := ⟨2, ![2, 400000]⟩) (t := ⟨2, ![1, 400000]⟩) ![1, 0] _ _ (ix2 (0 : Fin 1) j0)
    (ix2 (1 : Fin 2) j0) (fun a => by
      match a with
      | ⟨0, _⟩ => rfl
      | ⟨1, _⟩ => exact (Nat.zero_add _).symm)).trans ?_
  exact concatenate_pair_apply_right (t := ⟨2, ![2, 400000]⟩) (s₁ := ⟨2, ![2, 200000]⟩) (s₂ := ⟨2, ![2, 200000]⟩) (1 : Fin 2) a2 a3 _
    (ix2 (1 : Fin 2) j0) rfl rfl (ix2 (1 : Fin 2) k)
    (fun b hb => by
      match b with
      | ⟨0, _⟩ => rfl
      | ⟨1, _⟩ => exact absurd rfl hb)
    hk

theorem e1_eq (a2 a3 : IVec ⟨2, ![2, 200000]⟩ 32) : Cert.KernelIdeal.Fold.e1 a2 a3 = Cert.ReferenceIdeal.Fold.e1 a2 a3 := by
  funext j
  obtain ⟨j0, rfl⟩ : ∃ j0 : Fin 400000, j = ix1 j0 := ⟨j 0, eq_ix1 j⟩
  by_cases hlt : j0.val < 200000
  · exact (e1K_left a2 a3 j0 hlt).trans (e1R_left a2 a3 j0 hlt).symm
  · have hj : j0.val < 400000 := j0.isLt
    have hge : 200000 ≤ j0.val := Nat.le_of_not_lt hlt
    have hlt' : j0.val - 200000 < 200000 := by omega
    exact (e1K_right a2 a3 j0 ⟨j0.val - 200000, hlt'⟩ (Nat.sub_add_cancel hge)).trans
      (e1R_right a2 a3 j0 ⟨j0.val - 200000, hlt'⟩ (Nat.sub_add_cancel hge)).symm

end Cert.Bridge

end
-- ==== Proof.BridgeFinal.lean ====
/-
  The two results are one array: the embeddings agree (Proof/BridgeChain.lean) once the kernel's host prefix is read as the
  reference's edge lists and degree factor (Proof/BridgePrefix.lean), the decoder's index lists agree
  (Proof/BridgeDecoder.lean), and the decoder itself is one function of the embeddings and the two lists.
-/
import proofs.«137646_j56495999811606_2_alg».proof.Proof.BridgeChain
import proofs.«137646_j56495999811606_2_alg».proof.Proof.BridgePrefix
import proofs.«137646_j56495999811606_2_alg».proof.Proof.BridgeDecoder

set_option maxRecDepth 16384

noncomputable section

namespace Cert.Bridge

open Idealize.ShloMosaic Idealize.ShloMosaic.ValueIdx Idealize.SL.Sem

attribute [local irreducible] Host.gather Host.reduceAdd Host.scatterAdd

/-- The decoder is the same function in the two programs. -/
theorem dec_eq : @Cert.KernelIdeal.Fold.dec = @Cert.ReferenceIdeal.Fold.dec := rfl

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- The kernel's embeddings are the reference's, of the same argument arrays. -/
theorem z_eq : Cert.KernelIdeal.Fold.z m ρ c = Cert.ReferenceIdeal.Fold.z (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  unfold Cert.KernelIdeal.Fold.z Cert.ReferenceIdeal.Fold.z
  rw [srcK_eq m ρ c, dstK_eq m ρ c, disK_eq m ρ c]
  exact embeddings (Cert.ReferenceIdeal.Fold.dis (Cert.ReferenceIdeal.Fold.deg (Cert.ReferenceIdeal.Fold.dst (m ((c.tc : Thread Cert.KernelIdeal.nD Cert.KernelIdeal.τ).loc Cert.KernelIdeal.main_arg1))))) _ (col_apply _ _)
    (fun n => (dis_nonneg_ne_top _ n).1) (fun n => (dis_nonneg_ne_top _ n).2)
    (Cert.ReferenceIdeal.Fold.src (m ((c.tc : Thread Cert.KernelIdeal.nD Cert.KernelIdeal.τ).loc Cert.KernelIdeal.main_arg1))) (Cert.ReferenceIdeal.Fold.dst (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))

/-- The kernel's result is the reference's, of the same argument arrays. -/
theorem final_eq : Cert.KernelIdeal.Fold.dec (Cert.KernelIdeal.Fold.z m ρ c) (Cert.KernelIdeal.Fold.e0 (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (Cert.KernelIdeal.Fold.e1 (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
    = Cert.ReferenceIdeal.Fold.dec (Cert.ReferenceIdeal.Fold.z (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
        (Cert.ReferenceIdeal.Fold.e0 (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (Cert.ReferenceIdeal.Fold.e1 (m ((c.tc : Thread Cert.KernelIdeal.nD Cert.KernelIdeal.τ).loc Cert.KernelIdeal.main_arg2)) (m ((c.tc : Thread Cert.KernelIdeal.nD Cert.KernelIdeal.τ).loc Cert.KernelIdeal.main_arg3))) := by
  rw [z_eq m ρ c, e0_eq, e1_eq, dec_eq]

end Cert.Bridge

end
-- ==== Proof.lean ====
/-
  A four-layer graph convolution network with an edge-dot decoder: the kernel against its plain-jnp reference.

  Both programs build the same edge lists (the given edges followed by one self-loop per node), the same degrees and the
  same per-node factor  dis = where(deg > 0, rsqrt(max(deg, ε)), 0).  A layer of the reference is
      out[n] = Σ_{e : dst e = n} (h·W)[src e] · (dis[src e] · dis[dst e]) + b,
  a layer of the kernel
      out[n] = (Σ_{e : dst e = n} ((h·W)[src e] · dis[src e])) · dis[n] + b :
  the factor of the destination node is taken out of the sum over the node's incoming edges. Over the extended reals
  that is right distributivity for a NONNEGATIVE FINITE factor, which holds whatever the summands are
  (Proof/LibRowIndexing.lean), and `dis` is such a factor for every degree (Proof/LibInvSqrtDeg.lean); the matrix
  products agree because a change of float format is the identity there and a product accumulated on the matrix unit
  into zeros is the host's dot_general (Proof/LibPlainDot.lean).

  The three frames: the two kernels' from the generated launch over the thirteen segments of @main; the reference's from
  its run as one line of host operations (Proof/RefOps.lean, Proof/RefFrame.lean), none of which writes an argument.
  `preserves` has no conjunct: the ideal pass rewrote nothing.
-/
import proofs.«137646_j56495999811606_2_alg».proof.Defs
import proofs.«137646_j56495999811606_2_alg».proof.Proof.Gen.Kernel
import proofs.«137646_j56495999811606_2_alg».proof.Proof.Gen.Kernel.Frame
import proofs.«137646_j56495999811606_2_alg».proof.Proof.Gen.KernelIdeal
import proofs.«137646_j56495999811606_2_alg».proof.Proof.Gen.KernelIdeal.Frame
import proofs.«137646_j56495999811606_2_alg».proof.Proof.Gen.ReferenceIdeal
import proofs.«137646_j56495999811606_2_alg».proof.Proof.Gen.Pre_finite_inputs
import proofs.«137646_j56495999811606_2_alg».proof.Proof.RefFrame
import proofs.«137646_j56495999811606_2_alg».proof.Proof.KernelRun
import proofs.«137646_j56495999811606_2_alg».proof.Proof.RefFold
import proofs.«137646_j56495999811606_2_alg».proof.Proof.BridgeFinal
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.RefRun.run_val (F := Ideal) m ρ)

theorem preserves : Cert.preserves_Kernel_KernelIdeal := trivial

/-- Both programs run, and end with one result: the kernel's at the last boundary of its segments is the decoder of its
    embeddings (Proof/KernelFold.lean), the reference's at the end of its line is the decoder of its own (Proof/RefFold.lean),
    and the two are equal (Proof/BridgeFinal.lean) once the memories agree on the arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Fold.dec (Cert.KernelIdeal.Fold.z m ρ c) (Cert.KernelIdeal.Fold.e0 (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (Cert.KernelIdeal.Fold.e1 (m ((c.tc : Thread Cert.KernelIdeal.nD Cert.KernelIdeal.τ).loc Cert.KernelIdeal.main_arg2)) (m ((c.tc : Thread Cert.KernelIdeal.nD Cert.KernelIdeal.τ).loc Cert.KernelIdeal.main_arg3))), ?_, ?_⟩
  · exact (θ_run Cert.KernelIdeal.defs _ _).mono (fun r h c => ⟨(h c).1.trans (Cert.KernelIdeal.Fold.result m ρ c), (h c).2⟩)
      (Cert.KernelIdeal.Val.run_val (F := Ideal) m ρ)
  · refine (θ_run Cert.ReferenceIdeal.defs _ _).mono (fun r h c => ⟨?_, (h c).2⟩)
      (Cert.ReferenceIdeal.RefRun.run_val (F := Ideal) m' ρ')
    refine ((h c).1.trans (Cert.ReferenceIdeal.Fold.result (StableHlo.launchContents m' c))).trans ?_
    obtain ⟨h0, h1, h2, h3, h4, h5, h6, h7, h8, h9⟩ := hagree c
    show Cert.ReferenceIdeal.Fold.dec (Cert.ReferenceIdeal.Fold.z (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)))
        (Cert.ReferenceIdeal.Fold.e0 (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))) (Cert.ReferenceIdeal.Fold.e1 (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))) = _
    rw [h0, h1, h2, h3, h4, h5, h6, h7, h8, h9]
    exact (Cert.Bridge.final_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
